-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v54)) (v1 : (c : Dev Cert.KernelIdeal.nD) → Buf (Elt Ideal) ((c.tc : Thread Cert.KernelIdeal.nD Cert.KernelIdeal.τ).loc Cert.KernelIdeal.main_v52)) (v2 : (c : Dev Cert.KernelIdeal.nD) → Buf (Elt Ideal) ((c.tc : Thread Cert.KernelIdeal.nD Cert.KernelIdeal.τ).loc Cert.KernelIdeal.main_v18_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_v18_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v4) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000 : Shape := ⟨1, ![100000]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S2x128x128 : Shape := ⟨3, ![2, 128, 128]⟩
abbrev S2x128 : Shape := ⟨2, ![2, 128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000 : S_.BroadcastsInDim S100000 (![] : Fin 0 → Fin S100000.rank)
  reducesTo_S100000_S_d0 : S100000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S1 .f32) (main_arg13 : FVec F S128x1 .f32) (main_arg14 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S128x1 .f32 := Host.absf main_arg13
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_v64 : FVec F S1 .f32 := Host.absf main_arg14
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg8 : FVec F S2x128 .f32) (main_arg9 : FVec F S2x128x128 .f32) (main_arg10 : FVec F S2x128 .f32) (main_arg11 : FVec F S128x1 .f32) (main_arg12 : FVec F S1 .f32) (main_arg13 : FVec F S128x1 .f32) (main_arg14 : FVec F S1 .f32) (main_v33 : IVec S_ 1) : IVec S_ 1 :=
  let main_v34 : FVec F S2x128 .f32 := Host.absf main_arg8
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2x128x128 .f32 := Host.absf main_arg9
  let main_cst_14 : FVec F S_ .f32 := constant S_ .f32 0x7F800000#32
  let main_v40 : FVec F S2x128x128 .f32 := broadcastInDim S2x128x128 ![] bcast_S_S2x128x128 main_cst_14
  let main_v41 : IVec S2x128x128 1 := cmpf .olt main_v39 main_v40
  let main_c_15 : IVec S_ 1 := constantI S_ 1 1#1
  let main_v42 : IVec S_ 1 := (fun x v => Host.reduce IntOp.andi x v reducesTo_S2x128x128_S_d0_1_2 h_S_) main_v41 main_c_15
  let main_v43 : IVec S_ 1 := andi main_v38 main_v42
  let main_v44 : FVec F S2x128 .f32 := Host.absf main_arg10
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S128x1 .f32 := Host.absf main_arg11
  let main_cst_18 : FVec F S_ .f32 := constant S_ .f32 0x7F800000#32
  let main_v50 : FVec F S128x1 .f32 := broadcastInDim S128x1 ![] bcast_S_S128x1 main_cst_18
  fn_part3 (F := F) main_arg12 main_arg13 main_arg14 main_v48 main_v49 main_v50

def fn_part1 {F : FTy → Type} [FloatOps F] (main_arg5 : FVec F S64x64 .f32) (main_arg6 : FVec F S64 .f32) (main_arg7 : FVec F S2x128x128 .f32) (main_arg8 : FVec F S2x128 .f32) (main_arg9 : FVec F S2x128x128 .f32) (main_arg10 : FVec F S2x128 .f32) (main_arg11 : FVec F S128x1 .f32) (main_arg12 : FVec F S1 .f32) (main_arg13 : FVec F S128x1 .f32) (main_arg14 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S2x128x128 .f32 := Host.absf main_arg7
  let main_cst_10 : FVec F S_ .f32 := constant S_ .f32 0x7F800000#32
  let main_v30 : FVec F S2x128x128 .f32 := broadcastInDim S2x128x128 ![] bcast_S_S2x128x128 main_cst_10
  let main_v31 : IVec S2x128x128 1 := cmpf .olt main_v29 main_v30
  let main_c_11 : IVec S_ 1 := constantI S_ 1 1#1
  let main_v32 : IVec S_ 1 := (fun x v => Host.reduce IntOp.andi x v reducesTo_S2x128x128_S_d0_1_2 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x128 .f32) (main_arg1 : FVec F S100000 .f32) (main_arg2 : IVec S2x1600000 32) (main_arg3 : FVec F S128x64 .f32) (main_arg4 : FVec F S64 .f32) (main_arg5 : FVec F S64x64 .f32) (main_arg6 : FVec F S64 .f32) (main_arg7 : FVec F S2x128x128 .f32) (main_arg8 : FVec F S2x128 .f32) (main_arg9 : FVec F S2x128x128 .f32) (main_arg10 : FVec F S2x128 .f32) (main_arg11 : FVec F S128x1 .f32) (main_arg12 : FVec F S1 .f32) (main_arg13 : FVec F S128x1 .f32) (main_arg14 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000 .f32 := Host.absf main_arg1
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x128 : Shape := ⟨2, ![100000, 128]⟩
abbrev S100000 : Shape := ⟨1, ![100000]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S2x128x128 : Shape := ⟨3, ![2, 128, 128]⟩
abbrev S2x128 : Shape := ⟨2, ![2, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1x64 : Shape := ⟨2, ![1, 64]⟩
abbrev S100000x64 : Shape := ⟨2, ![100000, 64]⟩
abbrev S4000x128 : Shape := ⟨2, ![4000, 128]⟩
abbrev S4000x1 : Shape := ⟨2, ![4000, 1]⟩
abbrev S4000x64 : Shape := ⟨2, ![4000, 64]⟩
abbrev S1700000x64 : Shape := ⟨2, ![1700000, 64]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S128x256 : Shape := ⟨2, ![128, 256]⟩
abbrev S256 : Shape := ⟨1, ![256]⟩
abbrev S128x2 : Shape := ⟨2, ![128, 2]⟩
abbrev S256x2 : Shape := ⟨2, ![256, 2]⟩
abbrev S2 : Shape := ⟨1, ![2]⟩
abbrev S1x256 : Shape := ⟨2, ![1, 256]⟩
abbrev S1x2 : Shape := ⟨2, ![1, 2]⟩
abbrev S100000x2 : Shape := ⟨2, ![100000, 2]⟩
abbrev S4000x2 : Shape := ⟨2, ![4000, 2]⟩
abbrev S4000x256 : Shape := ⟨2, ![4000, 256]⟩

abbrev nBuf : Space → Nat
  | .hbm => 82
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S100000, .f32⟩
  | .hbm, ⟨2, _⟩ => ⟨S2x1600000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S2x128x128, .f32⟩
  | .hbm, ⟨8, _⟩ => ⟨S2x128, .f32⟩
  | .hbm, ⟨9, _⟩ => ⟨S2x128x128, .f32⟩
  | .hbm, ⟨10, _⟩ => ⟨S2x128, .f32⟩
  | .hbm, ⟨11, _⟩ => ⟨S128x1, .f32⟩
  | .hbm, ⟨12, _⟩ => ⟨S1, .f32⟩
  | .hbm, ⟨13, _⟩ => ⟨S128x1, .f32⟩
  | .hbm, ⟨14, _⟩ => ⟨S1, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S100000, .i32⟩
  | .hbm, ⟨20, _⟩ => ⟨S1700000, .i32⟩
  | .hbm, ⟨21, _⟩ => ⟨S1700000, .i32⟩
  | .hbm, ⟨22, _⟩ => ⟨S_, .f32⟩
  | .hbm, ⟨23, _⟩ => ⟨S1700000, .f32⟩
  | .hbm, ⟨24, _⟩ => ⟨S_, .f32⟩
  | .hbm, ⟨25, _⟩ => ⟨S100000, .f32⟩
  | .hbm, ⟨26, _⟩ => ⟨S1700000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x1, .f32⟩
  | .hbm, ⟨38, _⟩ => ⟨S1x64, .f32⟩
  | .hbm, ⟨39, _⟩ => ⟨S100000x64, .f32⟩
  | .hbm, ⟨40, _⟩ => ⟨S100000x64, .bf16⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000x64, .bf16⟩
  | .hbm, ⟨50, _⟩ => ⟨S1700000x64, .f32⟩
  | .hbm, ⟨51, _⟩ => ⟨S_, .f32⟩
  | .hbm, ⟨52, _⟩ => ⟨S100000x64, .f32⟩
  | .hbm, ⟨53, _⟩ => ⟨S1700000x1, .i32⟩
  | .hbm, ⟨54, _⟩ => ⟨S100000x64, .f32⟩
  | .hbm, ⟨55, _⟩ => ⟨S1x128x128, .f32⟩
  | .hbm, ⟨56, _⟩ => ⟨S128x128, .f32⟩
  | .hbm, ⟨57, _⟩ => ⟨S1x128, .f32⟩
  | .hbm, ⟨58, _⟩ => ⟨S128, .f32⟩
  | .hbm, ⟨59, _⟩ => ⟨S1x128x128, .f32⟩
  | .hbm, ⟨60, _⟩ => ⟨S128x128, .f32⟩
  | .hbm, ⟨61, _⟩ => ⟨S1x128, .f32⟩
  | .hbm, ⟨62, _⟩ => ⟨S128, .f32⟩
  | .hbm, ⟨63, _⟩ => ⟨S128x256, .f32⟩
  | .hbm, ⟨64, _⟩ => ⟨S256, .f32⟩
  | .hbm, ⟨65, _⟩ => ⟨S_, .f32⟩
  | .hbm, ⟨66, _⟩ => ⟨S128x1, .f32⟩
  | .hbm, ⟨67, _⟩ => ⟨S128x2, .f32⟩
  | .hbm, ⟨68, _⟩ => ⟨S_, .f32⟩
  | .hbm, ⟨69, _⟩ => ⟨S128x1, .f32⟩
  | .hbm, ⟨70, _⟩ => ⟨S128x2, .f32⟩
  | .hbm, ⟨71, _⟩ => ⟨S256x2, .f32⟩
  | .hbm, ⟨72, _⟩ => ⟨S2, .f32⟩
  | .hbm, ⟨73, _⟩ => ⟨S100000x1, .f32⟩
  | .hbm, ⟨74, _⟩ => ⟨S1x64, .f32⟩
  | .hbm, ⟨75, _⟩ => ⟨S1x256, .f32⟩
  | .hbm, ⟨76, _⟩ => ⟨S1x2, .f32⟩
  | .hbm, ⟨77, _⟩ => ⟨S100000x2, .f32⟩
  | .hbm, ⟨78, _⟩ => ⟨S100000x1, .f32⟩
  | .hbm, ⟨79, _⟩ => ⟨S100000, .f32⟩
  | .hbm, ⟨80, _⟩ => ⟨S100000x1, .f32⟩
  | .hbm, ⟨81, _⟩ => ⟨S100000, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S4000x1, .f32⟩
  | .local _ .vmem, ⟨5, _⟩ => ⟨S4000x1, .f32⟩
  | .local _ .vmem, ⟨6, _⟩ => ⟨S128x64, .f32⟩
  | .local _ .vmem, ⟨7, _⟩ => ⟨S1x64, .f32⟩
  | .local _ .vmem, ⟨8, _⟩ => ⟨S64x64, .f32⟩
  | .local _ .vmem, ⟨9, _⟩ => ⟨S4000x64, .f32⟩
  | .local _ .vmem, ⟨10, _⟩ => ⟨S4000x64, .f32⟩
  | .local _ .vmem, ⟨11, _⟩ => ⟨S4000x64, .bf16⟩
  | .local _ .vmem, ⟨12, _⟩ => ⟨S4000x64, .bf16⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S4000x1, .f32⟩
  | .local _ .vmem, ⟨18, _⟩ => ⟨S4000x1, .f32⟩
  | .local _ .vmem, ⟨19, _⟩ => ⟨S1x64, .f32⟩
  | .local _ .vmem, ⟨20, _⟩ => ⟨S128x256, .f32⟩
  | .local _ .vmem, ⟨21, _⟩ => ⟨S1x256, .f32⟩
  | .local _ .vmem, ⟨22, _⟩ => ⟨S256x2, .f32⟩
  | .local _ .vmem, ⟨23, _⟩ => ⟨S1x2, .f32⟩
  | .local _ .vmem, ⟨24, _⟩ => ⟨S4000x2, .f32⟩
  | .local _ .vmem, ⟨25, _⟩ => ⟨S4000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18_0 : Ref sig .tc := ⟨.hbm, 39, rfl⟩
abbrev main_v18_1 : Ref sig .tc := ⟨.hbm, 40, rfl⟩
abbrev main_c : Ref sig .tc := ⟨.hbm, 41, rfl⟩
abbrev main_v19 : Ref sig .tc := ⟨.hbm, 42, rfl⟩
abbrev main_v20 : Ref sig .tc := ⟨.hbm, 43, rfl⟩
abbrev main_c_3 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_4 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_5 : Ref sig .tc := ⟨.hbm, 65, rfl⟩
abbrev main_v40 : Ref sig .tc := ⟨.hbm, 66, rfl⟩
abbrev main_v41 : Ref sig .tc := ⟨.hbm, 67, rfl⟩
abbrev main_cst_6 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem8_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4000x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x2 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S4000x2 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  shapeCasts_S64_S1x64 : S64.ShapeCasts S1x64
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S64x64_S64x64_0_0 : ∀ a, (![0, 0] : Fin 2 → Nat) a + S64x64.size a ≤ S64x64.size a
  h_S64x64 : 0 < S64x64.numel
  packedbf16_S4000x64_S4000x64_0_0 : (Rect.unit (s := S4000x64) ![0, 0] S4000x64.size inb_S4000x64_S4000x64_0_0).PackedRows (EltTy.packing .bf16)
  bcast_S_S100000x64 : S_.BroadcastsInDim S100000x64 (![] : Fin 0 → Fin S100000x64.rank)
  slices_S2x128x128_S1x128x128_1_0_0 : S2x128x128.Slices ![1, 0, 0] S1x128x128
  shapeCasts_S1x128x128_S128x128 : S1x128x128.ShapeCasts S128x128
  slices_S2x128_S1x128_1_0 : S2x128.Slices ![1, 0] S1x128
  shapeCasts_S1x128_S128 : S1x128.ShapeCasts S128
  concatenates_S128x128_S128x128_S128x256_d1 : Shape.Concatenates [S128x128, S128x128] S128x256 1
  concatenates_S128_S128_S256_d0 : Shape.Concatenates [S128, S128] S256 0
  bcast_S_S128x1 : S_.BroadcastsInDim S128x1 (![] : Fin 0 → Fin S128x1.rank)
  concatenates_S128x1_S128x1_S128x2_d1 : Shape.Concatenates [S128x1, S128x1] S128x2 1
  concatenates_S128x2_S128x2_S256x2_d0 : Shape.Concatenates [S128x2, S128x2] S256x2 0
  concatenates_S1_S1_S2_d0 : Shape.Concatenates [S1, S1] S2 0
  shapeCasts_S256_S1x256 : S256.ShapeCasts S1x256
  shapeCasts_S2_S1x2 : S2.ShapeCasts S1x2
  shapeCasts_S4000x64_S4000x64 : S4000x64.ShapeCasts S4000x64
  concatenates_S4000x64_S4000x64_S4000x128_d1 : Shape.Concatenates [S4000x64, S4000x64] S4000x128 1
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4000x2 : S1x2.Broadcasts S4000x2
  inb_S4000x2_S4000x2_0_0 : ∀ a, (![0, 0] : Fin 2 → Nat) a + S4000x2.size a ≤ S4000x2.size a
  h_S4000x2 : 0 < S4000x2.numel
  slices_S100000x2_S100000x1_0_0 : S100000x2.Slices ![0, 0] S100000x1
  shapeCasts_S100000x1_S100000 : S100000x1.ShapeCasts S100000
  slices_S100000x2_S100000x1_0_1 : S100000x2.Slices ![0, 1] S100000x1
  scatter_S100000_S1700000x1_S1700000_n_0_0_1_wf : ScatterDims.WF S100000 S1700000x1 S1700000 [] [0] [0] 1
  dot_S4000x128_S128x64_S4000x64_1_0_0_1_n_n_wf : DotDims.WF S4000x128 S128x64 S4000x64 [1] [0] [0] [1] [] []
  dot_S4000x64_S64x64_S4000x64_1_0_0_1_n_n_wf : DotDims.WF S4000x64 S64x64 S4000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S4000x128_S128x256_S4000x256_1_0_0_1_n_n_wf : DotDims.WF S4000x128 S128x256 S4000x256 [1] [0] [0] [1] [] []
  dot_S4000x256_S256x2_S4000x2_1_0_0_1_n_n_wf : DotDims.WF S4000x256 S256x2 S4000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x64.size a ≤ S100000x64.size a
  hwx0_6 : ∀ i : grid0.Coords, EltTy.bits .f32 = 32 ∨ (Rect.block (s := S100000x64) S4000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x64.size a ≤ S100000x64.size a
  hwx0_7 : ∀ i : grid0.Coords, EltTy.bits .bf16 = 32 ∨ (Rect.block (s := S100000x64) S4000x64.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S128x256.size a
  hwx1_4 : ∀ i : grid1.Coords, EltTy.bits .f32 = 32 ∨ (Rect.block (s := S128x256) S128x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x2.size a ≤ S256x2.size a
  hwx1_6 : ∀ i : grid1.Coords, EltTy.bits .f32 = 32 ∨ (Rect.block (s := S256x2) S256x2.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x2.size a ≤ S1x2.size a
  hwx1_7 : ∀ i : grid1.Coords, EltTy.bits .f32 = 32 ∨ (Rect.block (s := S1x2) S1x2.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4000x2.size a ≤ S100000x2.size a
  hwx1_8 : ∀ i : grid1.Coords, EltTy.bits .f32 = 32 ∨ (Rect.block (s := S100000x2) S4000x2.size (cc1_transform_8 i) (hinb1_8 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S4000x256_S256x2_S4000x2_1_0_0_1_n_n : DotDims S4000x256 S256x2 S4000x2 where
  lhsContracting := [1]
  rhsContracting := [0]
  lhsNonContracting := [0]
  rhsNonContracting := [1]
  lhsBatch := []
  rhsBatch := []
  wf := dot_S4000x256_S256x2_S4000x2_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18_0) S4000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v18_1) S4000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v18_0) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S256x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v49) S1x2.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v50) S4000x2.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x128 : Shape := ⟨2, ![100000, 128]⟩
abbrev S100000 : Shape := ⟨1, ![100000]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S2x128x128 : Shape := ⟨3, ![2, 128, 128]⟩
abbrev S2x128 : Shape := ⟨2, ![2, 128]⟩
abbrev S128x1 : Shape := ⟨2, ![128, 1]⟩
abbrev S1 : Shape := ⟨1, ![1]⟩
abbrev S100000x64 : Shape := ⟨2, ![100000, 64]⟩
abbrev S1x64 : Shape := ⟨2, ![1, 64]⟩
abbrev S_ : Shape := ⟨0, ![]⟩
abbrev S100000x1 : Shape := ⟨2, ![100000, 1]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1700000x64 : Shape := ⟨2, ![1700000, 64]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x1 : Shape := ⟨2, ![1, 1]⟩

abbrev nBuf : Space → Nat
  | .hbm => 140
  | .vmem => 0
  | .smem => 0
  | _ => 0

abbrev hbmTy0_0 (i : Nat) : BufTy := match i % 128 with
  | 0 => ⟨S100000x128, .f32⟩
  | 1 => ⟨S100000, .f32⟩
  | 2 => ⟨S2x1600000, .i32⟩
  | 3 => ⟨S128x64, .f32⟩
  | 4 => ⟨S64, .f32⟩
  | 5 => ⟨S64x64, .f32⟩
  | 6 => ⟨S64, .f32⟩
  | 7 => ⟨S2x128x128, .f32⟩
  | 8 => ⟨S2x128, .f32⟩
  | 9 => ⟨S2x128x128, .f32⟩
  | 10 => ⟨S2x128, .f32⟩
  | 11 => ⟨S128x1, .f32⟩
  | 12 => ⟨S1, .f32⟩
  | 13 => ⟨S128x1, .f32⟩
  | 14 => ⟨S1, .f32⟩
  | 15 => ⟨S100000x64, .f32⟩
  | 16 => ⟨S1x64, .f32⟩
  | 17 => ⟨S100000x64, .f32⟩
  | 18 => ⟨S100000x64, .f32⟩
  | 19 => ⟨S_, .f32⟩
  | 20 => ⟨S100000x64, .f32⟩
  | 21 => ⟨S100000x64, .f32⟩
  | 22 => ⟨S100000x1, .f32⟩
  | 23 => ⟨S100000x64, .f32⟩
  | 24 => ⟨S100000x64, .f32⟩
  | 25 => ⟨S100000x64, .f32⟩
  | 26 => ⟨S100000, .i32⟩
  | 27 => ⟨S1x1600000, .i32⟩
  | 28 => ⟨S1600000, .i32⟩
  | 29 => ⟨S1700000, .i32⟩
  | 30 => ⟨S1x1600000, .i32⟩
  | 31 => ⟨S1600000, .i32⟩
  | 32 => ⟨S1700000, .i32⟩
  | 33 => ⟨S_, .f32⟩
  | 34 => ⟨S1700000, .f32⟩
  | 35 => ⟨S_, .f32⟩
  | 36 => ⟨S100000, .f32⟩
  | 37 => ⟨S1700000x1, .i32⟩
  | 38 => ⟨S100000, .f32⟩
  | 39 => ⟨S_, .f32⟩
  | 40 => ⟨S100000, .f32⟩
  | 41 => ⟨S100000, .i1⟩
  | 42 => ⟨S100000, .f32⟩
  | 43 => ⟨S_, .f32⟩
  | 44 => ⟨S_, .f32⟩
  | 45 => ⟨S100000, .f32⟩
  | 46 => ⟨S100000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000, .f32⟩
  | 65 => ⟨S1700000, .f32⟩
  | 66 => ⟨S_, .i32⟩
  | 67 => ⟨S1700000, .i32⟩
  | 68 => ⟨S1700000, .i1⟩
  | 69 => ⟨S_, .i32⟩
  | 70 => ⟨S1700000, .i32⟩
  | 71 => ⟨S1700000, .i32⟩
  | 72 => ⟨S1700000, .i32⟩
  | 73 => ⟨S1700000x1, .i32⟩
  | 74 => ⟨S1700000x64, .f32⟩
  | 75 => ⟨S1700000x1, .f32⟩
  | 76 => ⟨S1700000x64, .f32⟩
  | 77 => ⟨S1700000x64, .f32⟩
  | 78 => ⟨S_, .f32⟩
  | 79 => ⟨S100000x64, .f32⟩
  | 80 => ⟨S1700000x1, .i32⟩
  | 81 => ⟨S100000x64, .f32⟩
  | 82 => ⟨S1x64, .f32⟩
  | 83 => ⟨S100000x64, .f32⟩
  | 84 => ⟨S100000x64, .f32⟩
  | 85 => ⟨S100000x128, .f32⟩
  | 86 => ⟨S1x128x128, .f32⟩
  | 87 => ⟨S128x128, .f32⟩
  | 88 => ⟨S100000x128, .f32⟩
  | 89 => ⟨S1x128, .f32⟩
  | 90 => ⟨S128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S1x128x128, .f32⟩
  | 98 => ⟨S128x128, .f32⟩
  | 99 => ⟨S100000x128, .f32⟩
  | 100 => ⟨S1x128, .f32⟩
  | 101 => ⟨S128, .f32⟩
  | 102 => ⟨S1x128, .f32⟩
  | 103 => ⟨S100000x128, .f32⟩
  | 104 => ⟨S100000x128, .f32⟩
  | 105 => ⟨S_, .f32⟩
  | 106 => ⟨S100000x128, .f32⟩
  | 107 => ⟨S100000x128, .f32⟩
  | 108 => ⟨S1x128x128, .f32⟩
  | 109 => ⟨S128x128, .f32⟩
  | 110 => ⟨S100000x128, .f32⟩
  | 111 => ⟨S1x128, .f32⟩
  | 112 => ⟨S128, .f32⟩
  | 113 => ⟨S1x128, .f32⟩
  | 114 => ⟨S100000x128, .f32⟩
  | 115 => ⟨S100000x128, .f32⟩
  | 116 => ⟨S_, .f32⟩
  | 117 => ⟨S100000x128, .f32⟩
  | 118 => ⟨S100000x128, .f32⟩
  | 119 => ⟨S1x128x128, .f32⟩
  | 120 => ⟨S128x128, .f32⟩
  | 121 => ⟨S100000x128, .f32⟩
  | 122 => ⟨S1x128, .f32⟩
  | 123 => ⟨S128, .f32⟩
  | 124 => ⟨S1x128, .f32⟩
  | 125 => ⟨S100000x128, .f32⟩
  | 126 => ⟨S100000x128, .f32⟩
  | 127 => ⟨S_, .f32⟩
  | _ => ⟨S100000x128, .f32⟩

abbrev hbmTy0_1 (i : Nat) : BufTy := match i % 128 with
  | 0 => ⟨S100000x128, .f32⟩
  | 1 => ⟨S100000x128, .f32⟩
  | 2 => ⟨S100000x1, .f32⟩
  | 3 => ⟨S1x1, .f32⟩
  | 4 => ⟨S100000x1, .f32⟩
  | 5 => ⟨S100000x1, .f32⟩
  | 6 => ⟨S100000, .f32⟩
  | 7 => ⟨S100000x1, .f32⟩
  | 8 => ⟨S1x1, .f32⟩
  | 9 => ⟨S100000x1, .f32⟩
  | 10 => ⟨S100000x1, .f32⟩
  | 11 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_cst : Ref sig .tc := ⟨.hbm, 19, rfl⟩
abbrev main_call0_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_cst_0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_1 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_call1_v0 : Ref sig .tc := ⟨.hbm, 44, rfl⟩
abbrev main_call1_v1 : Ref sig .tc := ⟨.hbm, 45, rfl⟩
abbrev main_v23 : Ref sig .tc := ⟨.hbm, 46, rfl⟩
abbrev main_c : Ref sig .tc := ⟨.hbm, 47, rfl⟩
abbrev main_v24 : Ref sig .tc := ⟨.hbm, 48, rfl⟩
abbrev main_v25 : Ref sig .tc := ⟨.hbm, 49, rfl⟩
abbrev main_c_3 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_4 : Ref sig .tc := ⟨.hbm, 56, rfl⟩
abbrev main_v31 : Ref sig .tc := ⟨.hbm, 57, rfl⟩
abbrev main_v32 : Ref sig .tc := ⟨.hbm, 58, rfl⟩
abbrev main_c_5 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_c_6 : Ref sig .tc := ⟨.hbm, 66, rfl⟩
abbrev main_v39 : Ref sig .tc := ⟨.hbm, 67, rfl⟩
abbrev main_v40 : Ref sig .tc := ⟨.hbm, 68, rfl⟩
abbrev main_c_7 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_8 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_call2_cst : Ref sig .tc := ⟨.hbm, 94, rfl⟩
abbrev main_call2_v0 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_call3_cst : Ref sig .tc := ⟨.hbm, 105, rfl⟩
abbrev main_call3_v0 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_call4_cst : Ref sig .tc := ⟨.hbm, 116, rfl⟩
abbrev main_call4_v0 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_call5_cst : Ref sig .tc := ⟨.hbm, 127, rfl⟩
abbrev main_call5_v0 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  concatenates_S100000x64_S100000x64_S100000x128_d1 : Shape.Concatenates [S100000x64, S100000x64] S100000x128 1
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S2x128x128_S1x128x128_1_0_0 : S2x128x128.Slices ![1, 0, 0] S1x128x128
  slices_S2x128_S1x128_1_0 : S2x128.Slices ![1, 0] S1x128
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KernelRun.lean ====
/-
  The idealized kernel's whole run with its results named: every weakly fair execution of its entry point ends, without
  a fault, with the two prediction vectors and the encoder activation at the contents the last boundary of the
  program's fold holds for them, and with the arguments as launched. The fold walks the host stretch that builds the
  graph and the degree weights, the encoder's grid, the stretch that gathers and accumulates the messages and lays out
  the head weights, the heads' grid, and the two column cuts at the end.
-/
import proofs.«153021_j58909771432452_2_alg».proof.Proof.Gen.KernelIdeal.Frame

set_option maxRecDepth 16384

noncomputable section

namespace Cert.KernelIdeal.RunEnd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the results at the last boundary's contents and the arguments unchanged. -/
theorem run : θ_run defs (onTc (τ := τ) (main (F := F))) ⟨m, fun _ => 0, ρ⟩ (fun r => ∀ c : Dev nD,
      r.2.mem ((c.tc : Thread nD τ).loc main_v54) = W7 m ρ c (Proc.devRef .tc main_v54)
      ∧ r.2.mem ((c.tc : Thread nD τ).loc main_v52) = W7 m ρ c (Proc.devRef .tc main_v52)
      ∧ r.2.mem ((c.tc : Thread nD τ).loc main_v18_0) = W7 m ρ c (Proc.devRef .tc main_v18_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v54 (by decide)),
       h c _ (mem_uc main_v52 (by decide)),
       h c _ (mem_uc main_v18_0 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c)⟩)

end Cert.KernelIdeal.RunEnd

end
-- ==== Proof.LibJoinPair.lean ====
/-
  Two arrays joined along an axis, with the side condition stated of the shapes alone.

  The joined array `concatenate t a [⟨s₁, x₁⟩, ⟨s₂, x₂⟩] h` carries a side condition `h` whose statement mentions the list
  of (shape, array) pairs, although it only reads the shapes. That dependence stands in the way of rewriting the two
  arrays in place: a rewriting pass keeps the whole list fixed. `joinPair` is the same function with the side condition
  stated of `[s₁, s₂]`; the two are equal by unfolding, for any element type, any shapes and any axis. Rewriting a
  two-piece join to `joinPair` lets a later pass reach the two arrays.
-/
import Idealize.ShloMosaic.PureOps.ShapeOps

noncomputable section

namespace Cert.JoinPair

open Idealize.ShloMosaic

/-- Two arrays joined along axis `a` of the result shape `t`. -/
def joinPair {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

/-- A two-piece join is `joinPair` of its pieces: a rewrite rule from the list form to the form whose arrays can be
    rewritten. -/
theorem concatenate_pair_eq {α : Type} (t : Shape) (a : Fin t.rank) (s₁ s₂ : Shape) (x₁ : s₁.Idx → α) (x₂ : s₂.Idx → α)
    (h : Shape.Concatenates (List.map (fun p : (s : Shape) × (s.Idx → α) => p.1) [⟨s₁, x₁⟩, ⟨s₂, x₂⟩]) t a) :
    concatenate t a [⟨s₁, x₁⟩, ⟨s₂, x₂⟩] h = joinPair t a s₁ s₂ h x₁ x₂ := rfl

end Cert.JoinPair

end
-- ==== Proof.LibTypedRef.lean ====
/-
  A buffer reference that carries the type of the tensor value it holds moves contents between "the value's type" and
  "the buffer's own type" along the equation between the two. Going one way and then back is the identity, for any
  such reference: the two transports are along an equation and its inverse.
-/
import Idealize.ShloMosaic.Lib.StableHlo

namespace Cert.TypedRef

open Idealize.ShloMosaic Idealize.ShloMosaic.StableHlo

/-- To the buffer's type and back is the identity. -/
theorem ofBuf_toBuf {sig : RefSig} {T : BufTy} {Val : EltTy → Type} (x : TRef sig T) (v : T.Contents Val) :
    x.ofBuf (x.toBuf v) = v := by
  unfold TRef.ofBuf TRef.toBuf
  simp

end Cert.TypedRef
-- ==== Proof.FoldEntry.lean ====
/-
  The buffers the encoder's grid is entered with, as terms of the arguments.

  Before the first grid the program builds, from the edge list, the extended source and target vectors (the given edges
  followed by one loop per node), the degree of every node as a sum of ones accumulated at the targets, and the degree
  weight: the inverse square root where the degree is positive and zero elsewhere. It also lays the treatment vector and
  the degree weights out as columns and the encoder's bias as a row. Each buffer is read off the fold of the host
  operations as one term of the argument arrays.
-/
import proofs.«153021_j58909771432452_2_alg».proof.Proof.Gen.KernelIdeal.Frame
import proofs.«153021_j58909771432452_2_alg».proof.Proof.LibJoinPair
import proofs.«153021_j58909771432452_2_alg».proof.Proof.LibTypedRef
import Idealize.ShloMosaic.Lib.StableHlo.Run
import Idealize.ShloMosaic.PureOps.Ideal.Laws

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo

/-- Opens a fold of host operations at one buffer down to the operations' term: the operations' results, the operands
    under a two-piece join, and the typed references of an outlined function's operations. -/
macro "fold_results" : tactic =>
  `(tactic| (after_results_simp
             try simp only [Cert.JoinPair.concatenate_pair_eq]
             try after_results_simp
             try simp only [Cert.TypedRef.ofBuf_toBuf]))

/-! ## The terms -/

/-- The source words: row 0 of the edge list, then one loop per node. -/
def srcArr (a2 : IVec S2x1600000 32) : IVec S1700000 32 :=
  concatenate S1700000 0 [⟨S1600000, shapeCast S1600000 (extractStridedSlice S1x1600000 ![0, 0] a2 slices_S2x1600000_S1x1600000_0_0) shapeCasts_S1x1600000_S1600000⟩,
    ⟨S100000, iotaInDim S100000 32 0⟩] concatenates_S1600000_S100000_S1700000_d0

/-- The target words: row 1 of the edge list, then one loop per node. -/
def dstArr (a2 : IVec S2x1600000 32) : IVec S1700000 32 :=
  concatenate S1700000 0 [⟨S1600000, shapeCast S1600000 (extractStridedSlice S1x1600000 ![1, 0] a2 slices_S2x1600000_S1x1600000_1_0) shapeCasts_S1x1600000_S1600000⟩,
    ⟨S100000, iotaInDim S100000 32 0⟩] concatenates_S1600000_S100000_S1700000_d0

/-- The degrees: ones accumulated at the targets, from zero. -/
def degArr (a2 : IVec S2x1600000 32) : FVec Ideal S100000 .f32 :=
  Host.scatterAdd scatter_S100000_S1700000x1_S1700000_n_0_0_1
    (broadcastInDim S100000 ![] bcast_S_S100000 (constant (F := Ideal) S_ .f32 0x00000000#32))
    (broadcastInDim S1700000x1 ![0] bcast_S1700000_S1700000x1_0 (dstArr a2))
    (broadcastInDim S1700000 ![] bcast_S_S1700000 (constant (F := Ideal) S_ .f32 0x3F800000#32))

/-- The degree weights: inverse square root where the degree is positive, zero elsewhere. -/
def dinvArr (a2 : IVec S2x1600000 32) : FVec Ideal S100000 .f32 :=
  select (cmpf .ogt (degArr a2) (broadcastInDim S100000 ![] bcast_S_S100000 (constant (F := Ideal) S_ .f32 0x00000000#32)))
    (Host.rsqrt (degArr a2))
    (broadcastInDim S100000 ![] bcast_S_S100000 (id (constant (F := Ideal) S_ .f32 0x00000000#32)))

/-! ## The typed references of the outlined selection read and written at their buffers' own types

Each is a transport along an equation between a buffer's type and the value's type that holds by computation: the
identity. -/

theorem ofBuf_v12 (h1 : main_v12.ty = ⟨S100000, .i1⟩) (h2) (h3) (v : main_v12.ty.Contents (Elt Ideal)) :
    (TRef.of (sig := sig) main_v12 h1 h2 h3).ofBuf v = v := rfl
theorem ofBuf_v13 (h1 : main_v13.ty = ⟨S100000, .f32⟩) (h2) (h3) (v : main_v13.ty.Contents (Elt Ideal)) :
    (TRef.of (sig := sig) main_v13 h1 h2 h3).ofBuf v = v := rfl
theorem ofBuf_cst_2 (h1 : main_cst_2.ty = ⟨S_, .f32⟩) (h2) (h3) (v : main_cst_2.ty.Contents (Elt Ideal)) :
    (TRef.of (sig := sig) main_cst_2 h1 h2 h3).ofBuf v = v := rfl
theorem toBuf_v14 (h1 : main_v14.ty = ⟨S100000, .f32⟩) (h2) (h3) (v : (⟨S100000, .f32⟩ : BufTy).Contents (Elt Ideal)) :
    (TRef.of (sig := sig) main_v14 h1 h2 h3).toBuf v = v := rfl

variable (m : (ℓ : Loc nD τ sig) → Buf (Elt Ideal) ℓ) (ρ : Dev nD → PrngReg)

/-! ## The buffers at the encoder's entry -/

theorem W3_v5 (c : Dev nD) : (W3 (F := Ideal) m ρ c (Proc.devRef .tc main_v5) : S1700000.Idx → BitVec 32)
    = srcArr (m ((c : Thread nD τ).loc main_arg2)) := by
  show StableHlo.after hostOps0_2 (StableHlo.after hostOps0_1 (StableHlo.after hostOps0 (W0 m ρ c))) (Proc.devRef .tc main_v5) = _
  fold_results
  rfl

theorem W3_v6 (c : Dev nD) : (W3 (F := Ideal) m ρ c (Proc.devRef .tc main_v6) : S1700000.Idx → BitVec 32)
    = dstArr (m ((c : Thread nD τ).loc main_arg2)) := by
  show StableHlo.after hostOps0_2 (StableHlo.after hostOps0_1 (StableHlo.after hostOps0 (W0 m ρ c))) (Proc.devRef .tc main_v6) = _
  fold_results
  rfl

/-- The comparison "degree above zero", after the first stretch. -/
theorem W1_v12 (c : Dev nD) : (StableHlo.after hostOps0 (W0 (F := Ideal) m ρ c) (Proc.devRef .tc main_v12) : S100000.Idx → BitVec 1)
    = cmpf .ogt (degArr (m ((c : Thread nD τ).loc main_arg2)))
        (broadcastInDim S100000 ![] bcast_S_S100000 (constant (F := Ideal) S_ .f32 0x00000000#32)) := by
  fold_results
  rfl

/-- The inverse square roots of the degrees, after the first stretch. -/
theorem W1_v13 (c : Dev nD) : (StableHlo.after hostOps0 (W0 (F := Ideal) m ρ c) (Proc.devRef .tc main_v13) : S100000.Idx → EReal)
    = Host.rsqrt (degArr (m ((c : Thread nD τ).loc main_arg2))) := by
  fold_results
  rfl

/-- The zero the selection falls back to, after the first stretch. -/
theorem W1_cst_2 (c : Dev nD) : (StableHlo.after hostOps0 (W0 (F := Ideal) m ρ c) (Proc.devRef .tc main_cst_2) : S_.Idx → EReal)
    = constant (F := Ideal) S_ .f32 0x00000000#32 := by
  fold_results

/-- The degree weights after the outlined selection. -/
theorem W2_v14 (c : Dev nD) :
    (StableHlo.after hostOps0_1 (StableHlo.after hostOps0 (W0 (F := Ideal) m ρ c)) (Proc.devRef .tc main_v14) : S100000.Idx → EReal)
    = dinvArr (m ((c : Thread nD τ).loc main_arg2)) := by
  have h12 := W1_v12 m ρ c
  have h13 := W1_v13 m ρ c
  have hc2 := W1_cst_2 m ρ c
  generalize StableHlo.after hostOps0 (W0 (F := Ideal) m ρ c) = W1' at h12 h13 hc2 ⊢
  fold_results
  simp only [ofBuf_v12, ofBuf_v13, ofBuf_cst_2, toBuf_v14]
  rw [h12, h13, hc2]
  rfl

theorem W3_v14 (c : Dev nD) : (W3 (F := Ideal) m ρ c (Proc.devRef .tc main_v14) : S100000.Idx → EReal)
    = dinvArr (m ((c : Thread nD τ).loc main_arg2)) := by
  show StableHlo.after hostOps0_2 (StableHlo.after hostOps0_1 (StableHlo.after hostOps0 (W0 m ρ c))) (Proc.devRef .tc main_v14) = _
  have h14 := W2_v14 m ρ c
  generalize StableHlo.after hostOps0_1 (StableHlo.after hostOps0 (W0 (F := Ideal) m ρ c)) = W2' at h14 ⊢
  fold_results
  exact h14

theorem W3_v15 (c : Dev nD) : (W3 (F := Ideal) m ρ c (Proc.devRef .tc main_v15) : S100000x1.Idx → EReal)
    = shapeCast S100000x1 (m ((c : Thread nD τ).loc main_arg1)) shapeCasts_S100000_S100000x1 := by
  show StableHlo.after hostOps0_2 (StableHlo.after hostOps0_1 (StableHlo.after hostOps0 (W0 m ρ c))) (Proc.devRef .tc main_v15) = _
  fold_results
  rfl

theorem W3_v16 (c : Dev nD) : (W3 (F := Ideal) m ρ c (Proc.devRef .tc main_v16) : S100000x1.Idx → EReal)
    = shapeCast S100000x1 (dinvArr (m ((c : Thread nD τ).loc main_arg2))) shapeCasts_S100000_S100000x1 := by
  show StableHlo.after hostOps0_2 (StableHlo.after hostOps0_1 (StableHlo.after hostOps0 (W0 m ρ c))) (Proc.devRef .tc main_v16) = _
  have h14 := W2_v14 m ρ c
  generalize StableHlo.after hostOps0_1 (StableHlo.after hostOps0 (W0 (F := Ideal) m ρ c)) = W2' at h14 ⊢
  fold_results
  rw [h14]
  rfl

theorem W3_v17 (c : Dev nD) : (W3 (F := Ideal) m ρ c (Proc.devRef .tc main_v17) : S1x64.Idx → EReal)
    = shapeCast S1x64 (m ((c : Thread nD τ).loc main_arg4)) shapeCasts_S64_S1x64 := by
  show StableHlo.after hostOps0_2 (StableHlo.after hostOps0_1 (StableHlo.after hostOps0 (W0 m ρ c))) (Proc.devRef .tc main_v17) = _
  fold_results
  rfl

/-- An argument's buffer is as launched at the encoder's entry. -/
theorem W3_arg0 (c : Dev nD) : W3 (F := Ideal) m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  fold_results
theorem W3_arg3 (c : Dev nD) : W3 (F := Ideal) m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  fold_results
theorem W3_arg5 (c : Dev nD) : W3 (F := Ideal) m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  fold_results

end Cert.KernelIdeal.Fold

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.LibDotRowRow.lean ====
/-
  A contraction of the SECOND axes of two matrices, read as a plain sum.

  Take operands of shapes [A, K] and [B, K] and a result of shape [A, B], with dimension numbers that say: no batch
  axes; each operand keeps its axis 0; axis 1 of the left is contracted against axis 1 of the right (the product of the
  left matrix with the TRANSPOSE of the right one, without the transpose being formed). The contraction's own index set
  is then a one-axis shape of extent K, and the sum over it of x (left index) * y (right index) at the result index
  (p, q) is ∑ k < K, x (p, k) * y (q, k): on its kept axis each operand reads the result's coordinate (the left the row
  coordinate, the right the column coordinate), on its contracted axis the contraction's one coordinate.

  Stated for ANY record with these dimension numbers and for any A, K, B. The extended reals enter only as the type the
  products are taken in: nothing here uses more than the sum's re-indexing along a bijection.
-/
import Idealize.ShloMosaic.Lib.ValueIdx
import Idealize.ShloMosaic.PureOps.Ideal.Laws

open scoped BigOperators

namespace Cert.RowRowDot

open Idealize.ShloMosaic Idealize.ShloMosaic.ValueIdx

variable {A K B : Nat} (d : DotDims ⟨2, ![A, K]⟩ ⟨2, ![B, K]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 0) the right operand's index is the result's COLUMN coordinate: the result's axes are the
    batch axes (none), then the left's kept axes (one), then the right's kept axes, so the right's kept axis is axis 1
    of the result. -/
theorem rhs_row (hlb : d.lhsBatch = []) (hln : d.lhsNonContracting = [0]) (hrb : d.rhsBatch = [])
    (hrn : d.rhsNonContracting = [0]) (j : (⟨2, ![A, B]⟩ : Shape).Idx) (k : d.contr.Idx) :
    (d.rhsIdx j k 0).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row p of the left and row q of the right. -/
theorem sum_eq (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K)
    (x : (⟨2, ![A, K]⟩ : Shape).Idx → EReal) (y : (⟨2, ![B, K]⟩ : Shape).Idx → EReal) (p : Fin A) (q : Fin B) :
    ∑ k : d.contr.Idx, x (d.lhsIdx (ix2 p q) k) * y (d.rhsIdx (ix2 p q) k) = ∑ k : Fin K, x (ix2 p k) * y (ix2 q k) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact rhs_row d hlb hln hrb hrn _ _
    | ⟨1, _⟩ => exact (d.rhsIdx_val_of_single hrc _ _).trans hk)
  rw [el, er]

end Cert.RowRowDot
-- ==== Proof.LibZeroAccDots.lean ====
/-
  Two matrix products into a zero accumulator, read at an index as plain sums, for operands of any float formats.

  At the ideal values a matrix product unit adds, to the accumulator's entry, the sum over the contraction's index set of
  the products of the operands' entries; the operands' float formats play no part, every float being an extended real.
  When the accumulator is the zero splat there is no accumulator term, and for the two common two-dimensional shapes the
  contraction's index set is one axis of extent K:

    rows by columns,  [A, K] × [K, B] → [A, B]  (left axis 1 against right axis 0):  the entry at (p, q) is
      ∑ k < K, x (p, k) · y (k, q);
    rows by rows,     [A, K] × [B, K] → [A, B]  (left axis 1 against right axis 1, the product with the transposed right
      matrix, no transpose formed):                                                   the entry at (p, q) is
      ∑ k < K, x (p, k) · y (q, k).

  Both are stated for ANY record with those dimension numbers, any contraction precision, and any pair of operand formats
  (a product of two bf16 matrices into an f32 accumulator is the usual case).
-/
import proofs.«153021_j58909771432452_2_alg».proof.Proof.LibPlainDot
import proofs.«153021_j58909771432452_2_alg».proof.Proof.LibDotRowRow
import Idealize.ShloMosaic.PureOps.Ideal.Laws
import Idealize.ShloMosaic.Lib.ValueIdx

open scoped BigOperators

namespace Cert.ZeroAccDots

open Idealize.ShloMosaic Idealize.ShloMosaic.ValueIdx

/-- Rows by columns into the zero splat, at `(p, q)`: the plain sum along row `p` of the left operand and column `q`
    of the right. -/
theorem rows_columns {A K B : Nat} {φ₁ φ₂ : FTy} (d : DotDims ⟨2, ![A, K]⟩ ⟨2, ![K, B]⟩ ⟨2, ![A, B]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K) (prec : Option ContractPrecision)
    (x : FVec Ideal ⟨2, ![A, K]⟩ φ₁) (y : FVec Ideal ⟨2, ![K, B]⟩ φ₂) (p : Fin A) (q : Fin B) :
    FloatOps.matmul d prec x y (constant (F := Ideal) ⟨2, ![A, B]⟩ .f32 0x00000000#32) (ix2 p q)
      = ∑ k : Fin K, x (ix2 p k) * y (ix2 k q) :=
  (Ideal.matmul_constant_zero_apply d prec x y (ix2 p q)).trans
    (Cert.PlainDot.sum_eq d hlb hln hlc hrb hrn hrc hr hs x y p q)

/-- Rows by rows into the zero splat, at `(p, q)`: the plain sum along row `p` of the left operand and row `q` of the
    right. -/
theorem rows_rows {A K B : Nat} {φ₁ φ₂ : FTy} (d : DotDims ⟨2, ![A, K]⟩ ⟨2, ![B, K]⟩ ⟨2, ![A, B]⟩)
    (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K) (prec : Option ContractPrecision)
    (x : FVec Ideal ⟨2, ![A, K]⟩ φ₁) (y : FVec Ideal ⟨2, ![B, K]⟩ φ₂) (p : Fin A) (q : Fin B) :
    FloatOps.matmul d prec x y (constant (F := Ideal) ⟨2, ![A, B]⟩ .f32 0x00000000#32) (ix2 p q)
      = ∑ k : Fin K, x (ix2 p k) * y (ix2 q k) :=
  (Ideal.matmul_constant_zero_apply d prec x y (ix2 p q)).trans
    (Cert.RowRowDot.sum_eq d hlb hln hlc hrb hrn hrc hr hs x y p q)

end Cert.ZeroAccDots
-- ==== Proof.LibColumnLayout.lean ====
/-
  Column vectors read at an index: a length-`a` vector viewed as an `[a, 1]` column and back, and a column repeated
  along the second axis. Row-major position is preserved by the two casts (the unit axis contributes nothing to it), and
  a broadcast reads a unit axis of its operand at coordinate zero.
-/
import Idealize.ShloMosaic.Lib.ValueIdx
import Idealize.ShloMosaic.Lib.Pipeline.Value

noncomputable section

namespace Cert.ColumnLayout

open Idealize.ShloMosaic Idealize.ShloMosaic.ValueIdx

variable {α : Type}

/-- An `[a]` array cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.ColumnLayout

end
-- ==== Proof.TileEnc.lean ====
/-
  The encoder tile, entry by entry, over the extended reals.

  A tile holds 4000 node rows. Its first output is the activation: row `p` of the feature tile against column `j` of
  the weights, plus the bias row, clipped below at zero. Its second output is the graph-side row table: the treated
  activation (each row scaled by its node's treatment) against the graph weights, each row then scaled by its node's
  degree weight. Changes of float format are the identity here, so the matrix unit's narrower operands are the
  operands themselves, and a product accumulated from zero is the plain sum over the contracted index.
-/
import proofs.«153021_j58909771432452_2_alg».proof.Proof.Gen.KernelIdeal.Skeleton
import proofs.«153021_j58909771432452_2_alg».proof.Proof.LibZeroAccDots
import proofs.«153021_j58909771432452_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.Tile

open Cert.KernelIdeal Cert.KernelIdeal.Gen Idealize.ShloMosaic Idealize.ShloMosaic.ValueIdx

/-- The activation tile at `(p, j)`. -/
theorem act_apply (v0 : Vec Ideal S4000x128 .f32) (v2 : Vec Ideal S128x64 .f32) (v5 : Vec Ideal S1x64 .f32)
    (p : Fin 4000) (j : Fin 64) :
    k0_pay1 (F := Ideal) v0 v2 v5 (ix2 p j)
      = max (∑ k : Fin 128, v0 (ix2 p k) * v2 (ix2 k j) + v5 (ix2 (0 : Fin 1) j)) 0 := by
  unfold k0_pay1
  rw [maximumf_apply, addf_apply, broadcast_apply]
  refine congrArg₂ max (congrArg₂ (· + ·) ?_ ?_) Ideal.ofBits_zero_f32
  · exact Cert.ZeroAccDots.rows_columns dot_S4000x128_S128x64_S4000x64_1_0_0_1_n_n rfl rfl rfl rfl rfl rfl rfl rfl none _ _ p j
  · rw [broadcastTo_1b_ab_apply, shapeCast_self]

/-- The row table's tile at `(p, j)`: treated activation against the graph weights, scaled by the row's weight. -/
theorem table_apply (v0 : Vec Ideal S4000x128 .f32) (v2 : Vec Ideal S128x64 .f32) (v5 : Vec Ideal S1x64 .f32)
    (v12 : Vec Ideal S4000x1 .f32) (v17 : Vec Ideal S64x64 .f32) (v20 : Vec Ideal S4000x1 .f32)
    (p : Fin 4000) (j : Fin 64) :
    k0_pay2 (F := Ideal) v0 v2 v5 v12 v17 v20 (ix2 p j)
      = (∑ k : Fin 64, (v12 (ix2 p (0 : Fin 1)) * k0_pay1 (F := Ideal) v0 v2 v5 (ix2 p k)) * v17 (ix2 k j))
          * v20 (ix2 p (0 : Fin 1)) := by
  unfold k0_pay2
  rw [truncf_apply, mulf_apply]
  refine congrArg₂ (· * ·) ?_ ?_
  · refine (Cert.ZeroAccDots.rows_columns dot_S4000x64_S64x64_S4000x64_1_0_0_1_n_n rfl rfl rfl rfl rfl rfl rfl rfl none _ _ p j).trans
      (Finset.sum_congr rfl fun k _ => ?_)
    rw [truncf_apply, truncf_apply, mulf_apply, Cert.ColumnLayout.broadcastTo_a1_ab_apply, shapeCast_self]
  · rw [Cert.ColumnLayout.broadcastTo_a1_ab_apply, shapeCast_self]

end Cert.KernelIdeal.Tile

end
-- ==== Proof.BlocksEnc.lean ====
/-
  The encoder's grid, from blocks to arrays.

  The grid has 25 points; point `t` works on node rows `4000·t … 4000·t + 3999`. Its three row-wise operands (features,
  treatment column, degree-weight column) are read through the block of those rows, its three parameter operands whole,
  and each of its two outputs is written back to the same rows. So after the grid each output array is one function of
  the operand arrays, row by row: the activation `relu (A·W + b)`, and the row table `((t ⊙ act)·G) ⊙ d`. Every row of
  an output belongs to exactly the block of point `row / 4000`, so the blocks cover the arrays.
-/
import proofs.«153021_j58909771432452_2_alg».proof.Proof.Gen.KernelIdeal.Frame
import proofs.«153021_j58909771432452_2_alg».proof.Proof.TileEnc
import Idealize.ShloMosaic.Lib.ValueIdx
import Idealize.ShloMosaic.Lib.Pipeline.Value
import Idealize.ShloMosaic.PureOps.Ideal.Laws

set_option maxRecDepth 16384

open scoped BigOperators

noncomputable section

namespace Cert.KernelIdeal.Blocks

open Cert.KernelIdeal Cert.KernelIdeal.Gen Idealize.ShloMosaic Idealize.ShloMosaic.TcCoe Idealize.ShloMosaic.ValueIdx
open Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-! ## The index maps over the grid -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = t.val ∧ win0_6.index t (1 : Fin 2) = 0 :=
  (by decide +kernel : ∀ t : Fin grid0.N, _)
theorem idx0_7 : ∀ t : Fin cfg0.N, win0_7.index t (0 : Fin 2) = t.val ∧ win0_7.index t (1 : Fin 2) = 0 :=
  (by decide +kernel : ∀ t : Fin grid0.N, _)

/-- The node row that row `p` of point `t`'s block is. -/
def rowOf0 (t : Fin cfg0.N) (p : Fin 4000) : Fin 100000 :=
  ⟨4000 * t.val + p.val, by have := t.isLt; have h : cfg0.N = 25 := N_0; have := p.isLt; omega⟩

/-! ## The operands' blocks read at an entry -/

/-- Window 0's block at point `t`, read at `(p, k)`: row `4000·t + p` of its array. -/
theorem blk0_0_apply (c : Dev nD) (t : Fin cfg0.N) (p : Fin 4000) (k : Fin 128) :
    (iblk0 V c 0 t : Vec Ideal S4000x128 .f32) (ix2 p k) = (V c main_arg0 : S100000x128.Idx → EReal) (ix2 (rowOf0 t p) k) := by
  unfold iblk0
  rw [View.read_apply]
  show V c main_arg0 _ = V c main_arg0 _
  congr 1
  funext a
  apply Fin.ext
  match a with
  | ⟨0, _⟩ => show win0_0.index t 0 * 4000 + 1 * p.val = 4000 * t.val + p.val; rw [(idx0_0 t).1]; omega
  | ⟨1, _⟩ => show win0_0.index t 1 * 128 + 1 * k.val = k.val; rw [(idx0_0 t).2]; omega

/-- Window 1's block at point `t`, read at `(p, k)`: row `4000·t + p` of its array. -/
theorem blk0_1_apply (c : Dev nD) (t : Fin cfg0.N) (p : Fin 4000) (k : Fin 1) :
    (iblk0 V c 1 t : Vec Ideal S4000x1 .f32) (ix2 p k) = (V c main_v15 : S100000x1.Idx → EReal) (ix2 (rowOf0 t p) k) := by
  unfold iblk0
  rw [View.read_apply]
  show V c main_v15 _ = V c main_v15 _
  congr 1
  funext a
  apply Fin.ext
  match a with
  | ⟨0, _⟩ => show win0_1.index t 0 * 4000 + 1 * p.val = 4000 * t.val + p.val; rw [(idx0_1 t).1]; omega
  | ⟨1, _⟩ => show win0_1.index t 1 * 1 + 1 * k.val = k.val; rw [(idx0_1 t).2]; omega

/-- Window 2's block at point `t`, read at `(p, k)`: row `4000·t + p` of its array. -/
theorem blk0_2_apply (c : Dev nD) (t : Fin cfg0.N) (p : Fin 4000) (k : Fin 1) :
    (iblk0 V c 2 t : Vec Ideal S4000x1 .f32) (ix2 p k) = (V c main_v16 : S100000x1.Idx → EReal) (ix2 (rowOf0 t p) k) := by
  unfold iblk0
  rw [View.read_apply]
  show V c main_v16 _ = V c main_v16 _
  congr 1
  funext a
  apply Fin.ext
  match a with
  | ⟨0, _⟩ => show win0_2.index t 0 * 4000 + 1 * p.val = 4000 * t.val + p.val; rw [(idx0_2 t).1]; omega
  | ⟨1, _⟩ => show win0_2.index t 1 * 1 + 1 * k.val = k.val; rw [(idx0_2 t).2]; omega

/-- Window 3's block at point `t`, read at `(p, k)`: its whole array. -/
theorem blk0_3_apply (c : Dev nD) (t : Fin cfg0.N) (p : Fin 128) (k : Fin 64) :
    (iblk0 V c 3 t : Vec Ideal S128x64 .f32) (ix2 p k) = (V c main_arg3 : S128x64.Idx → EReal) (ix2 p k) := by
  unfold iblk0
  rw [View.read_apply]
  show V c main_arg3 _ = V c main_arg3 _
  congr 1
  funext a
  apply Fin.ext
  match a with
  | ⟨0, _⟩ => show win0_3.index t 0 * 128 + 1 * p.val = p.val; rw [(idx0_3 t).1]; omega
  | ⟨1, _⟩ => show win0_3.index t 1 * 64 + 1 * k.val = k.val; rw [(idx0_3 t).2]; omega

/-- Window 4's block at point `t`, read at `(p, k)`: its whole array. -/
theorem blk0_4_apply (c : Dev nD) (t : Fin cfg0.N) (p : Fin 1) (k : Fin 64) :
    (iblk0 V c 4 t : Vec Ideal S1x64 .f32) (ix2 p k) = (V c main_v17 : S1x64.Idx → EReal) (ix2 p k) := by
  unfold iblk0
  rw [View.read_apply]
  show V c main_v17 _ = V c main_v17 _
  congr 1
  funext a
  apply Fin.ext
  match a with
  | ⟨0, _⟩ => show win0_4.index t 0 * 1 + 1 * p.val = p.val; rw [(idx0_4 t).1]; omega
  | ⟨1, _⟩ => show win0_4.index t 1 * 64 + 1 * k.val = k.val; rw [(idx0_4 t).2]; omega

/-- Window 5's block at point `t`, read at `(p, k)`: its whole array. -/
theorem blk0_5_apply (c : Dev nD) (t : Fin cfg0.N) (p : Fin 64) (k : Fin 64) :
    (iblk0 V c 5 t : Vec Ideal S64x64 .f32) (ix2 p k) = (V c main_arg5 : S64x64.Idx → EReal) (ix2 p k) := by
  unfold iblk0
  rw [View.read_apply]
  show V c main_arg5 _ = V c main_arg5 _
  congr 1
  funext a
  apply Fin.ext
  match a with
  | ⟨0, _⟩ => show win0_5.index t 0 * 64 + 1 * p.val = p.val; rw [(idx0_5 t).1]; omega
  | ⟨1, _⟩ => show win0_5.index t 1 * 64 + 1 * k.val = k.val; rw [(idx0_5 t).2]; omega

/-! ## The two output arrays as functions of the operand arrays -/

/-- The activation array: `relu (A·W + b)`, row by row. -/
def actArr (A0 : S100000x128.Idx → EReal) (A3 : S128x64.Idx → EReal) (A4 : S1x64.Idx → EReal) : S100000x64.Idx → EReal :=
  fun i => max (∑ k : Fin 128, A0 (ix2 (i 0 : Fin 100000) k) * A3 (ix2 k (i 1 : Fin 64)) + A4 (ix2 (0 : Fin 1) (i 1 : Fin 64))) 0

/-- The row table: the treated activation against the graph weights, each row scaled by its degree weight. -/
def tableArr (A0 : S100000x128.Idx → EReal) (A3 : S128x64.Idx → EReal) (A4 : S1x64.Idx → EReal)
    (A1 A2 : S100000x1.Idx → EReal) (A5 : S64x64.Idx → EReal) : S100000x64.Idx → EReal :=
  fun i => (∑ k : Fin 64, (A1 (ix2 (i 0 : Fin 100000) (0 : Fin 1)) * actArr A0 A3 A4 (ix2 (i 0 : Fin 100000) k)) * A5 (ix2 k (i 1 : Fin 64)))
    * A2 (ix2 (i 0 : Fin 100000) (0 : Fin 1))

/-- Where entry `(p, q)` of point `t`'s output block sits in the output array. -/
theorem emb6 (t : Fin cfg0.N) (p : Fin 4000) (q : Fin 64) :
    ((cfg0.win 6).blk t).view.emb (ix2 p q) = (ix2 (rowOf0 t p) q : S100000x64.Idx) := by
  funext a
  apply Fin.ext
  match a with
  | ⟨0, _⟩ => show win0_6.index t 0 * 4000 + 1 * p.val = 4000 * t.val + p.val; rw [(idx0_6 t).1]; omega
  | ⟨1, _⟩ => show win0_6.index t 1 * 64 + 1 * q.val = q.val; rw [(idx0_6 t).2]; omega

theorem emb7 (t : Fin cfg0.N) (p : Fin 4000) (q : Fin 64) :
    ((cfg0.win 7).blk t).view.emb (ix2 p q) = (ix2 (rowOf0 t p) q : S100000x64.Idx) := by
  funext a
  apply Fin.ext
  match a with
  | ⟨0, _⟩ => show win0_7.index t 0 * 4000 + 1 * p.val = 4000 * t.val + p.val; rw [(idx0_7 t).1]; omega
  | ⟨1, _⟩ => show win0_7.index t 1 * 64 + 1 * q.val = q.val; rw [(idx0_7 t).2]; omega

/-- The activation tile of point `t` at `(p, k)` is the activation array at `(4000·t + p, k)`. -/
theorem act_tile (c : Dev nD) (t : Fin cfg0.N) (p : Fin 4000) (k : Fin 64) :
    k0_pay1 (F := Ideal) (iblk0 V c 0 t) (iblk0 V c 3 t) (iblk0 V c 4 t) (ix2 p k)
      = actArr (V c main_arg0) (V c main_arg3) (V c main_v17) (ix2 (rowOf0 t p) k) := by
  refine (Tile.act_apply (iblk0 V c 0 t) (iblk0 V c 3 t) (iblk0 V c 4 t) p k).trans ?_
  unfold actArr
  exact congrArg₂ max (congrArg₂ (· + ·)
    (Finset.sum_congr rfl fun k' _ => congrArg₂ (· * ·) (blk0_0_apply V c t p k') (blk0_3_apply V c t k' k))
    (blk0_4_apply V c t (0 : Fin 1) k)) rfl

/-- WHAT POINT `t` WRITES BACK to the activation array is block `t` of `actArr`. -/
theorem flushed6 (c : Dev nD) (t : Fin cfg0.N) :
    (dat0 (F := Ideal) V c).flushed 6 t
      = ((cfg0.win 6).blk t).view.read (Elt Ideal) (actArr (V c main_arg0) (V c main_arg3) (V c main_v17)) := by
  show (cfg0.win 6).cut (grid0.coords t) ((dat0 (F := Ideal) V c).after 6 t) = _
  rw [after0_6]
  unfold out0_6
  rw [View.canon_unit_zero hz]
  simp only [View.ld_unit_zero (S := S4000x128) hz, View.ld_unit_zero (S := S128x64) hz, View.ld_unit_zero (S := S1x64) hz]
  funext j
  obtain ⟨p, q, rfl⟩ : ∃ (p : Fin 4000) (q : Fin 64), j = ix2 p q := ⟨j 0, j 1, eq_ix2 j⟩
  rw [View.read_apply, emb6]
  exact act_tile V c t p q

/-- WHAT POINT `t` WRITES BACK to the row table is block `t` of `tableArr`. -/
theorem flushed7 (c : Dev nD) (t : Fin cfg0.N) :
    (dat0 (F := Ideal) V c).flushed 7 t
      = ((cfg0.win 7).blk t).view.read (Elt Ideal)
          (tableArr (V c main_arg0) (V c main_arg3) (V c main_v17) (V c main_v15) (V c main_v16) (V c main_arg5)) := by
  show (cfg0.win 7).cut (grid0.coords t) ((dat0 (F := Ideal) V c).after 7 t) = _
  rw [after0_7]
  unfold out0_7
  rw [View.canon_unit_zero hz]
  simp only [View.ld_unit_zero (S := S4000x128) hz, View.ld_unit_zero (S := S128x64) hz, View.ld_unit_zero (S := S1x64) hz,
    View.ld_unit_zero (S := S4000x1) hz, View.ld_unit_zero (S := S64x64) hz]
  funext j
  obtain ⟨p, q, rfl⟩ : ∃ (p : Fin 4000) (q : Fin 64), j = ix2 p q := ⟨j 0, j 1, eq_ix2 j⟩
  rw [View.read_apply, emb7]
  refine (Tile.table_apply (iblk0 V c 0 t) (iblk0 V c 3 t) (iblk0 V c 4 t) (iblk0 V c 1 t) (iblk0 V c 5 t) (iblk0 V c 2 t) p q).trans ?_
  unfold tableArr
  exact congrArg₂ (· * ·)
    (Finset.sum_congr rfl fun k _ => congrArg₂ (· * ·)
      (congrArg₂ (· * ·) (blk0_1_apply V c t p (0 : Fin 1)) (act_tile V c t p k)) (blk0_5_apply V c t k q))
    (blk0_2_apply V c t p (0 : Fin 1))

/-! ## The blocks cover the arrays -/

theorem cover6 (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  obtain ⟨t', ht'⟩ : ∃ t' : Fin cfg0.N, t'.val = (i 0).val / 4000 :=
    ⟨⟨(i 0).val / 4000, by rw [show cfg0.N = 25 from N_0]; omega⟩, rfl⟩
  refine ⟨t', flush0_6 t', ?_⟩
  show i ∈ ((View.whole main_v18_0).slice (win0_6.rect t')).set
  rw [View.set_slice_whole, Rect.mem_set_unit]
  intro a
  match a with
  | ⟨0, _⟩ =>
    show win0_6.index t' 0 * 4000 ≤ (i 0).val ∧ (i 0).val < win0_6.index t' 0 * 4000 + 4000
    rw [(idx0_6 t').1, ht']; omega
  | ⟨1, _⟩ =>
    show win0_6.index t' 1 * 64 ≤ (i 1).val ∧ (i 1).val < win0_6.index t' 1 * 64 + 64
    rw [(idx0_6 t').2]; omega

theorem cover7 (i : S100000x64.Idx) :
    ∃ t : Fin cfg0.N, (cfg0.win 7).flush t = true ∧ i ∈ ((cfg0.win 7).blk t).view.set := by
  have hi0 : (i 0).val < 100000 := (i 0).isLt
  have hi1 : (i 1).val < 64 := (i 1).isLt
  obtain ⟨t', ht'⟩ : ∃ t' : Fin cfg0.N, t'.val = (i 0).val / 4000 :=
    ⟨⟨(i 0).val / 4000, by rw [show cfg0.N = 25 from N_0]; omega⟩, rfl⟩
  refine ⟨t', flush0_7 t', ?_⟩
  show i ∈ ((View.whole main_v18_1).slice (win0_7.rect t')).set
  rw [View.set_slice_whole, Rect.mem_set_unit]
  intro a
  match a with
  | ⟨0, _⟩ =>
    show win0_7.index t' 0 * 4000 ≤ (i 0).val ∧ (i 0).val < win0_7.index t' 0 * 4000 + 4000
    rw [(idx0_7 t').1, ht']; omega
  | ⟨1, _⟩ =>
    show win0_7.index t' 1 * 64 ≤ (i 1).val ∧ (i 1).val < win0_7.index t' 1 * 64 + 64
    rw [(idx0_7 t').2]; omega

/-! ## The arrays after the grid -/

theorem finalAct (c : Dev nD) :
    (dat0 (F := Ideal) V c).arrAt 6 cfg0.N = actArr (V c main_arg0) (V c main_arg3) (V c main_v17) :=
  (dat0 (F := Ideal) V c).arrAt_eq_of_cover 6 _ (fun t _ => flushed6 V c t) cover6

theorem finalTable (c : Dev nD) :
    (dat0 (F := Ideal) V c).arrAt 7 cfg0.N
      = tableArr (V c main_arg0) (V c main_arg3) (V c main_v17) (V c main_v15) (V c main_v16) (V c main_arg5) :=
  (dat0 (F := Ideal) V c).arrAt_eq_of_cover 7 _ (fun t _ => flushed7 V c t) cover7

end Cert.KernelIdeal.Blocks

end
-- ==== Proof.FoldMid.lean ====
/-
  From the encoder's exit to the heads' entry, as terms of the arguments.

  At the encoder's exit its two outputs hold the activation array and the row table (the grid's blocks cover them);
  every other buffer is as at the entry. The stretch that follows picks, for every edge, the row of the table its
  source word names (a negative word wrapped, then clamped), accumulates the picked rows at the edges' targets from
  zero, and lays out the heads' parameters: the second slices of the two stacked hidden weights side by side, their
  biases end to end as a row, the two output columns on a block diagonal padded with zeros, and the two output biases
  as a row. Each buffer the heads' grid reads is one term of the argument arrays.
-/
import proofs.«153021_j58909771432452_2_alg».proof.Proof.FoldEntry
import proofs.«153021_j58909771432452_2_alg».proof.Proof.BlocksEnc

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo Cert.KernelIdeal.Blocks

/-- As `fold_results`, through joins nested in joins. -/
macro "fold_results_deep" : tactic =>
  `(tactic| (after_results_simp
             repeat (simp only [Cert.JoinPair.concatenate_pair_eq]; after_results_simp)
             try simp only [Cert.TypedRef.ofBuf_toBuf]))

/-! ## The terms -/

/-- The accumulated messages: the table's rows picked by the wrapped source words, summed at the target words. -/
def aggArr (tab : FVec Ideal S100000x64 .bf16) (src dst : IVec S1700000 32) : FVec Ideal S100000x64 .f32 :=
  Host.scatterAdd scatter_S100000x64_S1700000x1_S1700000x64_1_0_0_1
    (broadcastInDim S100000x64 ![] bcast_S_S100000x64 (constant (F := Ideal) S_ .f32 0x00000000#32))
    (broadcastInDim S1700000x1 ![0] bcast_S1700000_S1700000x1_0 dst)
    (extf .f32 (Host.gather gather_S100000x64_S1700000x1_S1700000x64_1_0_n_n_0_1_164 tab
      (broadcastInDim S1700000x1 ![0] bcast_S1700000_S1700000x1_0
        (select (cmpi .slt src (broadcastInDim S1700000 ![] bcast_S_S1700000 (constantI S_ 32 0#32)))
          (addi src (broadcastInDim S1700000 ![] bcast_S_S1700000 (constantI S_ 32 100000#32))) src))) bitsLt_bf16_f32)

/-- The hidden weights: the second slices of the two stacked weights, side by side. -/
def wHidden (a7 a9 : FVec Ideal S2x128x128 .f32) : FVec Ideal S128x256 .f32 :=
  concatenate S128x256 1
    [⟨S128x128, shapeCast S128x128 (extractStridedSlice S1x128x128 ![1, 0, 0] a7 slices_S2x128x128_S1x128x128_1_0_0) shapeCasts_S1x128x128_S128x128⟩,
     ⟨S128x128, shapeCast S128x128 (extractStridedSlice S1x128x128 ![1, 0, 0] a9 slices_S2x128x128_S1x128x128_1_0_0) shapeCasts_S1x128x128_S128x128⟩]
    concatenates_S128x128_S128x128_S128x256_d1

/-- The hidden biases: the second rows of the two stacked biases, end to end, as a row. -/
def bHidden (a8 a10 : FVec Ideal S2x128 .f32) : FVec Ideal S1x256 .f32 :=
  shapeCast S1x256 (concatenate S256 0
    [⟨S128, shapeCast S128 (extractStridedSlice S1x128 ![1, 0] a8 slices_S2x128_S1x128_1_0) shapeCasts_S1x128_S128⟩,
     ⟨S128, shapeCast S128 (extractStridedSlice S1x128 ![1, 0] a10 slices_S2x128_S1x128_1_0) shapeCasts_S1x128_S128⟩]
    concatenates_S128_S128_S256_d0) shapeCasts_S256_S1x256

/-- The output weights: the two columns on a block diagonal, zeros elsewhere. -/
def wOut (a11 a13 : FVec Ideal S128x1 .f32) : FVec Ideal S256x2 .f32 :=
  concatenate S256x2 0
    [⟨S128x2, concatenate S128x2 1 [⟨S128x1, a11⟩,
        ⟨S128x1, broadcastInDim S128x1 ![] bcast_S_S128x1 (constant (F := Ideal) S_ .f32 0x00000000#32)⟩] concatenates_S128x1_S128x1_S128x2_d1⟩,
     ⟨S128x2, concatenate S128x2 1 [⟨S128x1, broadcastInDim S128x1 ![] bcast_S_S128x1 (constant (F := Ideal) S_ .f32 0x00000000#32)⟩,
        ⟨S128x1, a13⟩] concatenates_S128x1_S128x1_S128x2_d1⟩]
    concatenates_S128x2_S128x2_S256x2_d0

/-- The output biases, as a row. -/
def bOut (a12 a14 : FVec Ideal S1 .f32) : FVec Ideal S1x2 .f32 :=
  shapeCast S1x2 (concatenate S2 0 [⟨S1, a12⟩, ⟨S1, a14⟩] concatenates_S1_S1_S2_d0) shapeCasts_S2_S1x2

variable (m : (ℓ : Loc nD τ sig) → Buf (Elt Ideal) ℓ) (ρ : Dev nD → PrngReg)

/-! ## The encoder's exit -/

/-- The activation array at the encoder's exit. -/
def actOf (c : Dev nD) : S100000x64.Idx → EReal :=
  actArr (m ((c : Thread nD τ).loc main_arg0)) (m ((c : Thread nD τ).loc main_arg3))
    (shapeCast S1x64 (m ((c : Thread nD τ).loc main_arg4)) shapeCasts_S64_S1x64)

/-- The row table at the encoder's exit. -/
def tabOf (c : Dev nD) : S100000x64.Idx → EReal :=
  tableArr (m ((c : Thread nD τ).loc main_arg0)) (m ((c : Thread nD τ).loc main_arg3))
    (shapeCast S1x64 (m ((c : Thread nD τ).loc main_arg4)) shapeCasts_S64_S1x64)
    (shapeCast S100000x1 (m ((c : Thread nD τ).loc main_arg1)) shapeCasts_S100000_S100000x1)
    (shapeCast S100000x1 (dinvArr (m ((c : Thread nD τ).loc main_arg2))) shapeCasts_S100000_S100000x1)
    (m ((c : Thread nD τ).loc main_arg5))

theorem W4_act (c : Dev nD) : (W4 (F := Ideal) m ρ c (Proc.devRef .tc main_v18_0) : S100000x64.Idx → EReal) = actOf m c := by
  refine (W4_arr m ρ c 6).trans ((finalAct (V3 m ρ) c).trans ?_)
  unfold actOf
  rw [show (V3 m ρ c main_arg0 : S100000x128.Idx → EReal) = _ from W3_arg0 m ρ c,
    show (V3 m ρ c main_arg3 : S128x64.Idx → EReal) = _ from W3_arg3 m ρ c,
    show (V3 m ρ c main_v17 : S1x64.Idx → EReal) = _ from W3_v17 m ρ c]

theorem W4_tab (c : Dev nD) : (W4 (F := Ideal) m ρ c (Proc.devRef .tc main_v18_1) : S100000x64.Idx → EReal) = tabOf m c := by
  refine (W4_arr m ρ c 7).trans ((finalTable (V3 m ρ) c).trans ?_)
  unfold tabOf
  rw [show (V3 m ρ c main_arg0 : S100000x128.Idx → EReal) = _ from W3_arg0 m ρ c,
    show (V3 m ρ c main_arg3 : S128x64.Idx → EReal) = _ from W3_arg3 m ρ c,
    show (V3 m ρ c main_v17 : S1x64.Idx → EReal) = _ from W3_v17 m ρ c,
    show (V3 m ρ c main_v15 : S100000x1.Idx → EReal) = _ from W3_v15 m ρ c,
    show (V3 m ρ c main_v16 : S100000x1.Idx → EReal) = _ from W3_v16 m ρ c,
    show (V3 m ρ c main_arg5 : S64x64.Idx → EReal) = _ from W3_arg5 m ρ c]

/-- A buffer that is no window's array of the encoder is, at its exit, as at its entry. -/
theorem W4_v5 (c : Dev nD) : (W4 (F := Ideal) m ρ c (Proc.devRef .tc main_v5) : S1700000.Idx → BitVec 32)
    = srcArr (m ((c : Thread nD τ).loc main_arg2)) :=
  (W4_of_ne m ρ c main_v5 (by decide)).trans (W3_v5 m ρ c)
theorem W4_v6 (c : Dev nD) : (W4 (F := Ideal) m ρ c (Proc.devRef .tc main_v6) : S1700000.Idx → BitVec 32)
    = dstArr (m ((c : Thread nD τ).loc main_arg2)) :=
  (W4_of_ne m ρ c main_v6 (by decide)).trans (W3_v6 m ρ c)
theorem W4_v14 (c : Dev nD) : (W4 (F := Ideal) m ρ c (Proc.devRef .tc main_v14) : S100000.Idx → EReal)
    = dinvArr (m ((c : Thread nD τ).loc main_arg2)) :=
  (W4_of_ne m ρ c main_v14 (by decide)).trans (W3_v14 m ρ c)

theorem W4_arg6 (c : Dev nD) : W4 (F := Ideal) m ρ c (Proc.devRef .tc main_arg6) = m ((c : Thread nD τ).loc main_arg6) := by
  refine (W4_of_ne m ρ c main_arg6 (by decide)).trans ?_
  show StableHlo.after hostOps0_2 (StableHlo.after hostOps0_1 (StableHlo.after hostOps0 (W0 m ρ c))) (Proc.devRef .tc main_arg6) = _
  fold_results
theorem W4_arg7 (c : Dev nD) : W4 (F := Ideal) m ρ c (Proc.devRef .tc main_arg7) = m ((c : Thread nD τ).loc main_arg7) := by
  refine (W4_of_ne m ρ c main_arg7 (by decide)).trans ?_
  show StableHlo.after hostOps0_2 (StableHlo.after hostOps0_1 (StableHlo.after hostOps0 (W0 m ρ c))) (Proc.devRef .tc main_arg7) = _
  fold_results
theorem W4_arg8 (c : Dev nD) : W4 (F := Ideal) m ρ c (Proc.devRef .tc main_arg8) = m ((c : Thread nD τ).loc main_arg8) := by
  refine (W4_of_ne m ρ c main_arg8 (by decide)).trans ?_
  show StableHlo.after hostOps0_2 (StableHlo.after hostOps0_1 (StableHlo.after hostOps0 (W0 m ρ c))) (Proc.devRef .tc main_arg8) = _
  fold_results
theorem W4_arg9 (c : Dev nD) : W4 (F := Ideal) m ρ c (Proc.devRef .tc main_arg9) = m ((c : Thread nD τ).loc main_arg9) := by
  refine (W4_of_ne m ρ c main_arg9 (by decide)).trans ?_
  show StableHlo.after hostOps0_2 (StableHlo.after hostOps0_1 (StableHlo.after hostOps0 (W0 m ρ c))) (Proc.devRef .tc main_arg9) = _
  fold_results
theorem W4_arg10 (c : Dev nD) : W4 (F := Ideal) m ρ c (Proc.devRef .tc main_arg10) = m ((c : Thread nD τ).loc main_arg10) := by
  refine (W4_of_ne m ρ c main_arg10 (by decide)).trans ?_
  show StableHlo.after hostOps0_2 (StableHlo.after hostOps0_1 (StableHlo.after hostOps0 (W0 m ρ c))) (Proc.devRef .tc main_arg10) = _
  fold_results
theorem W4_arg11 (c : Dev nD) : W4 (F := Ideal) m ρ c (Proc.devRef .tc main_arg11) = m ((c : Thread nD τ).loc main_arg11) := by
  refine (W4_of_ne m ρ c main_arg11 (by decide)).trans ?_
  show StableHlo.after hostOps0_2 (StableHlo.after hostOps0_1 (StableHlo.after hostOps0 (W0 m ρ c))) (Proc.devRef .tc main_arg11) = _
  fold_results
theorem W4_arg12 (c : Dev nD) : W4 (F := Ideal) m ρ c (Proc.devRef .tc main_arg12) = m ((c : Thread nD τ).loc main_arg12) := by
  refine (W4_of_ne m ρ c main_arg12 (by decide)).trans ?_
  show StableHlo.after hostOps0_2 (StableHlo.after hostOps0_1 (StableHlo.after hostOps0 (W0 m ρ c))) (Proc.devRef .tc main_arg12) = _
  fold_results
theorem W4_arg13 (c : Dev nD) : W4 (F := Ideal) m ρ c (Proc.devRef .tc main_arg13) = m ((c : Thread nD τ).loc main_arg13) := by
  refine (W4_of_ne m ρ c main_arg13 (by decide)).trans ?_
  show StableHlo.after hostOps0_2 (StableHlo.after hostOps0_1 (StableHlo.after hostOps0 (W0 m ρ c))) (Proc.devRef .tc main_arg13) = _
  fold_results
theorem W4_arg14 (c : Dev nD) : W4 (F := Ideal) m ρ c (Proc.devRef .tc main_arg14) = m ((c : Thread nD τ).loc main_arg14) := by
  refine (W4_of_ne m ρ c main_arg14 (by decide)).trans ?_
  show StableHlo.after hostOps0_2 (StableHlo.after hostOps0_1 (StableHlo.after hostOps0 (W0 m ρ c))) (Proc.devRef .tc main_arg14) = _
  fold_results

/-! ## The heads' entry -/

theorem W5_act (c : Dev nD) : (W5 (F := Ideal) m ρ c (Proc.devRef .tc main_v18_0) : S100000x64.Idx → EReal) = actOf m c := by
  show StableHlo.after hostOps1 (W4 m ρ c) (Proc.devRef .tc main_v18_0) = _
  fold_results_deep
  exact W4_act m ρ c

theorem W5_agg (c : Dev nD) : (W5 (F := Ideal) m ρ c (Proc.devRef .tc main_v29) : S100000x64.Idx → EReal)
    = aggArr (tabOf m c) (srcArr (m ((c : Thread nD τ).loc main_arg2))) (dstArr (m ((c : Thread nD τ).loc main_arg2))) := by
  show StableHlo.after hostOps1 (W4 m ρ c) (Proc.devRef .tc main_v29) = _
  fold_results_deep
  rw [W4_tab m ρ c, W4_v5 m ρ c, W4_v6 m ρ c]
  rfl

theorem W5_dinv (c : Dev nD) : (W5 (F := Ideal) m ρ c (Proc.devRef .tc main_v46) : S100000x1.Idx → EReal)
    = shapeCast S100000x1 (dinvArr (m ((c : Thread nD τ).loc main_arg2))) shapeCasts_S100000_S100000x1 := by
  show StableHlo.after hostOps1 (W4 m ρ c) (Proc.devRef .tc main_v46) = _
  fold_results_deep
  rw [W4_v14 m ρ c]
  rfl

theorem W5_bg (c : Dev nD) : (W5 (F := Ideal) m ρ c (Proc.devRef .tc main_v47) : S1x64.Idx → EReal)
    = shapeCast S1x64 (m ((c : Thread nD τ).loc main_arg6)) shapeCasts_S64_S1x64 := by
  show StableHlo.after hostOps1 (W4 m ρ c) (Proc.devRef .tc main_v47) = _
  fold_results_deep
  rw [W4_arg6 m ρ c]
  rfl

theorem W5_wHidden (c : Dev nD) : (W5 (F := Ideal) m ρ c (Proc.devRef .tc main_v38) : S128x256.Idx → EReal)
    = wHidden (m ((c : Thread nD τ).loc main_arg7)) (m ((c : Thread nD τ).loc main_arg9)) := by
  show StableHlo.after hostOps1 (W4 m ρ c) (Proc.devRef .tc main_v38) = _
  fold_results_deep
  rw [W4_arg7 m ρ c, W4_arg9 m ρ c]
  rfl

theorem W5_bHidden (c : Dev nD) : (W5 (F := Ideal) m ρ c (Proc.devRef .tc main_v48) : S1x256.Idx → EReal)
    = bHidden (m ((c : Thread nD τ).loc main_arg8)) (m ((c : Thread nD τ).loc main_arg10)) := by
  show StableHlo.after hostOps1 (W4 m ρ c) (Proc.devRef .tc main_v48) = _
  fold_results_deep
  rw [W4_arg8 m ρ c, W4_arg10 m ρ c]
  rfl

theorem W5_wOut (c : Dev nD) : (W5 (F := Ideal) m ρ c (Proc.devRef .tc main_v44) : S256x2.Idx → EReal)
    = wOut (m ((c : Thread nD τ).loc main_arg11)) (m ((c : Thread nD τ).loc main_arg13)) := by
  show StableHlo.after hostOps1 (W4 m ρ c) (Proc.devRef .tc main_v44) = _
  fold_results_deep
  rw [W4_arg11 m ρ c, W4_arg13 m ρ c]
  rfl

theorem W5_bOut (c : Dev nD) : (W5 (F := Ideal) m ρ c (Proc.devRef .tc main_v49) : S1x2.Idx → EReal)
    = bOut (m ((c : Thread nD τ).loc main_arg12)) (m ((c : Thread nD τ).loc main_arg14)) := by
  show StableHlo.after hostOps1 (W4 m ρ c) (Proc.devRef .tc main_v49) = _
  fold_results_deep
  rw [W4_arg12 m ρ c, W4_arg14 m ρ c]
  rfl

end Cert.KernelIdeal.Fold

end
-- ==== Proof.LibRowGather.lean ====
/-
  Rows picked and rows accumulated through an integer index column.

  A gather whose start indices form a column `[E, 1]` and whose slices are whole rows reads, at `(e, c)`, the operand's
  row number `idx (e, 0)` — the word read as a signed integer and clamped into `[0, N - 1]` — at column `c`. An
  accumulating scatter with the same index column sends update row `e` to the operand row whose number is that signed
  integer, NOT clamped, and drops the row when the number is negative or at least `N`; so the result at `(v, c)` is
  the operand there plus the sum of the updates `(e, c)` over the edges `e` whose integer is exactly `v`. The same two
  readings hold for a flat operand `[N]` (no column coordinate). Stated for any extents `N`, `E`, `C`.
-/
import Idealize.ShloMosaic.Lib.ValueIdx
import Idealize.ShloMosaic.PureOps.Ideal.Laws

open scoped BigOperators

noncomputable section

namespace Cert.RowIndex

open Idealize.ShloMosaic Idealize.ShloMosaic.ValueIdx

variable {α : Type}

/-- A start index read as a signed integer and clamped into `[0, N - 1]`. -/
def clampRow (N : Nat) (hN : 0 < N) {w : Nat} (b : BitVec w) : Fin N :=
  ⟨min b.toInt.toNat (N - 1), by omega⟩

/-! ## Gathering whole rows of an `[N, C]` operand -/

/-- The dimension numbers of "row `idx (e, 0)` of the operand, whole": offset axis 1, collapsed axis 0, the start
    index names axis 0, the index vector is the column's unit axis. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER AT `(e, c)`: the operand at the clamped row and the same column. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c) = x (ix2 (clampRow N hN (idx (ix2 e (0 : Fin 1)))) c) := by
  unfold Host.gather
  congr 1
  funext a
  refine Fin.ext ?_
  match a with
  | ⟨0, _⟩ =>
    show (rowGather N E C wf).start (ix2 e c) idx 0 + (rowGather N E C wf).batchCoord (ix2 e c) 0
      + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1
      + (rowGather N E C wf).offCoord (ix2 e c) 1 = c.val
    rw [GatherDims.batchCoord_eq_zero _ _ _ List.not_mem_nil]
    have hst : (rowGather N E C wf).start (ix2 e c) idx 1 = 0 := by
      unfold GatherDims.start
      rw [dif_neg (show (1 : Fin 2) ∉ (rowGather N E C wf).startIndexMap from
        fun h => absurd (congrArg Fin.val (List.mem_singleton.mp h)) Nat.one_ne_zero)]
    have hof : (rowGather N E C wf).offCoord (ix2 e c) 1 = c.val := by
      unfold GatherDims.offCoord
      rw [dif_pos ((GatherDims.mem_sKept _ _).mpr
        ⟨fun h => absurd (congrArg Fin.val (List.mem_singleton.mp h)) Nat.one_ne_zero, List.not_mem_nil⟩)]
      rfl
    rw [hst, hof]
    omega

/-! ## Gathering entries of a flat `[N]` operand -/

/-- The dimension numbers of "entry `idx (e, 0)` of a flat operand". -/
abbrev flatGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER AT `e`: the operand at the clamped entry. -/
theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatGather N E wf) x idx (ix1 e) = x (ix1 (clampRow N hN (idx (ix2 e (0 : Fin 1))))) := by
  unfold Host.gather
  congr 1
  funext a
  obtain rfl : a = 0 := Subsingleton.elim _ _
  refine Fin.ext ?_
  show (flatGather N E wf).start (ix1 e) idx 0 + (flatGather N E wf).batchCoord (ix1 e) 0
    + (flatGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGather N E wf).startIndexMap from List.mem_singleton.mpr rfl)]
  have hsi : (flatGather N E wf).siIdx (ix1 e) ⟨List.idxOf (0 : Fin 1) (flatGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.RowIndex

end
-- ==== Proof.Spec.lean ====
/-
  The network both programs compute, entry by entry, over the extended reals.

  Nodes `n < 100000` carry 128 features; `phi` is the encoder's activation, `hrow` the treated activation
  times the graph weights. The graph has the 1600000 given edges followed by one loop per node (1700000 in all);
  an edge's words are read as signed integers. `inEdges v` are the edges arriving at `v` (exactly: an index word
  outside the node range arrives nowhere); a source word is first wrapped (a negative word has the node count added)
  and then clamped into the node range, as a row pick does. `deg` counts arrivals, `dinv` is its inverse square
  root where positive and zero elsewhere, and the convolution `rep` sums, over the arriving edges, the source's row
  weighted by `dinv (source) * dinv (target)`, plus a bias. The two heads read the joined row `[phi | rep]`
  through one hidden layer (the second slice of each stacked weight) and one output column each.
-/
import Idealize.ShloMosaic.PureOps.Ideal.Laws
import Idealize.ShloMosaic.Lib.ValueIdx
import proofs.«153021_j58909771432452_2_alg».proof.Proof.LibRowGather

open scoped BigOperators

noncomputable section

namespace Cert.Gcn

open Idealize.ShloMosaic Idealize.ShloMosaic.ValueIdx Cert.RowIndex

/-- A negative index word has the node count added (the wrap a row pick applies before clamping). -/
def wrapIdx (b : BitVec 32) : BitVec 32 :=
  Scalar.select (IntOp.cmpi .slt b 0#32) (IntOp.addi b 100000#32) b

/-- The node an index word picks: wrapped, read signed, clamped into the node range. -/
def pickRow (b : BitVec 32) : Fin 100000 := clampRow 100000 (by decide) (wrapIdx b)

/-- Inverse square root of a degree where it is positive, zero elsewhere. -/
def dinvOf (d : EReal) : EReal := Scalar.select (Ideal.cmp .ogt d 0) (Ideal.rsqrt d) 0

section
variable (X : FVec Ideal ⟨2, ![100000, 128]⟩ .f32) (t : FVec Ideal ⟨1, ![100000]⟩ .f32)
  (E : IVec ⟨2, ![2, 1600000]⟩ 32)
  (Wp : FVec Ideal ⟨2, ![128, 64]⟩ .f32) (bp : FVec Ideal ⟨1, ![64]⟩ .f32)
  (Wg : FVec Ideal ⟨2, ![64, 64]⟩ .f32) (bg : FVec Ideal ⟨1, ![64]⟩ .f32)

/-- The encoder's activation: `relu (X · Wp + bp)`. -/
def phi (n : Fin 100000) (j : Fin 64) : EReal :=
  max (∑ k : Fin 128, X (ix2 n k) * Wp (ix2 k j) + bp (ix1 j)) 0

/-- The treated activation times the graph weights. -/
def hrow (n : Fin 100000) (j : Fin 64) : EReal :=
  ∑ k : Fin 64, (t (ix1 n) * phi X Wp bp n k) * Wg (ix2 k j)

/-- Edge `e`'s word in row `r` of the edge list extended by one loop per node. -/
def edgeWord (r : Fin 2) (e : Fin 1700000) : BitVec 32 :=
  if h : e.val < 1600000 then E (ix2 r (⟨e.val, h⟩ : Fin 1600000)) else BitVec.ofNat 32 (e.val - 1600000)

/-- The edges arriving at node `v`. -/
def inEdges (v : Fin 100000) : Finset (Fin 1700000) :=
  Finset.univ.filter fun e => (edgeWord E 1 e).toInt = (v.val : ℤ)

/-- The number of arrivals, as a sum of ones. -/
def deg (v : Fin 100000) : EReal := ∑ _e ∈ inEdges E v, Ideal.ofBits .f32 0x3F800000#32

def dinv (v : Fin 100000) : EReal := dinvOf (deg E v)

/-- The normalised convolution with each edge weighted, plus the bias. -/
def rep (v : Fin 100000) (j : Fin 64) : EReal :=
  (∑ e ∈ inEdges E v, hrow X t Wp bp Wg (pickRow (edgeWord E 0 e)) j
      * (dinv E (pickRow (edgeWord E 0 e)) * dinv E (pickRow (edgeWord E 1 e)))) + bg (ix1 j)

/-- The same with the source's weight inside the sum and the target's outside: what a pre-scaled row table summed
    over the arriving edges and scaled afterwards gives. -/
def repScaled (v : Fin 100000) (j : Fin 64) : EReal :=
  (∑ e ∈ inEdges E v, hrow X t Wp bp Wg (pickRow (edgeWord E 0 e)) j * dinv E (pickRow (edgeWord E 0 e))) * dinv E v
    + bg (ix1 j)

/-- Two 64-wide rows side by side. -/
def joinCols (a b : Fin 64 → EReal) (i : Fin 128) : EReal :=
  if h : i.val < 64 then a ⟨i.val, h⟩ else b ⟨i.val - 64, by omega⟩

/-- The joined row `[phi | rep]`. -/
def rowPost (n : Fin 100000) (i : Fin 128) : EReal :=
  joinCols (phi X Wp bp n) (rep X t E Wp bp Wg bg n) i

variable (W : FVec Ideal ⟨3, ![2, 128, 128]⟩ .f32) (b : FVec Ideal ⟨2, ![2, 128]⟩ .f32)
  (Wo : FVec Ideal ⟨2, ![128, 1]⟩ .f32) (bo : FVec Ideal ⟨1, ![1]⟩ .f32)

/-- A head's hidden layer, through the second slice of its stacked weights. -/
def hidden (n : Fin 100000) (k : Fin 128) : EReal :=
  max (∑ i : Fin 128, rowPost X t E Wp bp Wg bg n i * W (ix3 (1 : Fin 2) i k) + b (ix2 (1 : Fin 2) k)) 0

/-- A head's output. -/
def head (n : Fin 100000) : EReal :=
  ∑ k : Fin 128, hidden X t E Wp bp Wg bg W b n k * Wo (ix2 k (0 : Fin 1)) + bo (ix1 (0 : Fin 1))

end

end Cert.Gcn

end
-- ==== Proof.ConcatCols.lean ====
/-
  Two 64-wide blocks laid side by side, read at a column.

  Joining two `[a, 64]` arrays along the columns gives an `[a, 128]` array whose entry `(p, i)` is the first block's
  `(p, i)` for `i < 64` and the second block's `(p, i - 64)` otherwise: the row of the result is the two rows joined.
-/
import proofs.«153021_j58909771432452_2_alg».proof.Proof.Spec
import Idealize.ShloMosaic.Lib.Pipeline.Value

noncomputable section

namespace Cert.Gcn

open Idealize.ShloMosaic Idealize.ShloMosaic.ValueIdx

/-- The joined array at `(p, i)` is the joined row at `i`. -/
theorem concat_cols_apply {a : ℕ} (x₁ x₂ : (⟨2, ![a, 64]⟩ : Shape).Idx → EReal)
    (h : Shape.Concatenates [(⟨2, ![a, 64]⟩ : Shape), ⟨2, ![a, 64]⟩] ⟨2, ![a, 128]⟩ 1) (p : Fin a) (i : Fin 128) :
    concatenate ⟨2, ![a, 128]⟩ 1 [⟨⟨2, ![a, 64]⟩, x₁⟩, ⟨⟨2, ![a, 64]⟩, x₂⟩] h (ix2 p i)
      = joinCols (fun c => x₁ (ix2 p c)) (fun c => x₂ (ix2 p c)) i := by
  unfold joinCols
  by_cases hi : i.val < 64
  · rw [dif_pos hi]
    refine concatenate_pair_apply_left (1 : Fin 2) x₁ x₂ h (ix2 p i) rfl (ix2 p ⟨i.val, hi⟩) fun b => ?_
    match b with
    | ⟨0, _⟩ => rfl
    | ⟨1, _⟩ => rfl
  · rw [dif_neg hi]
    refine concatenate_pair_apply_right (1 : Fin 2) x₁ x₂ h (ix2 p i) rfl rfl (ix2 p ⟨i.val - 64, by omega⟩) (fun b hb => ?_) ?_
    · match b with
      | ⟨0, _⟩ => rfl
      | ⟨1, _⟩ => exact absurd rfl hb
    · show i.val - 64 + 64 = i.val
      omega

end Cert.Gcn

end
-- ==== Proof.TileMlp.lean ====
/-
  The heads' tile, entry by entry, over the extended reals.

  Row `p` of the tile joins the node's activation with its convolution row — the accumulated messages scaled by the
  node's degree weight, plus the bias — and passes through one hidden layer of width 256 (weights, bias row, clipped
  below at zero) and one output layer of width 2 (weights, bias row). Changes of float format are the identity and a
  product accumulated from zero is the plain sum over the contracted index.
-/
import proofs.«153021_j58909771432452_2_alg».proof.Proof.Gen.KernelIdeal.Skeleton
import proofs.«153021_j58909771432452_2_alg».proof.Proof.LibZeroAccDots
import proofs.«153021_j58909771432452_2_alg».proof.Proof.LibColumnLayout
import proofs.«153021_j58909771432452_2_alg».proof.Proof.ConcatCols
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.Tile

open Cert.KernelIdeal Cert.KernelIdeal.Gen Idealize.ShloMosaic Idealize.ShloMosaic.ValueIdx

/-- The joined row of the heads' tile: activation beside the scaled, biased message sum. -/
def joinedRow (v0 v2 : Vec Ideal S4000x64 .f32) (v4 : Vec Ideal S4000x1 .f32) (v8 : Vec Ideal S1x64 .f32)
    (p : Fin 4000) (i : Fin 128) : EReal :=
  Cert.Gcn.joinCols (fun c => v0 (ix2 p c))
    (fun c => v2 (ix2 p c) * v4 (ix2 p (0 : Fin 1)) + v8 (ix2 (0 : Fin 1) c)) i

/-- The heads' tile at `(p, o)`. -/
theorem heads_apply (v0 v2 : Vec Ideal S4000x64 .f32) (v4 : Vec Ideal S4000x1 .f32) (v8 : Vec Ideal S1x64 .f32)
    (v14 : Vec Ideal S128x256 .f32) (v18 : Vec Ideal S1x256 .f32) (v24 : Vec Ideal S256x2 .f32)
    (v29 : Vec Ideal S1x2 .f32) (p : Fin 4000) (o : Fin 2) :
    k1_pay1 (F := Ideal) v0 v2 v4 v8 v14 v18 v24 v29 (ix2 p o)
      = ∑ k : Fin 256, max (∑ i : Fin 128, joinedRow v0 v2 v4 v8 p i * v14 (ix2 i k) + v18 (ix2 (0 : Fin 1) k)) 0
            * v24 (ix2 k o) + v29 (ix2 (0 : Fin 1) o) := by
  unfold k1_pay1
  rw [addf_apply]
  refine congrArg₂ (· + ·) ?_ ?_
  · refine (Cert.ZeroAccDots.rows_columns dot_S4000x256_S256x2_S4000x2_1_0_0_1_n_n rfl rfl rfl rfl rfl rfl rfl rfl none _ _ p o).trans
      (Finset.sum_congr rfl fun k _ => ?_)
    simp only [truncf_apply, maximumf_apply, addf_apply, broadcast_apply, shapeCast_self]
    refine congrArg₂ (· * ·) (congrArg₂ max (congrArg₂ (· + ·) ?_ ?_) Ideal.ofBits_zero_f32) rfl
    · refine (Cert.ZeroAccDots.rows_columns dot_S4000x128_S128x256_S4000x256_1_0_0_1_n_n rfl rfl rfl rfl rfl rfl rfl rfl none _ _ p k).trans
        (Finset.sum_congr rfl fun i _ => ?_)
      simp only [truncf_apply, shapeCast_self]
      refine congrArg₂ (· * ·) ?_ rfl
      refine (Cert.Gcn.concat_cols_apply _ _ _ p i).trans ?_
      unfold joinedRow
      simp only [shapeCast_self, addf_apply, mulf_apply, Cert.ColumnLayout.broadcastTo_a1_ab_apply, broadcastTo_1b_ab_apply]
    · rw [broadcastTo_1b_ab_apply]
  · rw [broadcastTo_1b_ab_apply, shapeCast_self]

end Cert.KernelIdeal.Tile

end
-- ==== Proof.BlocksMlp.lean ====
/-
  The heads' grid, from blocks to the prediction array.

  The grid has 25 points; point `t` works on node rows `4000·t … 4000·t + 3999`. The activation, the accumulated
  messages and the degree-weight column are read through the block of those rows, the five parameter operands whole,
  and the two-column output is written back to the same rows. So after the grid the output array is one function of
  the operand arrays, row by row: the joined row `[act | agg ⊙ d + b]` through the hidden layer and the output layer.
  Every row of the output belongs to exactly the block of point `row / 4000`, so the blocks cover the array.
-/
import proofs.«153021_j58909771432452_2_alg».proof.Proof.Gen.KernelIdeal.Frame
import proofs.«153021_j58909771432452_2_alg».proof.Proof.TileMlp
import Idealize.ShloMosaic.Lib.ValueIdx
import Idealize.ShloMosaic.Lib.Pipeline.Value
import Idealize.ShloMosaic.PureOps.Ideal.Laws

set_option maxRecDepth 16384

open scoped BigOperators

noncomputable section

namespace Cert.KernelIdeal.Blocks1

open Cert.KernelIdeal Cert.KernelIdeal.Gen Idealize.ShloMosaic Idealize.ShloMosaic.TcCoe Idealize.ShloMosaic.ValueIdx
open Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-! ## The index maps over the grid -/

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = t.val ∧ win1_8.index t (1 : Fin 2) = 0 :=
  (by decide +kernel : ∀ t : Fin grid1.N, _)

/-- The node row that row `p` of point `t`'s block is. -/
def rowOf1 (t : Fin cfg1.N) (p : Fin 4000) : Fin 100000 :=
  ⟨4000 * t.val + p.val, by have := t.isLt; have h : cfg1.N = 25 := N_1; have := p.isLt; omega⟩

/-! ## The operands' blocks read at an entry -/

/-- Window 0's block at point `t`, read at `(p, k)`: row `4000·t + p` of its array. -/
theorem blk1_0_apply (c : Dev nD) (t : Fin cfg1.N) (p : Fin 4000) (k : Fin 64) :
    (iblk1 V c 0 t : Vec Ideal S4000x64 .f32) (ix2 p k) = (V c main_v18_0 : S100000x64.Idx → EReal) (ix2 (rowOf1 t p) k) := by
  unfold iblk1
  rw [View.read_apply]
  show V c main_v18_0 _ = V c main_v18_0 _
  congr 1
  funext a
  apply Fin.ext
  match a with
  | ⟨0, _⟩ => show win1_0.index t 0 * 4000 + 1 * p.val = 4000 * t.val + p.val; rw [(idx1_0 t).1]; omega
  | ⟨1, _⟩ => show win1_0.index t 1 * 64 + 1 * k.val = k.val; rw [(idx1_0 t).2]; omega

/-- Window 1's block at point `t`, read at `(p, k)`: row `4000·t + p` of its array. -/
theorem blk1_1_apply (c : Dev nD) (t : Fin cfg1.N) (p : Fin 4000) (k : Fin 64) :
    (iblk1 V c 1 t : Vec Ideal S4000x64 .f32) (ix2 p k) = (V c main_v29 : S100000x64.Idx → EReal) (ix2 (rowOf1 t p) k) := by
  unfold iblk1
  rw [View.read_apply]
  show V c main_v29 _ = V c main_v29 _
  congr 1
  funext a
  apply Fin.ext
  match a with
  | ⟨0, _⟩ => show win1_1.index t 0 * 4000 + 1 * p.val = 4000 * t.val + p.val; rw [(idx1_1 t).1]; omega
  | ⟨1, _⟩ => show win1_1.index t 1 * 64 + 1 * k.val = k.val; rw [(idx1_1 t).2]; omega

/-- Window 2's block at point `t`, read at `(p, k)`: row `4000·t + p` of its array. -/
theorem blk1_2_apply (c : Dev nD) (t : Fin cfg1.N) (p : Fin 4000) (k : Fin 1) :
    (iblk1 V c 2 t : Vec Ideal S4000x1 .f32) (ix2 p k) = (V c main_v46 : S100000x1.Idx → EReal) (ix2 (rowOf1 t p) k) := by
  unfold iblk1
  rw [View.read_apply]
  show V c main_v46 _ = V c main_v46 _
  congr 1
  funext a
  apply Fin.ext
  match a with
  | ⟨0, _⟩ => show win1_2.index t 0 * 4000 + 1 * p.val = 4000 * t.val + p.val; rw [(idx1_2 t).1]; omega
  | ⟨1, _⟩ => show win1_2.index t 1 * 1 + 1 * k.val = k.val; rw [(idx1_2 t).2]; omega

/-- Window 3's block at point `t`, read at `(p, k)`: its whole array. -/
theorem blk1_3_apply (c : Dev nD) (t : Fin cfg1.N) (p : Fin 1) (k : Fin 64) :
    (iblk1 V c 3 t : Vec Ideal S1x64 .f32) (ix2 p k) = (V c main_v47 : S1x64.Idx → EReal) (ix2 p k) := by
  unfold iblk1
  rw [View.read_apply]
  show V c main_v47 _ = V c main_v47 _
  congr 1
  funext a
  apply Fin.ext
  match a with
  | ⟨0, _⟩ => show win1_3.index t 0 * 1 + 1 * p.val = p.val; rw [(idx1_3 t).1]; omega
  | ⟨1, _⟩ => show win1_3.index t 1 * 64 + 1 * k.val = k.val; rw [(idx1_3 t).2]; omega

/-- Window 4's block at point `t`, read at `(p, k)`: its whole array. -/
theorem blk1_4_apply (c : Dev nD) (t : Fin cfg1.N) (p : Fin 128) (k : Fin 256) :
    (iblk1 V c 4 t : Vec Ideal S128x256 .f32) (ix2 p k) = (V c main_v38 : S128x256.Idx → EReal) (ix2 p k) := by
  unfold iblk1
  rw [View.read_apply]
  show V c main_v38 _ = V c main_v38 _
  congr 1
  funext a
  apply Fin.ext
  match a with
  | ⟨0, _⟩ => show win1_4.index t 0 * 128 + 1 * p.val = p.val; rw [(idx1_4 t).1]; omega
  | ⟨1, _⟩ => show win1_4.index t 1 * 256 + 1 * k.val = k.val; rw [(idx1_4 t).2]; omega

/-- Window 5's block at point `t`, read at `(p, k)`: its whole array. -/
theorem blk1_5_apply (c : Dev nD) (t : Fin cfg1.N) (p : Fin 1) (k : Fin 256) :
    (iblk1 V c 5 t : Vec Ideal S1x256 .f32) (ix2 p k) = (V c main_v48 : S1x256.Idx → EReal) (ix2 p k) := by
  unfold iblk1
  rw [View.read_apply]
  show V c main_v48 _ = V c main_v48 _
  congr 1
  funext a
  apply Fin.ext
  match a with
  | ⟨0, _⟩ => show win1_5.index t 0 * 1 + 1 * p.val = p.val; rw [(idx1_5 t).1]; omega
  | ⟨1, _⟩ => show win1_5.index t 1 * 256 + 1 * k.val = k.val; rw [(idx1_5 t).2]; omega

/-- Window 6's block at point `t`, read at `(p, k)`: its whole array. -/
theorem blk1_6_apply (c : Dev nD) (t : Fin cfg1.N) (p : Fin 256) (k : Fin 2) :
    (iblk1 V c 6 t : Vec Ideal S256x2 .f32) (ix2 p k) = (V c main_v44 : S256x2.Idx → EReal) (ix2 p k) := by
  unfold iblk1
  rw [View.read_apply]
  show V c main_v44 _ = V c main_v44 _
  congr 1
  funext a
  apply Fin.ext
  match a with
  | ⟨0, _⟩ => show win1_6.index t 0 * 256 + 1 * p.val = p.val; rw [(idx1_6 t).1]; omega
  | ⟨1, _⟩ => show win1_6.index t 1 * 2 + 1 * k.val = k.val; rw [(idx1_6 t).2]; omega

/-- Window 7's block at point `t`, read at `(p, k)`: its whole array. -/
theorem blk1_7_apply (c : Dev nD) (t : Fin cfg1.N) (p : Fin 1) (k : Fin 2) :
    (iblk1 V c 7 t : Vec Ideal S1x2 .f32) (ix2 p k) = (V c main_v49 : S1x2.Idx → EReal) (ix2 p k) := by
  unfold iblk1
  rw [View.read_apply]
  show V c main_v49 _ = V c main_v49 _
  congr 1
  funext a
  apply Fin.ext
  match a with
  | ⟨0, _⟩ => show win1_7.index t 0 * 1 + 1 * p.val = p.val; rw [(idx1_7 t).1]; omega
  | ⟨1, _⟩ => show win1_7.index t 1 * 2 + 1 * k.val = k.val; rw [(idx1_7 t).2]; omega

/-! ## The output array as a function of the operand arrays -/

/-- The joined row of node `n`: activation beside the scaled, biased message sum. -/
def joinedArr (B0 B1 : S100000x64.Idx → EReal) (B2 : S100000x1.Idx → EReal) (B3 : S1x64.Idx → EReal)
    (n : Fin 100000) (i : Fin 128) : EReal :=
  Cert.Gcn.joinCols (fun q => B0 (ix2 n q)) (fun q => B1 (ix2 n q) * B2 (ix2 n (0 : Fin 1)) + B3 (ix2 (0 : Fin 1) q)) i

/-- The two predictions of every node. -/
def headsArr (B0 B1 : S100000x64.Idx → EReal) (B2 : S100000x1.Idx → EReal) (B3 : S1x64.Idx → EReal)
    (B4 : S128x256.Idx → EReal) (B5 : S1x256.Idx → EReal) (B6 : S256x2.Idx → EReal) (B7 : S1x2.Idx → EReal) :
    S100000x2.Idx → EReal :=
  fun i => ∑ k : Fin 256, max (∑ i' : Fin 128, joinedArr B0 B1 B2 B3 (i 0 : Fin 100000) i' * B4 (ix2 i' k) + B5 (ix2 (0 : Fin 1) k)) 0
      * B6 (ix2 k (i 1 : Fin 2)) + B7 (ix2 (0 : Fin 1) (i 1 : Fin 2))

theorem emb8 (t : Fin cfg1.N) (p : Fin 4000) (q : Fin 2) :
    ((cfg1.win 8).blk t).view.emb (ix2 p q) = (ix2 (rowOf1 t p) q : S100000x2.Idx) := by
  funext a
  apply Fin.ext
  match a with
  | ⟨0, _⟩ => show win1_8.index t 0 * 4000 + 1 * p.val = 4000 * t.val + p.val; rw [(idx1_8 t).1]; omega
  | ⟨1, _⟩ => show win1_8.index t 1 * 2 + 1 * q.val = q.val; rw [(idx1_8 t).2]; omega

/-- The tile's joined row `p` at point `t` is the joined row of node `4000·t + p`. -/
theorem joined_tile (c : Dev nD) (t : Fin cfg1.N) (p : Fin 4000) (i : Fin 128) :
    Tile.joinedRow (iblk1 V c 0 t) (iblk1 V c 1 t) (iblk1 V c 2 t) (iblk1 V c 3 t) p i
      = joinedArr (V c main_v18_0) (V c main_v29) (V c main_v46) (V c main_v47) (rowOf1 t p) i := by
  unfold Tile.joinedRow joinedArr
  exact congrArg₂ (fun a b => Cert.Gcn.joinCols a b i) (funext fun q => blk1_0_apply V c t p q)
    (funext fun q => congrArg₂ (· + ·) (congrArg₂ (· * ·) (blk1_1_apply V c t p q) (blk1_2_apply V c t p (0 : Fin 1)))
      (blk1_3_apply V c t (0 : Fin 1) q))

/-- WHAT POINT `t` WRITES BACK is block `t` of `headsArr`. -/
theorem flushed8 (c : Dev nD) (t : Fin cfg1.N) :
    (dat1 (F := Ideal) V c).flushed 8 t
      = ((cfg1.win 8).blk t).view.read (Elt Ideal)
          (headsArr (V c main_v18_0) (V c main_v29) (V c main_v46) (V c main_v47) (V c main_v38) (V c main_v48)
            (V c main_v44) (V c main_v49)) := by
  show (cfg1.win 8).cut (grid1.coords t) ((dat1 (F := Ideal) V c).after 8 t) = _
  rw [after1_8]
  unfold out1_8
  rw [View.canon_unit_zero hz]
  simp only [View.ld_unit_zero (S := S4000x64) hz, View.ld_unit_zero (S := S4000x1) hz, View.ld_unit_zero (S := S1x64) hz,
    View.ld_unit_zero (S := S128x256) hz, View.ld_unit_zero (S := S1x256) hz, View.ld_unit_zero (S := S256x2) hz,
    View.ld_unit_zero (S := S1x2) hz]
  funext j
  obtain ⟨p, q, rfl⟩ : ∃ (p : Fin 4000) (q : Fin 2), j = ix2 p q := ⟨j 0, j 1, eq_ix2 j⟩
  rw [View.read_apply, emb8]
  refine (Tile.heads_apply (iblk1 V c 0 t) (iblk1 V c 1 t) (iblk1 V c 2 t) (iblk1 V c 3 t) (iblk1 V c 4 t) (iblk1 V c 5 t)
    (iblk1 V c 6 t) (iblk1 V c 7 t) p q).trans ?_
  unfold headsArr
  exact congrArg₂ (· + ·)
    (Finset.sum_congr rfl fun k _ => congrArg₂ (· * ·)
      (congrArg₂ max (congrArg₂ (· + ·)
        (Finset.sum_congr rfl fun i' _ => congrArg₂ (· * ·) (joined_tile V c t p i') (blk1_4_apply V c t i' k))
        (blk1_5_apply V c t (0 : Fin 1) k)) rfl)
      (blk1_6_apply V c t k q))
    (blk1_7_apply V c t (0 : Fin 1) q)

/-! ## The blocks cover the array -/

theorem cover8 (i : S100000x2.Idx) :
    ∃ t : Fin cfg1.N, (cfg1.win 8).flush t = true ∧ i ∈ ((cfg1.win 8).blk t).view.set := by
  have hi0 : (i 0).val < 100000 := (i 0).isLt
  have hi1 : (i 1).val < 2 := (i 1).isLt
  obtain ⟨t', ht'⟩ : ∃ t' : Fin cfg1.N, t'.val = (i 0).val / 4000 :=
    ⟨⟨(i 0).val / 4000, by rw [show cfg1.N = 25 from N_1]; omega⟩, rfl⟩
  refine ⟨t', flush1_8 t', ?_⟩
  show i ∈ ((View.whole main_v50).slice (win1_8.rect t')).set
  rw [View.set_slice_whole, Rect.mem_set_unit]
  intro a
  match a with
  | ⟨0, _⟩ =>
    show win1_8.index t' 0 * 4000 ≤ (i 0).val ∧ (i 0).val < win1_8.index t' 0 * 4000 + 4000
    rw [(idx1_8 t').1, ht']; omega
  | ⟨1, _⟩ =>
    show win1_8.index t' 1 * 2 ≤ (i 1).val ∧ (i 1).val < win1_8.index t' 1 * 2 + 2
    rw [(idx1_8 t').2]; omega

/-! ## The array after the grid -/

theorem finalHeads (c : Dev nD) :
    (dat1 (F := Ideal) V c).arrAt 8 cfg1.N
      = headsArr (V c main_v18_0) (V c main_v29) (V c main_v46) (V c main_v47) (V c main_v38) (V c main_v48)
          (V c main_v44) (V c main_v49) :=
  (dat1 (F := Ideal) V c).arrAt_eq_of_cover 8 _ (fun t _ => flushed8 V c t) cover8

end Cert.KernelIdeal.Blocks1

end
-- ==== Proof.FoldEnd.lean ====
/-
  The three results, as terms of the arguments.

  At the heads' exit the two-column prediction array is the heads' function of the buffers it was entered with (the
  grid's blocks cover it) and the activation array, an operand there, is as it was. The last stretch cuts the two
  columns out as vectors. So each result the program returns is one term of the argument arrays.
-/
import proofs.«153021_j58909771432452_2_alg».proof.Proof.FoldMid
import proofs.«153021_j58909771432452_2_alg».proof.Proof.BlocksMlp

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo Cert.KernelIdeal.Blocks Cert.KernelIdeal.Blocks1

variable (m : (ℓ : Loc nD τ sig) → Buf (Elt Ideal) ℓ) (ρ : Dev nD → PrngReg)

/-- The two-column prediction array at the heads' exit. -/
def headsOf (c : Dev nD) : S100000x2.Idx → EReal :=
  headsArr (actOf m c)
    (aggArr (tabOf m c) (srcArr (m ((c : Thread nD τ).loc main_arg2))) (dstArr (m ((c : Thread nD τ).loc main_arg2))))
    (shapeCast S100000x1 (dinvArr (m ((c : Thread nD τ).loc main_arg2))) shapeCasts_S100000_S100000x1)
    (shapeCast S1x64 (m ((c : Thread nD τ).loc main_arg6)) shapeCasts_S64_S1x64)
    (wHidden (m ((c : Thread nD τ).loc main_arg7)) (m ((c : Thread nD τ).loc main_arg9)))
    (bHidden (m ((c : Thread nD τ).loc main_arg8)) (m ((c : Thread nD τ).loc main_arg10)))
    (wOut (m ((c : Thread nD τ).loc main_arg11)) (m ((c : Thread nD τ).loc main_arg13)))
    (bOut (m ((c : Thread nD τ).loc main_arg12)) (m ((c : Thread nD τ).loc main_arg14)))

theorem W6_heads (c : Dev nD) : (W6 (F := Ideal) m ρ c (Proc.devRef .tc main_v50) : S100000x2.Idx → EReal) = headsOf m c := by
  refine (W6_arr m ρ c 8).trans ((finalHeads (V5 m ρ) c).trans ?_)
  unfold headsOf
  rw [show (V5 m ρ c main_v18_0 : S100000x64.Idx → EReal) = _ from W5_act m ρ c,
    show (V5 m ρ c main_v29 : S100000x64.Idx → EReal) = _ from W5_agg m ρ c,
    show (V5 m ρ c main_v46 : S100000x1.Idx → EReal) = _ from W5_dinv m ρ c,
    show (V5 m ρ c main_v47 : S1x64.Idx → EReal) = _ from W5_bg m ρ c,
    show (V5 m ρ c main_v38 : S128x256.Idx → EReal) = _ from W5_wHidden m ρ c,
    show (V5 m ρ c main_v48 : S1x256.Idx → EReal) = _ from W5_bHidden m ρ c,
    show (V5 m ρ c main_v44 : S256x2.Idx → EReal) = _ from W5_wOut m ρ c,
    show (V5 m ρ c main_v49 : S1x2.Idx → EReal) = _ from W5_bOut m ρ c]

/-- The activation array is an operand of the heads' grid: unchanged by it. -/
theorem W6_act (c : Dev nD) : (W6 (F := Ideal) m ρ c (Proc.devRef .tc main_v18_0) : S100000x64.Idx → EReal) = actOf m c :=
  ((W6_arr m ρ c 0).trans (((dat1 (V5 m ρ) c).arrAt_in 0 rfl _).trans (A_eq1 (V5 m ρ) c 0))).trans (W5_act m ρ c)

/-- The first returned vector: column 1 of the prediction array. -/
theorem W7_y1 (c : Dev nD) : (W7 (F := Ideal) m ρ c (Proc.devRef .tc main_v54) : S100000.Idx → EReal)
    = shapeCast S100000 (extractStridedSlice S100000x1 ![0, 1] (headsOf m c) slices_S100000x2_S100000x1_0_1) shapeCasts_S100000x1_S100000 := by
  show StableHlo.after hostOps2 (W6 m ρ c) (Proc.devRef .tc main_v54) = _
  fold_results
  rw [W6_heads m ρ c]
  rfl

/-- The second returned vector: column 0 of the prediction array. -/
theorem W7_y0 (c : Dev nD) : (W7 (F := Ideal) m ρ c (Proc.devRef .tc main_v52) : S100000.Idx → EReal)
    = shapeCast S100000 (extractStridedSlice S100000x1 ![0, 0] (headsOf m c) slices_S100000x2_S100000x1_0_0) shapeCasts_S100000x1_S100000 := by
  show StableHlo.after hostOps2 (W6 m ρ c) (Proc.devRef .tc main_v52) = _
  fold_results
  rw [W6_heads m ρ c]
  rfl

/-- The third returned array: the activation. -/
theorem W7_act (c : Dev nD) : (W7 (F := Ideal) m ρ c (Proc.devRef .tc main_v18_0) : S100000x64.Idx → EReal) = actOf m c := by
  show StableHlo.after hostOps2 (W6 m ρ c) (Proc.devRef .tc main_v18_0) = _
  fold_results
  exact W6_act m ρ c

end Cert.KernelIdeal.Fold

end
-- ==== Proof.LibRowScatter.lean ====
/-
  Rows accumulated through an integer index column.

  An accumulating scatter whose scatter indices form a column `[E, 1]` and whose update windows are whole rows sends
  update row `e` to the operand row whose number is `idx (e, 0)` read as a signed integer, NOT clamped, and drops the
  row when that number is negative or at least `N`. Over the extended reals the result at `(v, c)` is therefore the
  operand there plus the sum of the updates `(e, c)` over the edges `e` whose integer is exactly `v`. The same holds
  for a flat operand `[N]` with flat updates `[E]`. Stated for any extents `N`, `E`, `C`.
-/
import Idealize.ShloMosaic.Lib.ValueIdx
import Idealize.ShloMosaic.PureOps.Ideal.Laws

open scoped BigOperators

noncomputable section

namespace Cert.RowIndex

open Idealize.ShloMosaic Idealize.ShloMosaic.ValueIdx

/-! ## Rows of an `[N, C]` operand -/

/-- The dimension numbers of "update row `e` goes to operand row `idx (e, 0)`". -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c' : Fin C)

/-- On the row axis the window starts at the signed integer of the edge's index word. -/
theorem rowScatter_start0 : (rowScatter N E C wf).start (ix2 e c') idx 0 = (idx (ix2 e (0 : Fin 1))).toInt := by
  unfold ScatterDims.start
  rw [dif_pos (show (0 : Fin 2) ∈ (rowScatter N E C wf).scatterDimsToOperandDims from List.mem_singleton.mpr rfl)]
  have hsi : (rowScatter N E C wf).siIdx (ix2 e c') ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at zero. -/
theorem rowScatter_start1 : (rowScatter N E C wf).start (ix2 e c') idx 1 = 0 := by
  unfold ScatterDims.start
  rw [dif_neg (show (1 : Fin 2) ∉ (rowScatter N E C wf).scatterDimsToOperandDims from
    fun h => absurd (congrArg Fin.val (List.mem_singleton.mp h)) Nat.one_ne_zero)]

/-- The row axis is inserted: no window coordinate there. -/
theorem rowScatter_window0 : (rowScatter N E C wf).window (ix2 e c') 0 = 0 := by
  unfold ScatterDims.window
  rw [dif_neg (by simp [ScatterDims.sKept, Shape.kept])]

/-- The column axis carries the update's column. -/
theorem rowScatter_window1 : (rowScatter N E C wf).window (ix2 e c') 1 = c'.val := by
  unfold ScatterDims.window
  rw [dif_pos (by simp [ScatterDims.sKept, Shape.kept])]
  rfl

/-- WHERE AN UPDATE LANDS: update `(e, c')` lands on `(v, c)` exactly when the edge's signed integer is `v` and the
    columns agree. -/
theorem rowScatter_lands (v : Fin N) (c : Fin C) :
    (rowScatter N E C wf).resultIdx? (ix2 e c') idx = some (ix2 v c)
      ↔ (idx (ix2 e (0 : Fin 1))).toInt = (v.val : ℤ) ∧ c' = c := by
  have h0 := rowScatter_start0 wf idx e c'
  have h1 := rowScatter_start1 wf idx e c'
  have w0 := rowScatter_window0 wf e c'
  have w1 := rowScatter_window1 wf e c'
  unfold ScatterDims.resultIdx?
  split
  · rename_i h
    constructor
    · intro hs
      have hf := Option.some.inj hs
      have e0 := congrArg (fun f => (f 0).val) hf
      have e1 := congrArg (fun f => (f 1).val) hf
      simp only at e0 e1
      have hh0 := h 0
      rw [h0, w0] at e0 hh0
      rw [h1, w1] at e1
      refine ⟨?_, Fin.ext ?_⟩
      · change ((idx (ix2 e (0 : Fin 1))).toInt + ((0 : ℕ) : ℤ)).toNat = v.val at e0
        omega
      · change ((0 : ℤ) + (c'.val : ℤ)).toNat = c.val at e1
        omega
    · rintro ⟨hv, rfl⟩
      congr 1
      funext a
      refine Fin.ext ?_
      match a with
      | ⟨0, _⟩ =>
        show ((rowScatter N E C wf).start (ix2 e c') idx 0 + ((rowScatter N E C wf).window (ix2 e c') 0 : ℤ)).toNat = v.val
        rw [h0, w0, hv]; omega
      | ⟨1, _⟩ =>
        show ((rowScatter N E C wf).start (ix2 e c') idx 1 + ((rowScatter N E C wf).window (ix2 e c') 1 : ℤ)).toNat = c'.val
        rw [h1, w1]; omega
  · rename_i h
    constructor
    · intro hs; exact absurd hs (by simp)
    · rintro ⟨hv, rfl⟩
      exfalso
      apply h
      intro a
      match a with
      | ⟨0, _⟩ =>
        show 0 ≤ (rowScatter N E C wf).start (ix2 e c') idx 0 + ((rowScatter N E C wf).window (ix2 e c') 0 : ℤ)
          ∧ (rowScatter N E C wf).start (ix2 e c') idx 0 + ((rowScatter N E C wf).window (ix2 e c') 0 : ℤ) < (N : ℤ)
        rw [h0, w0, hv]; have := v.isLt; omega
      | ⟨1, _⟩ =>
        show 0 ≤ (rowScatter N E C wf).start (ix2 e c') idx 1 + ((rowScatter N E C wf).window (ix2 e c') 1 : ℤ)
          ∧ (rowScatter N E C wf).start (ix2 e c') idx 1 + ((rowScatter N E C wf).window (ix2 e c') 1 : ℤ) < (C : ℤ)
        rw [h1, w1]; have := c'.isLt; omega

end Rows

/-- THE ROW SCATTER-ADD AT `(v, c)`, over the extended reals: the operand's entry plus the updates `(e, c)` of the
    edges whose index word is the signed integer `v`. -/
theorem scatterAdd_rows_apply {N E C w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (v : Fin N) (c : Fin C) :
    Ideal.hostScatterAdd (rowScatter N E C wf) x idx upd (ix2 v c)
      = x (ix2 v c) + ∑ e ∈ Finset.univ.filter (fun e : Fin E => (idx (ix2 e (0 : Fin 1))).toInt = (v.val : ℤ)), upd (ix2 e c) := by
  unfold Ideal.hostScatterAdd
  congr 1
  rw [Finset.sum_filter, Finset.sum_filter, sum_idx2]
  refine Finset.sum_congr rfl fun e _ => ?_
  simp only [rowScatter_lands wf idx e _ v c]
  by_cases hq : (idx (ix2 e (0 : Fin 1))).toInt = (v.val : ℤ)
  · simp [hq]
  · simp [hq]

/-- The same, for any record that IS those dimension numbers (a program's own record, by unfolding its definition):
    stated so that the scatter in a goal is matched as it is written and never unfolded. -/
theorem scatterAdd_rows_apply_of {N E C w : Nat} (wf : ScatterDims.WF ⟨2, ![N, C]⟩ ⟨2, ![E, 1]⟩ ⟨2, ![E, C]⟩ [1] [0] [0] 1)
    (r : ScatterDims ⟨2, ![N, C]⟩ ⟨2, ![E, 1]⟩ ⟨2, ![E, C]⟩) (hr : r = rowScatter N E C wf)
    (x : (⟨2, ![N, C]⟩ : Shape).Idx → EReal) (idx : IVec ⟨2, ![E, 1]⟩ w) (upd : (⟨2, ![E, C]⟩ : Shape).Idx → EReal)
    (v : Fin N) (c : Fin C) :
    Ideal.hostScatterAdd r x idx upd (ix2 v c)
      = x (ix2 v c) + ∑ e ∈ Finset.univ.filter (fun e : Fin E => (idx (ix2 e (0 : Fin 1))).toInt = (v.val : ℤ)), upd (ix2 e c) := by
  subst hr
  exact scatterAdd_rows_apply wf x idx upd v c

/-- The same at the exact values, stated of the host operation itself (so that a goal's scatter is matched as written). -/
theorem host_scatterAdd_rows_apply {N E C w : Nat} {φ : FTy} (wf : ScatterDims.WF ⟨2, ![N, C]⟩ ⟨2, ![E, 1]⟩ ⟨2, ![E, C]⟩ [1] [0] [0] 1)
    (r : ScatterDims ⟨2, ![N, C]⟩ ⟨2, ![E, 1]⟩ ⟨2, ![E, C]⟩) (hr : r = rowScatter N E C wf)
    (x : FVec Ideal ⟨2, ![N, C]⟩ φ) (idx : IVec ⟨2, ![E, 1]⟩ w) (upd : FVec Ideal ⟨2, ![E, C]⟩ φ) (v : Fin N) (c : Fin C) :
    Host.scatterAdd r x idx upd (ix2 v c)
      = (x (ix2 v c) : EReal) + ∑ e ∈ Finset.univ.filter (fun e : Fin E => (idx (ix2 e (0 : Fin 1))).toInt = (v.val : ℤ)), (upd (ix2 e c) : EReal) :=
  scatterAdd_rows_apply_of wf r hr x idx upd v c

/-! ## Entries of a flat `[N]` operand -/

/-- The dimension numbers of "update `e` goes to operand entry `idx (e, 0)`". -/
abbrev flatScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Flat
variable {N E w : Nat} (wf : ScatterDims.WF ⟨1, ![N]⟩ ⟨2, ![E, 1]⟩ ⟨1, ![E]⟩ [] [0] [0] 1)
  (idx : IVec ⟨2, ![E, 1]⟩ w) (e : Fin E)

theorem flatScatter_start0 : (flatScatter N E wf).start (ix1 e) idx 0 = (idx (ix2 e (0 : Fin 1))).toInt := by
  unfold ScatterDims.start
  rw [dif_pos (show (0 : Fin 1) ∈ (flatScatter N E wf).scatterDimsToOperandDims from List.mem_singleton.mpr rfl)]
  have hsi : (flatScatter N E wf).siIdx (ix1 e) ⟨List.idxOf (0 : Fin 1) (flatScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem flatScatter_window0 : (flatScatter N E wf).window (ix1 e) 0 = 0 := by
  unfold ScatterDims.window
  rw [dif_neg (by simp [ScatterDims.sKept, Shape.kept])]

/-- Update `e` lands on entry `v` exactly when the edge's signed integer is `v`. -/
theorem flatScatter_lands (v : Fin N) :
    (flatScatter N E wf).resultIdx? (ix1 e) idx = some (ix1 v) ↔ (idx (ix2 e (0 : Fin 1))).toInt = (v.val : ℤ) := by
  have h0 := flatScatter_start0 wf idx e
  have w0 := flatScatter_window0 wf e
  unfold ScatterDims.resultIdx?
  split
  · rename_i h
    constructor
    · intro hs
      have hf := Option.some.inj hs
      have e0 := congrArg (fun f => (f 0).val) hf
      simp only at e0
      have hh0 := h 0
      rw [h0, w0] at e0 hh0
      change ((idx (ix2 e (0 : Fin 1))).toInt + ((0 : ℕ) : ℤ)).toNat = v.val at e0
      omega
    · intro hv
      congr 1
      funext a
      obtain rfl : a = 0 := Subsingleton.elim _ _
      refine Fin.ext ?_
      show ((flatScatter N E wf).start (ix1 e) idx 0 + ((flatScatter N E wf).window (ix1 e) 0 : ℤ)).toNat = v.val
      rw [h0, w0, hv]; omega
  · rename_i h
    constructor
    · intro hs; exact absurd hs (by simp)
    · intro hv
      exfalso
      apply h
      intro a
      obtain rfl : a = 0 := Subsingleton.elim _ _
      show 0 ≤ (flatScatter N E wf).start (ix1 e) idx 0 + ((flatScatter N E wf).window (ix1 e) 0 : ℤ)
        ∧ (flatScatter N E wf).start (ix1 e) idx 0 + ((flatScatter N E wf).window (ix1 e) 0 : ℤ) < (N : ℤ)
      rw [h0, w0, hv]; have := v.isLt; omega

end Flat

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- THE FLAT SCATTER-ADD AT `v`, over the extended reals. -/
theorem scatterAdd_flat_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (v : Fin N) :
    Ideal.hostScatterAdd (flatScatter N E wf) x idx upd (ix1 v)
      = x (ix1 v) + ∑ e ∈ Finset.univ.filter (fun e : Fin E => (idx (ix2 e (0 : Fin 1))).toInt = (v.val : ℤ)), upd (ix1 e) := by
  unfold Ideal.hostScatterAdd
  congr 1
  rw [Finset.sum_filter, Finset.sum_filter, sum_idx1]
  refine Finset.sum_congr rfl fun e _ => ?_
  simp only [flatScatter_lands wf idx e v]

/-- The same, for any record that IS those dimension numbers. -/
theorem scatterAdd_flat_apply_of {N E w : Nat} (wf : ScatterDims.WF ⟨1, ![N]⟩ ⟨2, ![E, 1]⟩ ⟨1, ![E]⟩ [] [0] [0] 1)
    (r : ScatterDims ⟨1, ![N]⟩ ⟨2, ![E, 1]⟩ ⟨1, ![E]⟩) (hr : r = flatScatter N E wf)
    (x : (⟨1, ![N]⟩ : Shape).Idx → EReal) (idx : IVec ⟨2, ![E, 1]⟩ w) (upd : (⟨1, ![E]⟩ : Shape).Idx → EReal) (v : Fin N) :
    Ideal.hostScatterAdd r x idx upd (ix1 v)
      = x (ix1 v) + ∑ e ∈ Finset.univ.filter (fun e : Fin E => (idx (ix2 e (0 : Fin 1))).toInt = (v.val : ℤ)), upd (ix1 e) := by
  subst hr
  exact scatterAdd_flat_apply wf x idx upd v

/-- The same at the exact values, stated of the host operation itself. -/
theorem host_scatterAdd_flat_apply {N E w : Nat} {φ : FTy} (wf : ScatterDims.WF ⟨1, ![N]⟩ ⟨2, ![E, 1]⟩ ⟨1, ![E]⟩ [] [0] [0] 1)
    (r : ScatterDims ⟨1, ![N]⟩ ⟨2, ![E, 1]⟩ ⟨1, ![E]⟩) (hr : r = flatScatter N E wf)
    (x : FVec Ideal ⟨1, ![N]⟩ φ) (idx : IVec ⟨2, ![E, 1]⟩ w) (upd : FVec Ideal ⟨1, ![E]⟩ φ) (v : Fin N) :
    Host.scatterAdd r x idx upd (ix1 v)
      = (x (ix1 v) : EReal) + ∑ e ∈ Finset.univ.filter (fun e : Fin E => (idx (ix2 e (0 : Fin 1))).toInt = (v.val : ℤ)), (upd (ix1 e) : EReal) :=
  scatterAdd_flat_apply_of wf r hr x idx upd v

end Cert.RowIndex

end
-- ==== Proof.LibBroadcastInDim.lean ====
/-
  `broadcast_in_dim` of the small shapes around a column, read at an index: a scalar repeated over any shape reads the
  scalar; a vector `[a]` placed as a column `[a, 1]` reads its entry of the row; a column `[a, 1]` repeated along rows of
  width `b` reads the row's one entry. (The operand's unit axes read coordinate zero, its other axes the result's
  coordinate on the axis they are sent to.)
-/
import Idealize.ShloMosaic.Lib.ValueIdx
import Idealize.ShloMosaic.Lib.Pipeline.Value

noncomputable section

namespace Cert.BroadcastInDim

open Idealize.ShloMosaic Idealize.ShloMosaic.ValueIdx

variable {α : Type}

/-- A scalar repeated over a shape reads the scalar everywhere. -/
theorem scalar_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

/-- A vector `[a]` placed as a column `[a, 1]` reads, at `(i, u)`, its entry `i`. -/
theorem column_apply {a : ℕ} (x : (⟨1, ![a]⟩ : Shape).Idx → α) (h : (⟨1, ![a]⟩ : Shape).BroadcastsInDim ⟨2, ![a, 1]⟩ ![0])
    (i : Fin a) (u : Fin 1) : broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A column `[a, 1]` repeated along rows of width `b` reads, at `(p, c)`, the column's entry of row `p`. -/
theorem rows_apply {a b : ℕ} (x : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h x (ix2 p c) = x (ix2 p (0 : Fin 1)) := by
  refine broadcastInDim_apply ![0, 1] h x (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.BroadcastInDim

end
-- ==== Proof.LibDotSums.lean ====
/-
  Matrix products at the exact values, read entry by entry.

  For operands of shapes [A, K] and [K, B] whose dimension numbers say "no batch axes, contract axis 1 of the left
  against axis 0 of the right", both the in-kernel product accumulated into a zero tile and the host's `dot_general`
  have, at the entry (p, q), the value `∑ k < K, x (p, k) * y (k, q)`: over the extended reals neither carries a rounding
  or an order of summation, so the two are the same finite sum. The re-indexing of the contraction's own index set to
  `Fin K` is the rows-by-columns lemma for such records.
-/
import proofs.«153021_j58909771432452_2_alg».proof.Proof.LibPlainDot

open scoped BigOperators

namespace Cert.DotSums

open Idealize.ShloMosaic Idealize.ShloMosaic.ValueIdx

variable {A K B : Nat} (d : DotDims ⟨2, ![A, K]⟩ ⟨2, ![K, B]⟩ ⟨2, ![A, B]⟩)

/-- The in-kernel product into a zero accumulator, at (p, q): the plain sum along row p and column q. -/
theorem matmul_zero_ix2 {φ₁ φ₂ : FTy} (prec : Option ContractPrecision)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.matmul d prec x y (constant ⟨2, ![A, B]⟩ .f32 0x00000000#32) (ix2 p q)
      = ∑ k : Fin K, (x (ix2 p k) : EReal) * (y (ix2 k q) : EReal) :=
  (Ideal.matmul_constant_zero_apply d prec x y (ix2 p q)).trans
    (Cert.PlainDot.sum_eq d hlb hln hlc hrb hrn hrc hr hs x y p q)

/-- The host's `dot_general`, at (p, q): the same plain sum, whatever the schedule key. -/
theorem dotGeneral_ix2 {φ₁ φ₂ : FTy} (prec : Option ContractPrecision) (sched : HostSchedule)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.dotGeneral d prec sched x y (ix2 p q)
      = ∑ k : Fin K, (x (ix2 p k) : EReal) * (y (ix2 k q) : EReal) :=
  (Ideal.dotGeneral_apply d prec sched x y (ix2 p q)).trans
    (Cert.PlainDot.sum_eq d hlb hln hlc hrb hrn hrc hr hs x y p q)

end Cert.DotSums
-- ==== Proof.LibOpsAt.lean ====
/-
  Host operations read at an index at the exact values, for any shape: the host's reciprocal square root of an array
  is the reciprocal square root of the entry; an integer comparison and an integer sum of two arrays act entry by entry;
  the host's product of an [A, K] by a [K, B] array (no batch axes, axis 1 against axis 0) has at (p, q) the plain sum
  over k < K of x (p, k) · y (k, q). And a congruence for sums over the indices satisfying a condition: equivalent
  conditions and equal terms give equal sums, whatever the decision procedures.
-/
import proofs.«153021_j58909771432452_2_alg».proof.Proof.LibDotSums
import Idealize.ShloMosaic.Lib.ValueIdx
import Idealize.ShloMosaic.PureOps.Ideal.Laws

open scoped BigOperators

noncomputable section

namespace Cert.OpsAt

open Idealize.ShloMosaic Idealize.ShloMosaic.ValueIdx

/-- The host's reciprocal square root at an index. -/
theorem host_rsqrt_apply {s : Shape} {φ : FTy} (x : FVec Ideal s φ) (i : s.Idx) : Host.rsqrt x i = Ideal.rsqrt (x i) := rfl
/-- An integer comparison at an index. -/
theorem cmpi_at {s : Shape} {w : Nat} (p : CmpIPredicate) (x y : IVec s w) (i : s.Idx) :
    cmpi p x y i = IntOp.cmpi p (x i) (y i) := rfl
/-- An integer sum at an index. -/
theorem addi_at {s : Shape} {w : Nat} (x y : IVec s w) (i : s.Idx) : addi x y i = IntOp.addi (x i) (y i) := rfl

/-- The host's rows-by-columns product at (p, q): the plain sum. -/
theorem host_dot_at {A K B : Nat} {φ₁ φ₂ : FTy} (d : DotDims ⟨2, ![A, K]⟩ ⟨2, ![K, B]⟩ ⟨2, ![A, B]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    Host.dotGeneral d none x y (ix2 p q) = ∑ k : Fin K, x (ix2 p k) * y (ix2 k q) :=
  Cert.DotSums.dotGeneral_ix2 d none .single hlb hln hlc hrb hrn hrc hr hs x y p q

/-- Two sums over the indices that satisfy equivalent conditions, of equal terms, are equal. -/
theorem sum_filter_congr {ι : Type*} [Fintype ι] (p p' : ι → Prop) [DecidablePred p] [DecidablePred p'] (f f' : ι → EReal)
    (hp : ∀ e, p e ↔ p' e) (hf : ∀ e, f e = f' e) :
    ∑ e ∈ Finset.univ.filter p, f e = ∑ e ∈ Finset.univ.filter p', f' e := by
  rw [Finset.filter_congr (fun e _ => hp e)]
  exact Finset.sum_congr rfl fun e _ => hf e

end Cert.OpsAt

end
-- ==== Proof.HostAt.lean ====
/-
  The graph terms read at an entry.

  The extended source and target vectors at edge `e` are the specification's edge words: the edge list's row below
  1600000, the loop's own number above. The degree at node `v` is the sum of ones over the edges arriving at `v`
  (an accumulating sum from zero lands an edge's one exactly where its target word, read signed, names the node), and
  the degree weight is the specification's.
-/
import proofs.«153021_j58909771432452_2_alg».proof.Proof.FoldEntry
import proofs.«153021_j58909771432452_2_alg».proof.Proof.Spec
import proofs.«153021_j58909771432452_2_alg».proof.Proof.LibRowScatter
import proofs.«153021_j58909771432452_2_alg».proof.Proof.LibBroadcastInDim
import proofs.«153021_j58909771432452_2_alg».proof.Proof.LibOpsAt
import Idealize.ShloMosaic.Lib.ValueIdx
import Idealize.ShloMosaic.Lib.ValueLayout
import Idealize.ShloMosaic.Lib.Pipeline.Value

set_option maxRecDepth 16384

open scoped BigOperators

noncomputable section

namespace Cert.KernelIdeal.Fold

open Cert.KernelIdeal Cert.KernelIdeal.Gen Idealize.ShloMosaic Idealize.ShloMosaic.ValueIdx Cert.RowIndex

/-- A word of the extended edge vector cut from row `r` of the edge list. -/
theorem edge_apply (r : Fin 2) (a2 : IVec S2x1600000 32)
    (hs : (S2x1600000 : Shape).Slices ![r.val, 0] S1x1600000) (e : Fin 1700000) :
    concatenate S1700000 0 [⟨S1600000, shapeCast S1600000 (extractStridedSlice S1x1600000 ![r.val, 0] a2 hs) shapeCasts_S1x1600000_S1600000⟩,
      ⟨S100000, iotaInDim S100000 32 0⟩] concatenates_S1600000_S100000_S1700000_d0 (ix1 e)
      = Cert.Gcn.edgeWord a2 r e := by
  unfold Cert.Gcn.edgeWord
  by_cases h : e.val < 1600000
  · rw [dif_pos h]
    refine (concatenate_pair_apply_left (t := S1700000) (s₁ := S1600000) (s₂ := S100000) (0 : Fin 1) _ _ concatenates_S1600000_S100000_S1700000_d0 (ix1 e) rfl
      (ix1 (⟨e.val, h⟩ : Fin 1600000)) fun b => ?_).trans ?_
    · match b with
      | ⟨0, _⟩ => rfl
    · refine (shapeCast_1a_a_apply _ shapeCasts_S1x1600000_S1600000 (⟨e.val, h⟩ : Fin 1600000)).trans ?_
      exact slice2_axis0_apply r.val a2 hs (0 : Fin 1) (⟨e.val, h⟩ : Fin 1600000) r (by simp)
  · rw [dif_neg h]
    have he := e.isLt
    refine (concatenate_pair_apply_right (t := S1700000) (s₁ := S1600000) (s₂ := S100000) (0 : Fin 1) _ _ concatenates_S1600000_S100000_S1700000_d0 (ix1 e) rfl rfl
      (ix1 (⟨e.val - 1600000, by omega⟩ : Fin 100000)) (fun b hb => ?_) ?_).trans ?_
    · match b with
      | ⟨0, _⟩ => exact absurd rfl hb
    · show e.val - 1600000 + 1600000 = e.val
      omega
    · rfl

theorem srcArr_apply (a2 : IVec S2x1600000 32) (e : Fin 1700000) : srcArr a2 (ix1 e) = Cert.Gcn.edgeWord a2 0 e :=
  edge_apply 0 a2 slices_S2x1600000_S1x1600000_0_0 e

theorem dstArr_apply (a2 : IVec S2x1600000 32) (e : Fin 1700000) : dstArr a2 (ix1 e) = Cert.Gcn.edgeWord a2 1 e :=
  edge_apply 1 a2 slices_S2x1600000_S1x1600000_1_0 e

/-- The degree at a node is the specification's. -/
theorem degArr_apply (a2 : IVec S2x1600000 32) (v : Fin 100000) : degArr a2 (ix1 v) = Cert.Gcn.deg a2 v := by
  unfold degArr Cert.Gcn.deg Cert.Gcn.inEdges
  refine (host_scatterAdd_flat_apply scatter_S100000_S1700000x1_S1700000_n_0_0_1.wf _ rfl _ _ _ v).trans ?_
  rw [Cert.BroadcastInDim.scalar_apply, constant_apply, Ideal.ofBits_zero_f32, zero_add]
  refine Cert.OpsAt.sum_filter_congr _ _ _ _ (fun e => ?_) (fun e => ?_)
  · rw [Cert.BroadcastInDim.column_apply, dstArr_apply]
  · rw [Cert.BroadcastInDim.scalar_apply, constant_apply]

/-- The degree weight at a node is the specification's. -/
theorem dinvArr_apply (a2 : IVec S2x1600000 32) (v : Fin 100000) : dinvArr a2 (ix1 v) = Cert.Gcn.dinv a2 v := by
  unfold dinvArr Cert.Gcn.dinv Cert.Gcn.dinvOf
  rw [select_apply, cmpf_apply, Cert.OpsAt.host_rsqrt_apply, Cert.BroadcastInDim.scalar_apply,
    Cert.BroadcastInDim.scalar_apply, degArr_apply, Ideal.cmpf_def]
  simp only [id, constant_apply, Ideal.ofBits_zero_f32]

end Cert.KernelIdeal.Fold

end
-- ==== Proof.ParamsAt.lean ====
/-
  The heads' parameter arrays read at an entry.

  The hidden weights' column `k` is column `k` of the first stack's second slice for `k < 128` and column `k - 128` of the
  second stack's otherwise; the hidden bias row likewise. The output weights are block diagonal: row `k < 128` carries
  the first output column in column 0 and zero in column 1, row `128 + k` zero in column 0 and the second output column
  in column 1. The output bias row carries the two output biases.
-/
import proofs.«153021_j58909771432452_2_alg».proof.Proof.FoldMid
import proofs.«153021_j58909771432452_2_alg».proof.Proof.LibBroadcastInDim
import Idealize.ShloMosaic.Lib.ValueIdx
import Idealize.ShloMosaic.Lib.ValueLayout
import Idealize.ShloMosaic.Lib.Pipeline.Value

set_option maxRecDepth 16384

noncomputable section

namespace Cert.KernelIdeal.Fold

open Cert.KernelIdeal Cert.KernelIdeal.Gen Idealize.ShloMosaic Idealize.ShloMosaic.ValueIdx

/-- The second slice of a stacked weight, as a matrix, at `(i, k)`. -/
theorem slice3_apply (a : FVec Ideal S2x128x128 .f32) (i k : Fin 128) :
    shapeCast S128x128 (extractStridedSlice S1x128x128 ![1, 0, 0] a slices_S2x128x128_S1x128x128_1_0_0) shapeCasts_S1x128x128_S128x128 (ix2 i k)
      = a (ix3 (1 : Fin 2) i k) := by
  refine (shapeCast_1ab_ab_apply _ shapeCasts_S1x128x128_S128x128 i k).trans ?_
  refine extractStridedSlice_apply _ _ _ _ _ (fun ax => ?_)
  match ax with
  | ⟨0, _⟩ => rfl
  | ⟨1, _⟩ => exact (Nat.zero_add _).symm
  | ⟨2, _⟩ => exact (Nat.zero_add _).symm

/-- The second row of a stacked bias, as a vector, at `k`. -/
theorem slice2_apply (a : FVec Ideal S2x128 .f32) (k : Fin 128) :
    shapeCast S128 (extractStridedSlice S1x128 ![1, 0] a slices_S2x128_S1x128_1_0) shapeCasts_S1x128_S128 (ix1 k)
      = a (ix2 (1 : Fin 2) k) := by
  refine (shapeCast_1a_a_apply _ shapeCasts_S1x128_S128 k).trans ?_
  exact slice2_axis0_apply 1 a slices_S2x128_S1x128_1_0 (0 : Fin 1) k (1 : Fin 2) rfl

/-- Column `k` of the first 128 of the hidden weights. -/
theorem wHidden_left (a7 a9 : FVec Ideal S2x128x128 .f32) (i k : Fin 128) :
    wHidden a7 a9 (ix2 i (⟨k.val, by have := k.isLt; omega⟩ : Fin 256)) = a7 (ix3 (1 : Fin 2) i k) := by
  unfold wHidden
  refine (concatenate_pair_apply_left (t := S128x256) (s₁ := S128x128) (s₂ := S128x128) (1 : Fin 2) _ _ concatenates_S128x128_S128x128_S128x256_d1 _ rfl (ix2 i k) fun b => ?_).trans
    (slice3_apply a7 i k)
  match b with
  | ⟨0, _⟩ => rfl
  | ⟨1, _⟩ => rfl

/-- Column `128 + k` of the hidden weights. -/
theorem wHidden_right (a7 a9 : FVec Ideal S2x128x128 .f32) (i k : Fin 128) :
    wHidden a7 a9 (ix2 i (⟨128 + k.val, by have := k.isLt; omega⟩ : Fin 256)) = a9 (ix3 (1 : Fin 2) i k) := by
  unfold wHidden
  refine (concatenate_pair_apply_right (t := S128x256) (s₁ := S128x128) (s₂ := S128x128) (1 : Fin 2) _ _ concatenates_S128x128_S128x128_S128x256_d1 _ rfl rfl (ix2 i k) (fun b hb => ?_) ?_).trans
    (slice3_apply a9 i k)
  · match b with
    | ⟨0, _⟩ => rfl
    | ⟨1, _⟩ => exact absurd rfl hb
  · show k.val + 128 = 128 + k.val
    omega

theorem bHidden_left (a8 a10 : FVec Ideal S2x128 .f32) (k : Fin 128) :
    bHidden a8 a10 (ix2 (0 : Fin 1) (⟨k.val, by have := k.isLt; omega⟩ : Fin 256)) = a8 (ix2 (1 : Fin 2) k) := by
  unfold bHidden
  refine (shapeCast_a_1a_apply _ shapeCasts_S256_S1x256 (0 : Fin 1) _).trans ?_
  refine (concatenate_pair_apply_left (t := S256) (s₁ := S128) (s₂ := S128) (0 : Fin 1) _ _ concatenates_S128_S128_S256_d0 _ rfl (ix1 k) fun b => ?_).trans
    (slice2_apply a8 k)
  match b with
  | ⟨0, _⟩ => rfl

theorem bHidden_right (a8 a10 : FVec Ideal S2x128 .f32) (k : Fin 128) :
    bHidden a8 a10 (ix2 (0 : Fin 1) (⟨128 + k.val, by have := k.isLt; omega⟩ : Fin 256)) = a10 (ix2 (1 : Fin 2) k) := by
  unfold bHidden
  refine (shapeCast_a_1a_apply _ shapeCasts_S256_S1x256 (0 : Fin 1) _).trans ?_
  refine (concatenate_pair_apply_right (t := S256) (s₁ := S128) (s₂ := S128) (0 : Fin 1) _ _ concatenates_S128_S128_S256_d0 _ rfl rfl (ix1 k) (fun b hb => ?_) ?_).trans
    (slice2_apply a10 k)
  · match b with
    | ⟨0, _⟩ => exact absurd rfl hb
  · show k.val + 128 = 128 + k.val
    omega

/-- A column beside a zero column, at `(k, o)`: the column in position `o = 0`, zero in position 1. -/
theorem colZero_apply (a : FVec Ideal S128x1 .f32) (k : Fin 128) :
    concatenate S128x2 1 [⟨S128x1, a⟩,
        ⟨S128x1, broadcastInDim S128x1 ![] bcast_S_S128x1 (constant (F := Ideal) S_ .f32 0x00000000#32)⟩] concatenates_S128x1_S128x1_S128x2_d1 (ix2 k (0 : Fin 2))
      = a (ix2 k (0 : Fin 1))
    ∧ concatenate S128x2 1 [⟨S128x1, a⟩,
        ⟨S128x1, broadcastInDim S128x1 ![] bcast_S_S128x1 (constant (F := Ideal) S_ .f32 0x00000000#32)⟩] concatenates_S128x1_S128x1_S128x2_d1 (ix2 k (1 : Fin 2))
      = 0 := by
  constructor
  · refine concatenate_pair_apply_left (t := S128x2) (s₁ := S128x1) (s₂ := S128x1) (1 : Fin 2) _ _ concatenates_S128x1_S128x1_S128x2_d1 _ rfl (ix2 k (0 : Fin 1)) fun b => ?_
    match b with
    | ⟨0, _⟩ => rfl
    | ⟨1, _⟩ => rfl
  · refine (concatenate_pair_apply_right (t := S128x2) (s₁ := S128x1) (s₂ := S128x1) (1 : Fin 2) _ _ concatenates_S128x1_S128x1_S128x2_d1 _ rfl rfl (ix2 k (0 : Fin 1)) (fun b hb => ?_) ?_).trans ?_
    · match b with
      | ⟨0, _⟩ => rfl
      | ⟨1, _⟩ => exact absurd rfl hb
    · rfl
    · rw [Cert.BroadcastInDim.scalar_apply, constant_apply, Ideal.ofBits_zero_f32]

/-- A zero column beside a column, at `(k, o)`: zero in position 0, the column in position 1. -/
theorem zeroCol_apply (a : FVec Ideal S128x1 .f32) (k : Fin 128) :
    concatenate S128x2 1 [⟨S128x1, broadcastInDim S128x1 ![] bcast_S_S128x1 (constant (F := Ideal) S_ .f32 0x00000000#32)⟩,
        ⟨S128x1, a⟩] concatenates_S128x1_S128x1_S128x2_d1 (ix2 k (0 : Fin 2))
      = 0
    ∧ concatenate S128x2 1 [⟨S128x1, broadcastInDim S128x1 ![] bcast_S_S128x1 (constant (F := Ideal) S_ .f32 0x00000000#32)⟩,
        ⟨S128x1, a⟩] concatenates_S128x1_S128x1_S128x2_d1 (ix2 k (1 : Fin 2))
      = a (ix2 k (0 : Fin 1)) := by
  constructor
  · refine (concatenate_pair_apply_left (t := S128x2) (s₁ := S128x1) (s₂ := S128x1) (1 : Fin 2) _ _ concatenates_S128x1_S128x1_S128x2_d1 _ rfl (ix2 k (0 : Fin 1)) fun b => ?_).trans ?_
    · match b with
      | ⟨0, _⟩ => rfl
      | ⟨1, _⟩ => rfl
    · rw [Cert.BroadcastInDim.scalar_apply, constant_apply, Ideal.ofBits_zero_f32]
  · refine concatenate_pair_apply_right (t := S128x2) (s₁ := S128x1) (s₂ := S128x1) (1 : Fin 2) _ _ concatenates_S128x1_S128x1_S128x2_d1 _ rfl rfl (ix2 k (0 : Fin 1)) (fun b hb => ?_) ?_
    · match b with
      | ⟨0, _⟩ => rfl
      | ⟨1, _⟩ => exact absurd rfl hb
    · rfl

/-- The output weights' upper block: row `k < 128`. -/
theorem wOut_upper (a11 a13 : FVec Ideal S128x1 .f32) (k : Fin 128) (o : Fin 2) :
    wOut a11 a13 (ix2 (⟨k.val, by have := k.isLt; omega⟩ : Fin 256) o)
      = concatenate S128x2 1 [⟨S128x1, a11⟩,
          ⟨S128x1, broadcastInDim S128x1 ![] bcast_S_S128x1 (constant (F := Ideal) S_ .f32 0x00000000#32)⟩] concatenates_S128x1_S128x1_S128x2_d1 (ix2 k o) := by
  unfold wOut
  refine concatenate_pair_apply_left (t := S256x2) (s₁ := S128x2) (s₂ := S128x2) (0 : Fin 2) _ _ concatenates_S128x2_S128x2_S256x2_d0 _ rfl (ix2 k o) fun b => ?_
  match b with
  | ⟨0, _⟩ => rfl
  | ⟨1, _⟩ => rfl

/-- The output weights' lower block: row `128 + k`. -/
theorem wOut_lower (a11 a13 : FVec Ideal S128x1 .f32) (k : Fin 128) (o : Fin 2) :
    wOut a11 a13 (ix2 (⟨128 + k.val, by have := k.isLt; omega⟩ : Fin 256) o)
      = concatenate S128x2 1 [⟨S128x1, broadcastInDim S128x1 ![] bcast_S_S128x1 (constant (F := Ideal) S_ .f32 0x00000000#32)⟩,
          ⟨S128x1, a13⟩] concatenates_S128x1_S128x1_S128x2_d1 (ix2 k o) := by
  unfold wOut
  refine concatenate_pair_apply_right (t := S256x2) (s₁ := S128x2) (s₂ := S128x2) (0 : Fin 2) _ _ concatenates_S128x2_S128x2_S256x2_d0 _ rfl rfl (ix2 k o) (fun b hb => ?_) ?_
  · match b with
    | ⟨0, _⟩ => exact absurd rfl hb
    | ⟨1, _⟩ => rfl
  · show k.val + 128 = 128 + k.val
    omega

/-- The output bias row. -/
theorem bOut_apply (a12 a14 : FVec Ideal S1 .f32) :
    bOut a12 a14 (ix2 (0 : Fin 1) (0 : Fin 2)) = a12 (ix1 (0 : Fin 1))
    ∧ bOut a12 a14 (ix2 (0 : Fin 1) (1 : Fin 2)) = a14 (ix1 (0 : Fin 1)) := by
  unfold bOut
  constructor
  · refine (shapeCast_a_1a_apply _ shapeCasts_S2_S1x2 (0 : Fin 1) (0 : Fin 2)).trans ?_
    refine concatenate_pair_apply_left (t := S2) (s₁ := S1) (s₂ := S1) (0 : Fin 1) _ _ concatenates_S1_S1_S2_d0 _ rfl (ix1 (0 : Fin 1)) fun b => ?_
    match b with
    | ⟨0, _⟩ => rfl
  · refine (shapeCast_a_1a_apply _ shapeCasts_S2_S1x2 (0 : Fin 1) (1 : Fin 2)).trans ?_
    refine concatenate_pair_apply_right (t := S2) (s₁ := S1) (s₂ := S1) (0 : Fin 1) _ _ concatenates_S1_S1_S2_d0 _ rfl rfl (ix1 (0 : Fin 1)) (fun b hb => ?_) ?_
    · match b with
      | ⟨0, _⟩ => exact absurd rfl hb
    · rfl

/-! ## The same, at any column or row given by its position -/

theorem wHidden_left_of (a7 a9 : FVec Ideal S2x128x128 .f32) (i : Fin 128) (kk : Fin 256) (k : Fin 128) (h : kk.val = k.val) :
    wHidden a7 a9 (ix2 i kk) = a7 (ix3 (1 : Fin 2) i k) := by
  have hk : kk = (⟨k.val, Nat.lt_of_lt_of_le k.isLt (by decide)⟩ : Fin 256) := Fin.ext h
  rw [hk]
  exact wHidden_left a7 a9 i k
theorem wHidden_right_of (a7 a9 : FVec Ideal S2x128x128 .f32) (i : Fin 128) (kk : Fin 256) (k : Fin 128) (h : kk.val = 128 + k.val) :
    wHidden a7 a9 (ix2 i kk) = a9 (ix3 (1 : Fin 2) i k) := by
  have hk : kk = (⟨128 + k.val, Nat.add_lt_add_left k.isLt 128⟩ : Fin 256) := Fin.ext h
  rw [hk]
  exact wHidden_right a7 a9 i k
theorem bHidden_left_of (a8 a10 : FVec Ideal S2x128 .f32) (kk : Fin 256) (k : Fin 128) (h : kk.val = k.val) :
    bHidden a8 a10 (ix2 (0 : Fin 1) kk) = a8 (ix2 (1 : Fin 2) k) := by
  have hk : kk = (⟨k.val, Nat.lt_of_lt_of_le k.isLt (by decide)⟩ : Fin 256) := Fin.ext h
  rw [hk]
  exact bHidden_left a8 a10 k
theorem bHidden_right_of (a8 a10 : FVec Ideal S2x128 .f32) (kk : Fin 256) (k : Fin 128) (h : kk.val = 128 + k.val) :
    bHidden a8 a10 (ix2 (0 : Fin 1) kk) = a10 (ix2 (1 : Fin 2) k) := by
  have hk : kk = (⟨128 + k.val, Nat.add_lt_add_left k.isLt 128⟩ : Fin 256) := Fin.ext h
  rw [hk]
  exact bHidden_right a8 a10 k
theorem wOut_upper_of (a11 a13 : FVec Ideal S128x1 .f32) (kk : Fin 256) (k : Fin 128) (h : kk.val = k.val) :
    wOut a11 a13 (ix2 kk (0 : Fin 2)) = a11 (ix2 k (0 : Fin 1)) ∧ wOut a11 a13 (ix2 kk (1 : Fin 2)) = 0 := by
  have hk : kk = (⟨k.val, Nat.lt_of_lt_of_le k.isLt (by decide)⟩ : Fin 256) := Fin.ext h
  rw [hk]
  exact ⟨(wOut_upper a11 a13 k 0).trans (colZero_apply a11 k).1, (wOut_upper a11 a13 k 1).trans (colZero_apply a11 k).2⟩
theorem wOut_lower_of (a11 a13 : FVec Ideal S128x1 .f32) (kk : Fin 256) (k : Fin 128) (h : kk.val = 128 + k.val) :
    wOut a11 a13 (ix2 kk (0 : Fin 2)) = 0 ∧ wOut a11 a13 (ix2 kk (1 : Fin 2)) = a13 (ix2 k (0 : Fin 1)) := by
  have hk : kk = (⟨128 + k.val, Nat.add_lt_add_left k.isLt 128⟩ : Fin 256) := Fin.ext h
  rw [hk]
  exact ⟨(wOut_lower a11 a13 k 0).trans (zeroCol_apply a13 k).1, (wOut_lower a11 a13 k 1).trans (zeroCol_apply a13 k).2⟩

end Cert.KernelIdeal.Fold

end
-- ==== Proof.LibRealEdgeSums.lean ====
/-
  The two rearrangements behind a normalised graph convolution, over the extended reals.

  Nodes `v`, edges `e`; every edge has a source row `s e`; `In v` is the set of edges arriving at `v`, and `g e` names
  the arrival node again (`g e = v` for `e ∈ In v`). With a per-node weight `d`:

  * scaling the rows before summing over the arriving edges, scaling the sum by `d v` and THEN multiplying by a matrix
    `W` gives the same as multiplying each source row by `W` first and weighting each edge by `d (s e) * d (g e)`;
  * summing rows already weighted by `d (s e)` and scaling the sum by `d v` gives the same as weighting each edge by
    `d (s e) * d (g e)`.

  Both are distributivity and an exchange of two finite sums. On the extended reals distributivity fails at infinities,
  so the laws are stated for entries that are real numbers and proved in ℝ; the closure lemmas `IsReal.*` carry "is a
  real number" through sums, products and maxima.
-/
import Idealize.ShloMosaic.PureOps.Ideal.Laws
import Mathlib.Algebra.BigOperators.Group.Finset.Sigma
import Mathlib.Tactic.Ring

open scoped BigOperators

namespace Cert.GcnAlgebra

/-- An extended real that is a real number. -/
def IsReal (a : EReal) : Prop := ∃ r : ℝ, a = (r : EReal)

theorem IsReal.coe (r : ℝ) : IsReal (r : EReal) := ⟨r, rfl⟩
theorem IsReal.zero : IsReal (0 : EReal) := ⟨0, rfl⟩
theorem IsReal.add {a b : EReal} (ha : IsReal a) (hb : IsReal b) : IsReal (a + b) := by
  obtain ⟨r, rfl⟩ := ha; obtain ⟨t, rfl⟩ := hb; exact ⟨r + t, (EReal.coe_add r t).symm⟩
theorem IsReal.mul {a b : EReal} (ha : IsReal a) (hb : IsReal b) : IsReal (a * b) := by
  obtain ⟨r, rfl⟩ := ha; obtain ⟨t, rfl⟩ := hb; exact ⟨r * t, (EReal.coe_mul r t).symm⟩
theorem IsReal.max {a b : EReal} (ha : IsReal a) (hb : IsReal b) : IsReal (max a b) := by
  obtain ⟨r, rfl⟩ := ha; obtain ⟨t, rfl⟩ := hb; exact ⟨Max.max r t, (EReal.coe_strictMono.monotone.map_max).symm⟩

/-- The coercion of a finite real sum is the sum of the coercions. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem IsReal.sum {ι : Type*} (S : Finset ι) (f : ι → EReal) (h : ∀ i ∈ S, IsReal (f i)) : IsReal (∑ i ∈ S, f i) := by
  classical
  induction S using Finset.induction_on with
  | empty => simpa using IsReal.zero
  | insert a S ha ih =>
    rw [Finset.sum_insert ha]
    exact (h a (Finset.mem_insert_self a S)).add (ih fun i hi => h i (Finset.mem_insert_of_mem hi))

section Laws
variable {N E A B : ℕ} (s g : Fin E → Fin N) (In : Fin N → Finset (Fin E))
  (hg : ∀ v, ∀ e ∈ In v, g e = v) (d : Fin N → EReal) (hd : ∀ v, IsReal (d v))

include hg hd

/-- AGGREGATE THEN TRANSFORM is TRANSFORM THEN AGGREGATE: for real entries, the pre-scaled rows summed over the
    arriving edges, scaled by `d v` and multiplied by `W`, are the edge sum of the transformed source rows weighted by
    `d (s e) * d (g e)`. -/
theorem aggregate_then_transform (x : Fin N → Fin A → EReal) (hx : ∀ v f, IsReal (x v f))
    (W : Fin A → Fin B → EReal) (hW : ∀ f j, IsReal (W f j)) (v : Fin N) (j : Fin B) :
    ∑ f, ((∑ e ∈ In v, x (s e) f * d (s e)) * d v) * W f j
      = ∑ e ∈ In v, (∑ f, x (s e) f * W f j) * (d (s e) * d (g e)) := by
  choose xr hxr using hx
  choose Wr hWr using hW
  choose dr hdr using hd
  have hR : (∑ f, ((∑ e ∈ In v, xr (s e) f * dr (s e)) * dr v) * Wr f j : ℝ)
      = ∑ e ∈ In v, (∑ f, xr (s e) f * Wr f j) * (dr (s e) * dr v) := by
    simp only [Finset.sum_mul]
    rw [Finset.sum_comm]
    refine Finset.sum_congr rfl fun e _ => Finset.sum_congr rfl fun f _ => ?_
    ring
  have hL : ∑ f, ((∑ e ∈ In v, x (s e) f * d (s e)) * d v) * W f j
      = ((∑ f, ((∑ e ∈ In v, xr (s e) f * dr (s e)) * dr v) * Wr f j : ℝ) : EReal) := by
    simp only [hxr, hWr, hdr, coe_sum, EReal.coe_mul]
  have hRR : ∑ e ∈ In v, (∑ f, x (s e) f * W f j) * (d (s e) * d (g e))
      = ((∑ e ∈ In v, (∑ f, xr (s e) f * Wr f j) * (dr (s e) * dr v) : ℝ) : EReal) := by
    rw [coe_sum]
    refine Finset.sum_congr rfl fun e he => ?_
    rw [hg v e he]
    simp only [hxr, hWr, hdr, coe_sum, EReal.coe_mul]
  rw [hL, hRR, hR]

/-- SCALE AFTER THE SUM is WEIGHT EACH EDGE: for real entries, rows weighted by `d (s e)`, summed over the arriving
    edges and scaled by `d v`, are the edge sum weighted by `d (s e) * d (g e)`. -/
theorem scale_after_sum (T : Fin N → EReal) (hT : ∀ u, IsReal (T u)) (v : Fin N) :
    (∑ e ∈ In v, T (s e) * d (s e)) * d v = ∑ e ∈ In v, T (s e) * (d (s e) * d (g e)) := by
  choose Tr hTr using hT
  choose dr hdr using hd
  have hR : ((∑ e ∈ In v, Tr (s e) * dr (s e)) * dr v : ℝ) = ∑ e ∈ In v, Tr (s e) * (dr (s e) * dr v) := by
    rw [Finset.sum_mul]
    exact Finset.sum_congr rfl fun e _ => by ring
  have hL : (∑ e ∈ In v, T (s e) * d (s e)) * d v = (((∑ e ∈ In v, Tr (s e) * dr (s e)) * dr v : ℝ) : EReal) := by
    simp only [hTr, hdr, coe_sum, EReal.coe_mul]
  have hRR : ∑ e ∈ In v, T (s e) * (d (s e) * d (g e)) = ((∑ e ∈ In v, Tr (s e) * (dr (s e) * dr v) : ℝ) : EReal) := by
    rw [coe_sum]
    refine Finset.sum_congr rfl fun e he => ?_
    rw [hg v e he]
    simp only [hTr, hdr, EReal.coe_mul]
  rw [hL, hRR, hR]

end Laws

end Cert.GcnAlgebra
-- ==== Proof.SpecLaws.lean ====
/-
  Laws of the network's specification over the extended reals.

  When every entry of the features, the treatment, the encoder's weights and bias and the graph weights is a real
  number, every intermediate of the specification is a real number: the word of 1.0 is the real 1, a degree is a
  finite sum of ones, the inverse square root of a positive real is a real and the weight of a node without arrivals
  is zero, and sums, products and maxima of reals are reals. A non-negative index word below the node count picks the
  node it names. With these, scaling the sum over the arriving edges by the target's weight afterwards is the same as
  weighting each edge by the product of its source's and its target's weights: distributivity over a finite sum of
  reals, every arriving edge's target being the node itself.
-/
import proofs.«153021_j58909771432452_2_alg».proof.Proof.Spec
import proofs.«153021_j58909771432452_2_alg».proof.Proof.LibRealEdgeSums

open scoped BigOperators

noncomputable section

namespace Cert.Gcn

open Idealize.ShloMosaic Idealize.ShloMosaic.ValueIdx Cert.RowIndex Cert.GcnAlgebra

/-- The word of 1.0 denotes the real number one: sign 0, exponent field 127 (the bias), fraction 0. -/
theorem ofBits_one_f32 : Ideal.ofBits .f32 0x3F800000#32 = ((1 : ℝ) : EReal) := by
  unfold Ideal.ofBits Ideal.ieee
  have hex : (BitVec.extractLsb' 23 8 (0x3F800000#32)).toNat = 127 := by decide
  have hfr : (BitVec.extractLsb' 0 23 (0x3F800000#32)).toNat = 0 := by decide
  have hsg : (BitVec.extractLsb' (8 + 23) 1 (0x3F800000#32) == 1#1) = false := by decide
  simp only [hex, hfr, hsg]
  norm_num

theorem isReal_one : IsReal (Ideal.ofBits .f32 0x3F800000#32) := ⟨1, ofBits_one_f32⟩

/-- The inverse square root where positive, zero elsewhere, of a real number is a real number. -/
theorem isReal_dinvOf {d : EReal} (hd : IsReal d) : IsReal (dinvOf d) := by
  obtain ⟨r, rfl⟩ := hd
  unfold dinvOf Scalar.select Ideal.cmp
  by_cases h : (0 : ℝ) < r
  · have h0 : ((0 : EReal) < (r : EReal)) := by exact_mod_cast h
    simp only [h0, decide_true, BitVec.ofBool_true, if_true, Ideal.rsqrt_coe, not_lt.mpr h.le, if_false, h.ne']
    exact IsReal.coe _
  · have h0 : ¬ ((0 : EReal) < (r : EReal)) := by exact_mod_cast h
    simp only [h0, decide_false, BitVec.ofBool_false]
    rw [if_neg (by decide)]
    exact IsReal.zero

/-- A non-negative index word below the node count picks the node it names: it is not wrapped, and clamping a value
    in range is the identity. -/
theorem pickRow_of_toInt {b : BitVec 32} {v : Fin 100000} (h : b.toInt = (v.val : ℤ)) : pickRow b = v := by
  have hlt : b.slt 0#32 = false := by
    rw [BitVec.slt, decide_eq_false_iff_not, h]
    simp
  have hw : wrapIdx b = b := by
    unfold wrapIdx Scalar.select IntOp.cmpi
    simp only [hlt, BitVec.ofBool_false]
    rw [if_neg (by decide)]
  unfold pickRow clampRow
  rw [hw]
  refine Fin.ext ?_
  show min b.toInt.toNat (100000 - 1) = v.val
  rw [h]
  have := v.isLt
  simp only [Int.toNat_natCast]
  omega

section
variable (X : FVec Ideal ⟨2, ![100000, 128]⟩ .f32) (t : FVec Ideal ⟨1, ![100000]⟩ .f32)
  (E : IVec ⟨2, ![2, 1600000]⟩ 32)
  (Wp : FVec Ideal ⟨2, ![128, 64]⟩ .f32) (bp : FVec Ideal ⟨1, ![64]⟩ .f32)
  (Wg : FVec Ideal ⟨2, ![64, 64]⟩ .f32) (bg : FVec Ideal ⟨1, ![64]⟩ .f32)

/-- A degree is a finite sum of ones. -/
theorem isReal_deg (v : Fin 100000) : IsReal (deg E v) :=
  IsReal.sum _ _ fun _ _ => isReal_one

theorem isReal_dinv (v : Fin 100000) : IsReal (dinv E v) := isReal_dinvOf (isReal_deg E v)

/-- Every arriving edge's target word picks the node it arrives at. -/
theorem pickRow_target {v : Fin 100000} {e : Fin 1700000} (he : e ∈ inEdges E v) :
    pickRow (edgeWord E 1 e) = v :=
  pickRow_of_toInt (Finset.mem_filter.mp he).2

variable (hX : ∀ i, IsReal (X i)) (ht : ∀ i, IsReal (t i)) (hWp : ∀ i, IsReal (Wp i)) (hbp : ∀ i, IsReal (bp i))
  (hWg : ∀ i, IsReal (Wg i))

include hX hWp hbp in
theorem isReal_phi (n : Fin 100000) (j : Fin 64) : IsReal (phi X Wp bp n j) := by
  unfold phi
  exact (((IsReal.sum _ _ fun k _ => (hX _).mul (hWp _)).add (hbp _)).max IsReal.zero)

include hX ht hWp hbp hWg in
theorem isReal_hrow (n : Fin 100000) (j : Fin 64) : IsReal (hrow X t Wp bp Wg n j) := by
  unfold hrow
  exact IsReal.sum _ _ fun k _ => ((ht _).mul (isReal_phi X Wp bp hX hWp hbp n k)).mul (hWg _)

include hX ht hWp hbp hWg in
/-- THE LAW: scaling by the target's weight after the sum over the arriving edges is weighting each edge by the
    product of the two weights. -/
theorem repScaled_eq_rep (v : Fin 100000) (j : Fin 64) :
    repScaled X t E Wp bp Wg bg v j = rep X t E Wp bp Wg bg v j := by
  unfold repScaled rep
  exact congrArg (· + bg (ix1 j))
    (scale_after_sum (fun e => pickRow (edgeWord E 0 e)) (fun e => pickRow (edgeWord E 1 e)) (inEdges E)
      (fun _ _ he => pickRow_target E he) (dinv E) (isReal_dinv E)
      (fun u => hrow X t Wp bp Wg u j) (fun u => isReal_hrow X t Wp bp Wg hX ht hWp hbp hWg u j) v)

include hX ht hWp hbp hWg in
theorem repScaled_eq_rep_fun :
    (fun v j => repScaled X t E Wp bp Wg bg v j) = (fun v j => rep X t E Wp bp Wg bg v j) :=
  funext fun v => funext fun j => repScaled_eq_rep X t E Wp bp Wg bg hX ht hWp hbp hWg v j

end

end Cert.Gcn

end
-- ==== Proof.LibBlockSplit.lean ====
/-
  Splitting a finite sum over `Fin N` into `k` consecutive blocks of `m` terms each, `N = k * m`.

  `sum_blocks` proves: for `f : Fin N → M` in an additive commutative monoid and any family
  `row : Fin k → Fin m → Fin N` with `(row b r).val = m * b + r`,
  `∑ i, f i = ∑ b : Fin k, ∑ r : Fin m, f (row b r)`.
  `sum_blocks_two` and `sum_blocks_four` write the outer sum out for `k = 2` and `k = 4`.
  The sums over the blocks stay symbolic throughout: nothing is expanded into its terms.
-/
import Mathlib.Algebra.BigOperators.Fin
import Mathlib.Logic.Equiv.Fin.Basic

open scoped BigOperators

namespace Cert.Lib

/-- A sum over `Fin N`, `N = k * m`, is the sum over the `k` blocks of the sums over each block's `m` rows. -/
theorem sum_blocks {M : Type*} [AddCommMonoid M] (k m N : Nat) (hN : k * m = N) (f : Fin N → M)
    (row : Fin k → Fin m → Fin N) (hrow : ∀ b r, (row b r).val = m * b.val + r.val) :
    ∑ i, f i = ∑ b : Fin k, ∑ r : Fin m, f (row b r) := by
  subst hN
  rw [← Equiv.sum_comp (finProdFinEquiv (m := k) (n := m)) f, Fintype.sum_prod_type]
  refine Finset.sum_congr rfl fun b _ => Finset.sum_congr rfl fun r _ => congrArg f ?_
  apply Fin.ext
  rw [hrow]
  simp [finProdFinEquiv, Nat.add_comm]

/-- Two blocks. -/
theorem sum_blocks_two {M : Type*} [AddCommMonoid M] (m N : Nat) (hN : 2 * m = N) (f : Fin N → M)
    (row : Fin 2 → Fin m → Fin N) (hrow : ∀ b r, (row b r).val = m * b.val + r.val) :
    ∑ i, f i = (∑ r : Fin m, f (row 0 r)) + ∑ r : Fin m, f (row 1 r) := by
  rw [sum_blocks 2 m N hN f row hrow, Fin.sum_univ_two]

/-- Four blocks. -/
theorem sum_blocks_four {M : Type*} [AddCommMonoid M] (m N : Nat) (hN : 4 * m = N) (f : Fin N → M)
    (row : Fin 4 → Fin m → Fin N) (hrow : ∀ b r, (row b r).val = m * b.val + r.val) :
    ∑ i, f i = (∑ r : Fin m, f (row 0 r)) + (∑ r : Fin m, f (row 1 r))
      + (∑ r : Fin m, f (row 2 r)) + ∑ r : Fin m, f (row 3 r) := by
  rw [sum_blocks 4 m N hN f row hrow, Fin.sum_univ_four]

end Cert.Lib
-- ==== Proof.KernelAt.lean ====
/-
  The kernel's three results, entry by entry, are the specification's.

  The activation array is the specification's activation. The row table at row `u` is the transformed row of `u` times
  its degree weight; the accumulated messages at node `v` are the sum, over the edges arriving at `v`, of the table's
  row picked by the edge's source word; scaled by `v`'s degree weight and biased, that is the convolution with the
  source's weight inside the sum and the target's outside. The prediction array's column 0 sums, over the 256 hidden
  units, hidden unit times output weight: the upper 128 units carry the first head and meet its output column, the
  lower 128 meet zeros and contribute nothing (a product with zero is zero on the extended reals); column 1 the other
  way round. With every input entry a real number the convolution is the specification's (the target's weight moves
  inside the sum), so each prediction is the specification's head.
-/
import proofs.«153021_j58909771432452_2_alg».proof.Proof.FoldEnd
import proofs.«153021_j58909771432452_2_alg».proof.Proof.HostAt
import proofs.«153021_j58909771432452_2_alg».proof.Proof.ParamsAt
import proofs.«153021_j58909771432452_2_alg».proof.Proof.SpecLaws
import proofs.«153021_j58909771432452_2_alg».proof.Proof.LibRowGather
import proofs.«153021_j58909771432452_2_alg».proof.Proof.LibBlockSplit
import proofs.«153021_j58909771432452_2_alg».proof.Proof.LibColumnLayout

set_option maxRecDepth 16384

open scoped BigOperators

noncomputable section

namespace Cert.KernelIdeal.Fold

open Cert.KernelIdeal Cert.KernelIdeal.Gen Idealize.ShloMosaic Idealize.ShloMosaic.ValueIdx Cert.RowIndex
open Cert.KernelIdeal.Blocks Cert.KernelIdeal.Blocks1 Cert.GcnAlgebra

section
variable (X : FVec Ideal S100000x128 .f32) (t : FVec Ideal S100000 .f32) (E : IVec S2x1600000 32)
  (Wp : FVec Ideal S128x64 .f32) (bp : FVec Ideal S64 .f32) (Wg : FVec Ideal S64x64 .f32) (bg : FVec Ideal S64 .f32)

/-- The activation array is the specification's activation. -/
theorem act_at (n : Fin 100000) (j : Fin 64) :
    actArr X Wp (shapeCast S1x64 bp shapeCasts_S64_S1x64) (ix2 n j) = Cert.Gcn.phi X Wp bp n j := by
  unfold actArr Cert.Gcn.phi
  exact congrArg₂ max (congrArg₂ (· + ·) rfl (shapeCast_a_1a_apply bp shapeCasts_S64_S1x64 (0 : Fin 1) j)) rfl

/-- The row table at row `u`: the transformed row times the row's degree weight. -/
theorem tab_at (u : Fin 100000) (q : Fin 64) :
    tableArr X Wp (shapeCast S1x64 bp shapeCasts_S64_S1x64) (shapeCast S100000x1 t shapeCasts_S100000_S100000x1)
      (shapeCast S100000x1 (dinvArr E) shapeCasts_S100000_S100000x1) Wg (ix2 u q)
      = Cert.Gcn.hrow X t Wp bp Wg u q * Cert.Gcn.dinv E u := by
  unfold tableArr Cert.Gcn.hrow
  exact congrArg₂ (· * ·)
    (Finset.sum_congr rfl fun k _ => congrArg₂ (· * ·)
      (congrArg₂ (· * ·) (Cert.ColumnLayout.shapeCast_a_a1_apply t shapeCasts_S100000_S100000x1 u (0 : Fin 1)) (act_at X Wp bp u k)) rfl)
    ((Cert.ColumnLayout.shapeCast_a_a1_apply (dinvArr E) shapeCasts_S100000_S100000x1 u (0 : Fin 1)).trans (dinvArr_apply E u))

/-- The index a row pick reads for edge `e`: the source word wrapped. -/
theorem wrap_at (src : IVec S1700000 32) (e : Fin 1700000) :
    broadcastInDim S1700000x1 ![0] bcast_S1700000_S1700000x1_0
        (select (cmpi .slt src (broadcastInDim S1700000 ![] bcast_S_S1700000 (constantI S_ 32 0#32)))
          (addi src (broadcastInDim S1700000 ![] bcast_S_S1700000 (constantI S_ 32 100000#32))) src) (ix2 e (0 : Fin 1))
      = Cert.Gcn.wrapIdx (src (ix1 e)) := by
  rw [Cert.BroadcastInDim.column_apply, select_apply, Cert.OpsAt.cmpi_at, Cert.OpsAt.addi_at,
    Cert.BroadcastInDim.scalar_apply, Cert.BroadcastInDim.scalar_apply, constantI_apply, constantI_apply]
  rfl

/-- The accumulated messages at node `v`: the table's picked rows summed over the arriving edges. -/
theorem agg_at (tab : FVec Ideal S100000x64 .bf16) (v : Fin 100000) (q : Fin 64) :
    aggArr tab (srcArr E) (dstArr E) (ix2 v q)
      = ∑ e ∈ Cert.Gcn.inEdges E v, tab (ix2 (Cert.Gcn.pickRow (Cert.Gcn.edgeWord E 0 e)) q) := by
  unfold aggArr Cert.Gcn.inEdges
  refine (host_scatterAdd_rows_apply scatter_S100000x64_S1700000x1_S1700000x64_1_0_0_1.wf _ rfl _ _ _ v q).trans ?_
  rw [Cert.BroadcastInDim.scalar_apply, constant_apply, Ideal.ofBits_zero_f32, zero_add]
  refine Cert.OpsAt.sum_filter_congr _ _ _ _ (fun e => ?_) (fun e => ?_)
  · rw [Cert.BroadcastInDim.column_apply, dstArr_apply]
  · rw [extf_apply]
    refine (gather_rows_apply (by decide) gather_S100000x64_S1700000x1_S1700000x64_1_0_n_n_0_1_164.wf tab _ e q).trans ?_
    rw [wrap_at, srcArr_apply]
    rfl

/-- The joined row of node `n`: the activation beside the convolution with the target's weight outside the sum. -/
theorem joined_at (n : Fin 100000) (i : Fin 128) :
    joinedArr (actArr X Wp (shapeCast S1x64 bp shapeCasts_S64_S1x64))
        (aggArr (tableArr X Wp (shapeCast S1x64 bp shapeCasts_S64_S1x64) (shapeCast S100000x1 t shapeCasts_S100000_S100000x1)
          (shapeCast S100000x1 (dinvArr E) shapeCasts_S100000_S100000x1) Wg) (srcArr E) (dstArr E))
        (shapeCast S100000x1 (dinvArr E) shapeCasts_S100000_S100000x1) (shapeCast S1x64 bg shapeCasts_S64_S1x64) n i
      = Cert.Gcn.joinCols (Cert.Gcn.phi X Wp bp n) (Cert.Gcn.repScaled X t E Wp bp Wg bg n) i := by
  unfold joinedArr
  refine congrArg₂ (fun a b => Cert.Gcn.joinCols a b i) (funext fun q => act_at X Wp bp n q) (funext fun q => ?_)
  unfold Cert.Gcn.repScaled
  exact congrArg₂ (· + ·)
    (congrArg₂ (· * ·)
      ((agg_at E _ n q).trans (Finset.sum_congr rfl fun e _ => tab_at X t E Wp bp Wg _ q))
      ((Cert.ColumnLayout.shapeCast_a_a1_apply (dinvArr E) shapeCasts_S100000_S100000x1 n (0 : Fin 1)).trans (dinvArr_apply E n)))
    (shapeCast_a_1a_apply bg shapeCasts_S64_S1x64 (0 : Fin 1) q)

end

/-! ## The two prediction columns -/

/-- A hidden column's position among the 256: block `b`, place `r`. -/
def unitAt (b : Fin 2) (r : Fin 128) : Fin 256 := ⟨128 * b.val + r.val, by have := b.isLt; have := r.isLt; omega⟩

section
variable (B0 B1 : S100000x64.Idx → EReal) (B2 : S100000x1.Idx → EReal) (B3 : S1x64.Idx → EReal)
  (W00 W10 : FVec Ideal S2x128x128 .f32) (b00 b10 : FVec Ideal S2x128 .f32)
  (W01 W11 : FVec Ideal S128x1 .f32) (b01 b11 : FVec Ideal S1 .f32)

/-- Column 0 of the prediction array: the first head through the upper hidden block; the lower block meets zeros. -/
theorem heads_col0 (n : Fin 100000) :
    headsArr B0 B1 B2 B3 (wHidden W00 W10) (bHidden b00 b10) (wOut W01 W11) (bOut b01 b11) (ix2 n (0 : Fin 2))
      = ∑ k : Fin 128, max (∑ i : Fin 128, joinedArr B0 B1 B2 B3 n i * W00 (ix3 (1 : Fin 2) i k) + b00 (ix2 (1 : Fin 2) k)) 0
          * W01 (ix2 k (0 : Fin 1)) + b01 (ix1 (0 : Fin 1)) := by
  unfold headsArr
  refine congrArg₂ (· + ·) ?_ (bOut_apply b01 b11).1
  refine (Cert.Lib.sum_blocks_two 128 256 rfl _ unitAt (fun b r => rfl)).trans ?_
  have hlow : ∀ r : Fin 128,
      max (∑ i' : Fin 128, joinedArr B0 B1 B2 B3 n i' * wHidden W00 W10 (ix2 i' (unitAt 1 r)) + bHidden b00 b10 (ix2 (0 : Fin 1) (unitAt 1 r))) 0
        * wOut W01 W11 (ix2 (unitAt 1 r) (0 : Fin 2)) = 0 := fun r => by
    rw [(wOut_lower_of W01 W11 (unitAt 1 r) r rfl).1, mul_zero]
  rw [Finset.sum_congr rfl fun r _ => hlow r, Finset.sum_const_zero, add_zero]
  refine Finset.sum_congr rfl fun r _ => ?_
  rw [(wOut_upper_of W01 W11 (unitAt 0 r) r (by show 128 * 0 + r.val = r.val; omega)).1,
    bHidden_left_of b00 b10 (unitAt 0 r) r (by show 128 * 0 + r.val = r.val; omega)]
  refine congrArg (fun z => max (z + b00 (ix2 (1 : Fin 2) r)) 0 * W01 (ix2 r (0 : Fin 1))) (Finset.sum_congr rfl fun i' _ => ?_)
  rw [wHidden_left_of W00 W10 i' (unitAt 0 r) r (by show 128 * 0 + r.val = r.val; omega)]

/-- Column 1 of the prediction array: the second head through the lower hidden block; the upper block meets zeros. -/
theorem heads_col1 (n : Fin 100000) :
    headsArr B0 B1 B2 B3 (wHidden W00 W10) (bHidden b00 b10) (wOut W01 W11) (bOut b01 b11) (ix2 n (1 : Fin 2))
      = ∑ k : Fin 128, max (∑ i : Fin 128, joinedArr B0 B1 B2 B3 n i * W10 (ix3 (1 : Fin 2) i k) + b10 (ix2 (1 : Fin 2) k)) 0
          * W11 (ix2 k (0 : Fin 1)) + b11 (ix1 (0 : Fin 1)) := by
  unfold headsArr
  refine congrArg₂ (· + ·) ?_ (bOut_apply b01 b11).2
  refine (Cert.Lib.sum_blocks_two 128 256 rfl _ unitAt (fun b r => rfl)).trans ?_
  have hup : ∀ r : Fin 128,
      max (∑ i' : Fin 128, joinedArr B0 B1 B2 B3 n i' * wHidden W00 W10 (ix2 i' (unitAt 0 r)) + bHidden b00 b10 (ix2 (0 : Fin 1) (unitAt 0 r))) 0
        * wOut W01 W11 (ix2 (unitAt 0 r) (1 : Fin 2)) = 0 := fun r => by
    rw [(wOut_upper_of W01 W11 (unitAt 0 r) r (by show 128 * 0 + r.val = r.val; omega)).2, mul_zero]
  rw [Finset.sum_congr rfl fun r _ => hup r, Finset.sum_const_zero, zero_add]
  refine Finset.sum_congr rfl fun r _ => ?_
  rw [(wOut_lower_of W01 W11 (unitAt 1 r) r rfl).2, bHidden_right_of b00 b10 (unitAt 1 r) r rfl]
  refine congrArg (fun z => max (z + b10 (ix2 (1 : Fin 2) r)) 0 * W11 (ix2 r (0 : Fin 1))) (Finset.sum_congr rfl fun i' _ => ?_)
  rw [wHidden_right_of W00 W10 i' (unitAt 1 r) r rfl]

/-- A column of the prediction array cut out as a vector, at node `n`. -/
theorem column_cut (Y : S100000x2.Idx → EReal) (o : Fin 2) (hs : (S100000x2 : Shape).Slices ![0, o.val] S100000x1) (n : Fin 100000) :
    shapeCast S100000 (extractStridedSlice S100000x1 ![0, o.val] Y hs) shapeCasts_S100000x1_S100000 (ix1 n) = Y (ix2 n o) :=
  (Cert.ColumnLayout.shapeCast_a1_a_apply _ shapeCasts_S100000x1_S100000 n).trans
    (slice2_axis1_apply o.val Y hs n (0 : Fin 1) o (by simp))

end

/-! ## The results are the specification's -/

section
variable (X : FVec Ideal S100000x128 .f32) (t : FVec Ideal S100000 .f32) (E : IVec S2x1600000 32)
  (Wp : FVec Ideal S128x64 .f32) (bp : FVec Ideal S64 .f32) (Wg : FVec Ideal S64x64 .f32) (bg : FVec Ideal S64 .f32)
  (W00 W10 : FVec Ideal S2x128x128 .f32) (b00 b10 : FVec Ideal S2x128 .f32)
  (W01 W11 : FVec Ideal S128x1 .f32) (b01 b11 : FVec Ideal S1 .f32)
  (hX : ∀ i, IsReal (X i)) (ht : ∀ i, IsReal (t i)) (hWp : ∀ i, IsReal (Wp i)) (hbp : ∀ i, IsReal (bp i))
  (hWg : ∀ i, IsReal (Wg i))

/-- The prediction array the heads' grid leaves, from the argument arrays. -/
def predArr : S100000x2.Idx → EReal :=
  headsArr (actArr X Wp (shapeCast S1x64 bp shapeCasts_S64_S1x64))
    (aggArr (tableArr X Wp (shapeCast S1x64 bp shapeCasts_S64_S1x64) (shapeCast S100000x1 t shapeCasts_S100000_S100000x1)
      (shapeCast S100000x1 (dinvArr E) shapeCasts_S100000_S100000x1) Wg) (srcArr E) (dstArr E))
    (shapeCast S100000x1 (dinvArr E) shapeCasts_S100000_S100000x1) (shapeCast S1x64 bg shapeCasts_S64_S1x64)
    (wHidden W00 W10) (bHidden b00 b10) (wOut W01 W11) (bOut b01 b11)

include hX ht hWp hbp hWg in
/-- With real inputs the joined row is the specification's: the target's weight moves inside the sum. -/
theorem joined_spec (n : Fin 100000) (i : Fin 128) :
    joinedArr (actArr X Wp (shapeCast S1x64 bp shapeCasts_S64_S1x64))
        (aggArr (tableArr X Wp (shapeCast S1x64 bp shapeCasts_S64_S1x64) (shapeCast S100000x1 t shapeCasts_S100000_S100000x1)
          (shapeCast S100000x1 (dinvArr E) shapeCasts_S100000_S100000x1) Wg) (srcArr E) (dstArr E))
        (shapeCast S100000x1 (dinvArr E) shapeCasts_S100000_S100000x1) (shapeCast S1x64 bg shapeCasts_S64_S1x64) n i
      = Cert.Gcn.rowPost X t E Wp bp Wg bg n i := by
  refine (joined_at X t E Wp bp Wg bg n i).trans ?_
  unfold Cert.Gcn.rowPost
  rw [show Cert.Gcn.repScaled X t E Wp bp Wg bg n = Cert.Gcn.rep X t E Wp bp Wg bg n from
    funext fun j => Cert.Gcn.repScaled_eq_rep X t E Wp bp Wg bg hX ht hWp hbp hWg n j]

include hX ht hWp hbp hWg in
/-- Column 0 is the first head. -/
theorem pred_col0 (n : Fin 100000) :
    predArr X t E Wp bp Wg bg W00 W10 b00 b10 W01 W11 b01 b11 (ix2 n (0 : Fin 2))
      = Cert.Gcn.head X t E Wp bp Wg bg W00 b00 W01 b01 n := by
  unfold predArr
  refine (heads_col0 _ _ _ _ W00 W10 b00 b10 W01 W11 b01 b11 n).trans ?_
  unfold Cert.Gcn.head Cert.Gcn.hidden
  refine congrArg (· + b01 (ix1 (0 : Fin 1))) (Finset.sum_congr rfl fun k _ => ?_)
  refine congrArg (fun z => max (z + b00 (ix2 (1 : Fin 2) k)) 0 * W01 (ix2 k (0 : Fin 1))) (Finset.sum_congr rfl fun i _ => ?_)
  exact congrArg (· * W00 (ix3 (1 : Fin 2) i k)) (joined_spec X t E Wp bp Wg bg hX ht hWp hbp hWg n i)

include hX ht hWp hbp hWg in
/-- Column 1 is the second head. -/
theorem pred_col1 (n : Fin 100000) :
    predArr X t E Wp bp Wg bg W00 W10 b00 b10 W01 W11 b01 b11 (ix2 n (1 : Fin 2))
      = Cert.Gcn.head X t E Wp bp Wg bg W10 b10 W11 b11 n := by
  unfold predArr
  refine (heads_col1 _ _ _ _ W00 W10 b00 b10 W01 W11 b01 b11 n).trans ?_
  unfold Cert.Gcn.head Cert.Gcn.hidden
  refine congrArg (· + b11 (ix1 (0 : Fin 1))) (Finset.sum_congr rfl fun k _ => ?_)
  refine congrArg (fun z => max (z + b10 (ix2 (1 : Fin 2) k)) 0 * W11 (ix2 k (0 : Fin 1))) (Finset.sum_congr rfl fun i _ => ?_)
  exact congrArg (· * W10 (ix3 (1 : Fin 2) i k)) (joined_spec X t E Wp bp Wg bg hX ht hWp hbp hWg n i)

end

end Cert.KernelIdeal.Fold

end
-- ==== Proof.LibFiniteEntries.lean ====
/-
  "Every entry is finite", read back from its printed test, for an array of any shape.

  A finiteness precondition tests each entry by |a| < +∞ — the absolute value the host's max (a, -a), plus infinity the
  word 0x7F800000 repeated over the shape — and reduces the tests by `and` to one bit. When that bit is one every test is
  one; and on the extended reals |a| < +∞ says a is neither infinity, so a is a real number (`IsReal`).
-/
import proofs.«153021_j58909771432452_2_alg».proof.Proof.LibRealEdgeSums
import proofs.«153021_j58909771432452_2_alg».proof.Proof.LibBroadcastInDim
import Idealize.ShloMosaic.Lib.ReduceAll
import Idealize.ShloMosaic.Lib.ValueIdx
import Idealize.ShloMosaic.PureOps.Ideal.Laws

noncomputable section

namespace Cert.FiniteEntries

open Idealize.ShloMosaic Idealize.ShloMosaic.ValueIdx Cert.GcnAlgebra

/-- The word 0x7F800000 is plus infinity. -/
theorem inf_word : Ideal.ofBits .f32 0x7F800000#32 = ⊤ := by simp [Ideal.ofBits, Ideal.ieee]

/-- An extended real whose absolute value compares below plus infinity is a real number. -/
theorem isReal_of_lt_inf (x : EReal) (h : Ideal.cmp .olt (max x (-x)) (Ideal.ofBits .f32 0x7F800000#32) = 1#1) : IsReal x := by
  rw [inf_word] at h
  have hlt : max x (-x) < ⊤ := by
    by_contra hc
    have h0 : Ideal.cmp .olt (max x (-x)) ⊤ = 0#1 := by
      unfold Ideal.cmp
      simp [hc]
    rw [h0] at h
    exact absurd h (by decide)
  obtain ⟨h1, h2⟩ := max_lt_iff.mp hlt
  induction x using EReal.rec with
  | bot => exact absurd h2 (by simp)
  | top => exact absurd h1 (lt_irrefl _)
  | coe r => exact ⟨r, rfl⟩

instance : Subsingleton (⟨0, ![]⟩ : Shape).Idx := ⟨fun a b => funext fun d => d.elim0⟩

/-- One argument: when the all-reduction of its "absolute value below plus infinity" tests is one, every entry is real. -/
theorem all_real {S : Shape} (a : FVec Ideal S .f32) (hb : (⟨0, ![]⟩ : Shape).BroadcastsInDim S ![])
    {axes : List (Fin S.rank)} (hr : S.ReducesTo axes ⟨0, ![]⟩) (hu : 0 < (⟨0, ![]⟩ : Shape).numel)
    (h : Host.reduce IntOp.andi
        (cmpf .olt (Host.absf a) (broadcastInDim S ![] hb (constant (F := Ideal) ⟨0, ![]⟩ .f32 0x7F800000#32)))
        (constantI ⟨0, ![]⟩ 1 1#1) hr hu ix0 = 1#1) (i : S.Idx) : IsReal (a i) := by
  have hi := Host.reduce_andi_all _ _ hr hu ix0 h i
  have hB : broadcastInDim S ![] hb (constant (F := Ideal) ⟨0, ![]⟩ .f32 0x7F800000#32) i
      = Ideal.ofBits .f32 0x7F800000#32 := Cert.BroadcastInDim.scalar_apply _ hb i
  have hi' : Ideal.cmp .olt (max (a i) (-(a i)))
      (broadcastInDim S ![] hb (constant (F := Ideal) ⟨0, ![]⟩ .f32 0x7F800000#32) i) = 1#1 := hi
  rw [hB] at hi'
  exact isReal_of_lt_inf _ hi'

end Cert.FiniteEntries

end
-- ==== Proof.FiniteArgs.lean ====
/-
  The finiteness precondition read back: every entry of every float argument is a real number.

  The precondition is the conjunction, by `and` on one-bit words, of fourteen tests, one per float argument: the
  all-reduction of "the entry's absolute value is below plus infinity". When the conjunction is one, each test is one,
  and a test that is one says every entry of its argument is a real number. The integer argument (the edge list) has
  no test and no conclusion.
-/
import proofs.«153021_j58909771432452_2_alg».proof.Pre_finite_inputs
import proofs.«153021_j58909771432452_2_alg».proof.Proof.LibFiniteEntries
import Idealize.ShloMosaic.Lib.ReduceAll

noncomputable section

namespace Cert.FiniteArgs

open Idealize.ShloMosaic Idealize.ShloMosaic.ValueIdx Cert.GcnAlgebra Cert.Pre_finite_inputs Cert.FiniteEntries

/-- A conjunction of two one-bit scalars that is one has both conjuncts one. -/
theorem and_ix0 {x y : IVec S_ 1} (h : andi x y ix0 = 1#1) : x ix0 = 1#1 ∧ y ix0 = 1#1 :=
  IntOp.andi_eq_one.1 h

variable [Facts]

/-- When the precondition holds, every entry of each of the fourteen float arguments is a real number. -/
theorem args_real (a0 : FVec Ideal S100000x128 .f32) (a1 : FVec Ideal S100000 .f32) (a2 : IVec S2x1600000 32)
    (a3 : FVec Ideal S128x64 .f32) (a4 : FVec Ideal S64 .f32) (a5 : FVec Ideal S64x64 .f32)
    (a6 : FVec Ideal S64 .f32) (a7 : FVec Ideal S2x128x128 .f32) (a8 : FVec Ideal S2x128 .f32)
    (a9 : FVec Ideal S2x128x128 .f32) (a10 : FVec Ideal S2x128 .f32) (a11 : FVec Ideal S128x1 .f32)
    (a12 : FVec Ideal S1 .f32) (a13 : FVec Ideal S128x1 .f32) (a14 : FVec Ideal S1 .f32)
    (h : fn (F := Ideal) a0 a1 a2 a3 a4 a5 a6 a7 a8 a9 a10 a11 a12 a13 a14 = fun _ => 1#1) :
    (∀ i, IsReal (a0 i)) ∧ (∀ i, IsReal (a1 i)) ∧ (∀ i, IsReal (a3 i)) ∧ (∀ i, IsReal (a4 i)) ∧
    (∀ i, IsReal (a5 i)) ∧ (∀ i, IsReal (a6 i)) ∧ (∀ i, IsReal (a7 i)) ∧ (∀ i, IsReal (a8 i)) ∧
    (∀ i, IsReal (a9 i)) ∧ (∀ i, IsReal (a10 i)) ∧ (∀ i, IsReal (a11 i)) ∧ (∀ i, IsReal (a12 i)) ∧
    (∀ i, IsReal (a13 i)) ∧ (∀ i, IsReal (a14 i)) := by
  have h0 := congrFun h ix0
  dsimp only [fn, fn_part1, fn_part2, fn_part3, fn_part4] at h0
  obtain ⟨h0, h14⟩ := and_ix0 h0
  obtain ⟨h0, h13⟩ := and_ix0 h0
  obtain ⟨h0, h12⟩ := and_ix0 h0
  obtain ⟨h0, h11⟩ := and_ix0 h0
  obtain ⟨h0, h10⟩ := and_ix0 h0
  obtain ⟨h0, h9⟩ := and_ix0 h0
  obtain ⟨h0, h8⟩ := and_ix0 h0
  obtain ⟨h0, h7⟩ := and_ix0 h0
  obtain ⟨h0, h6⟩ := and_ix0 h0
  obtain ⟨h0, h5⟩ := and_ix0 h0
  obtain ⟨h0, h4⟩ := and_ix0 h0
  obtain ⟨h0, h3⟩ := and_ix0 h0
  obtain ⟨h0, h1⟩ := and_ix0 h0
  exact ⟨all_real a0 _ _ _ h0, all_real a1 _ _ _ h1, all_real a3 _ _ _ h3, all_real a4 _ _ _ h4,
    all_real a5 _ _ _ h5, all_real a6 _ _ _ h6, all_real a7 _ _ _ h7, all_real a8 _ _ _ h8,
    all_real a9 _ _ _ h9, all_real a10 _ _ _ h10, all_real a11 _ _ _ h11, all_real a12 _ _ _ h12,
    all_real a13 _ _ _ h13, all_real a14 _ _ _ h14⟩

end Cert.FiniteArgs

end
-- ==== Proof.KernelValue.lean ====
/-
  The idealized kernel's three results are the specification's functions of the argument arrays.

  The precondition makes every entry of every float argument a real number; with that, the two prediction vectors the
  program returns are the specification's two heads and the returned activation is the specification's activation.
-/
import proofs.«153021_j58909771432452_2_alg».proof.Proof.KernelAt
import proofs.«153021_j58909771432452_2_alg».proof.Proof.FiniteArgs

set_option maxRecDepth 16384

noncomputable section

namespace Cert.KernelIdeal.Fold

open Cert.KernelIdeal Cert.KernelIdeal.Gen Idealize.ShloMosaic Idealize.ShloMosaic.TcCoe Idealize.SL.Sem
open Idealize.ShloMosaic.ValueIdx Cert.GcnAlgebra

variable (m : (ℓ : Loc nD τ sig) → Buf (Elt Ideal) ℓ) (ρ : Dev nD → PrngReg)

/-- The prediction array at the heads' exit is `predArr` of the argument arrays. -/
theorem headsOf_eq (c : Dev nD) :
    headsOf m c = predArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg9)) (m ((c : Thread nD τ).loc main_arg8)) (m ((c : Thread nD τ).loc main_arg10)) (m ((c : Thread nD τ).loc main_arg11)) (m ((c : Thread nD τ).loc main_arg13)) (m ((c : Thread nD τ).loc main_arg12)) (m ((c : Thread nD τ).loc main_arg14)) := rfl

section
variable (c : Dev nD)
  (hX : ∀ i, IsReal ((m ((c : Thread nD τ).loc main_arg0)) i)) (ht : ∀ i, IsReal ((m ((c : Thread nD τ).loc main_arg1)) i)) (hWp : ∀ i, IsReal ((m ((c : Thread nD τ).loc main_arg3)) i))
  (hbp : ∀ i, IsReal ((m ((c : Thread nD τ).loc main_arg4)) i)) (hWg : ∀ i, IsReal ((m ((c : Thread nD τ).loc main_arg5)) i))

include hX ht hWp hbp hWg in
/-- The first returned vector is the second head. -/
theorem value_y1 : (W7 (F := Ideal) m ρ c (Proc.devRef .tc main_v54) : S100000.Idx → EReal)
    = fun i => Cert.Gcn.head (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
        (m ((c : Thread nD τ).loc main_arg9)) (m ((c : Thread nD τ).loc main_arg10)) (m ((c : Thread nD τ).loc main_arg13)) (m ((c : Thread nD τ).loc main_arg14)) (i 0) := by
  rw [W7_y1 m ρ c]
  funext i
  obtain ⟨n, rfl⟩ : ∃ n : Fin 100000, i = ix1 n := ⟨i 0, eq_ix1 i⟩
  refine (column_cut (headsOf m c) (1 : Fin 2) slices_S100000x2_S100000x1_0_1 n).trans ?_
  rw [headsOf_eq]
  exact pred_col1 _ _ _ _ _ _ _ _ _ _ _ _ _ _ _ hX ht hWp hbp hWg n

include hX ht hWp hbp hWg in
/-- The second returned vector is the first head. -/
theorem value_y0 : (W7 (F := Ideal) m ρ c (Proc.devRef .tc main_v52) : S100000.Idx → EReal)
    = fun i => Cert.Gcn.head (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg11)) (m ((c : Thread nD τ).loc main_arg12)) (i 0) := by
  rw [W7_y0 m ρ c]
  funext i
  obtain ⟨n, rfl⟩ : ∃ n : Fin 100000, i = ix1 n := ⟨i 0, eq_ix1 i⟩
  refine (column_cut (headsOf m c) (0 : Fin 2) slices_S100000x2_S100000x1_0_0 n).trans ?_
  rw [headsOf_eq]
  exact pred_col0 _ _ _ _ _ _ _ _ _ _ _ _ _ _ _ hX ht hWp hbp hWg n

end

/-- The returned activation is the specification's (no finiteness needed). -/
theorem value_act (c : Dev nD) : (W7 (F := Ideal) m ρ c (Proc.devRef .tc main_v18_0) : S100000x64.Idx → EReal)
    = fun i => Cert.Gcn.phi (m ((c : Thread nD τ).loc main_arg0)) (m ((c : Thread nD τ).loc main_arg3)) (m ((c : Thread nD τ).loc main_arg4)) (i 0) (i 1) := by
  rw [W7_act m ρ c]
  funext i
  obtain ⟨n, j, rfl⟩ : ∃ (n : Fin 100000) (j : Fin 64), i = ix2 n j := ⟨i 0, i 1, eq_ix2 i⟩
  exact act_at _ _ _ n j

end Cert.KernelIdeal.Fold

end
-- ==== Proof.RefAt.lean ====
/-
  The reference network read entry by entry over the extended reals.

  Each stage of the reference's straight-line program is read at explicit coordinates and identified with the
  corresponding function of the network's specification: the encoder's activation, the treated activation times the
  graph weights, the extended edge list (the given edges followed by one loop per node), the arrival counts and their
  inverse square roots, the normalised convolution with its bias, the joined row, one hidden layer and one output
  column per head. Only the second slice of each stacked weight reaches a result.
-/
import proofs.«153021_j58909771432452_2_alg».proof.Proof.RefReadP
import proofs.«153021_j58909771432452_2_alg».proof.Proof.Spec
import proofs.«153021_j58909771432452_2_alg».proof.Proof.LibRowGather
import proofs.«153021_j58909771432452_2_alg».proof.Proof.LibRowScatter
import Idealize.ShloMosaic.Lib.ValueIdx
import Idealize.ShloMosaic.Lib.Pipeline.Value
import Idealize.ShloMosaic.Lib.ValueLayout
import Idealize.ShloMosaic.PureOps.Ideal.Laws

open scoped BigOperators

noncomputable section

namespace Cert.ReferenceIdeal.RefAt

open Cert.ReferenceIdeal Cert.ReferenceIdeal.Gen Cert.ReferenceIdeal.ReadP Idealize.ShloMosaic
  Idealize.ShloMosaic.ValueIdx Cert.Gcn Cert.RowIndex

variable (X : FVec Ideal S100000x128 .f32) (t : FVec Ideal S100000 .f32) (E : IVec S2x1600000 32)
  (Wp : FVec Ideal S128x64 .f32) (bp : FVec Ideal S64 .f32)
  (Wg : FVec Ideal S64x64 .f32) (bg : FVec Ideal S64 .f32)

/-! ## The joins, picks and accumulations of the reference, read at an index -/

section Tools
variable {α : Type}

/-- The given edge words followed by one word per node, at position `e`: below the first extent the first array,
    from it on the second at the position less that extent. -/
theorem join_flat_at (x₁ : S1600000.Idx → α) (x₂ : S100000.Idx → α)
    (h : Shape.Concatenates [S1600000, S100000] S1700000 0) (e : Fin 1700000) :
    concatenate S1700000 0 [⟨S1600000, x₁⟩, ⟨S100000, x₂⟩] h (ix1 e)
      = if h' : e.val < 1600000 then x₁ (ix1 (⟨e.val, h'⟩ : Fin 1600000))
        else x₂ (ix1 (⟨e.val - 1600000, by have := e.isLt; omega⟩ : Fin 100000)) := by
  split
  · next h' =>
    exact concatenate_pair_apply_left 0 x₁ x₂ h (ix1 e) rfl (ix1 (⟨e.val, h'⟩ : Fin 1600000))
      (fun b => by match b with | ⟨0, _⟩ => rfl)
  · next h' =>
    exact concatenate_pair_apply_right 0 x₁ x₂ h (ix1 e) rfl rfl (ix1 (⟨e.val - 1600000, by have := e.isLt; omega⟩ : Fin 100000))
      (fun b hb => absurd (Subsingleton.elim _ _) hb)
      (by show e.val - 1600000 + 1600000 = e.val; omega)

/-- Two 64-wide blocks side by side, at `(n, i)`: the first block below column 64, the second from it on. -/
theorem join_cols_at (x₁ x₂ : S100000x64.Idx → α)
    (h : Shape.Concatenates [S100000x64, S100000x64] S100000x128 1) (n : Fin 100000) (i : Fin 128) :
    concatenate S100000x128 1 [⟨S100000x64, x₁⟩, ⟨S100000x64, x₂⟩] h (ix2 n i)
      = if h' : i.val < 64 then x₁ (ix2 n (⟨i.val, h'⟩ : Fin 64))
        else x₂ (ix2 n (⟨i.val - 64, by have := i.isLt; omega⟩ : Fin 64)) := by
  split
  · next h' =>
    exact concatenate_pair_apply_left 1 x₁ x₂ h (ix2 n i) rfl (ix2 n (⟨i.val, h'⟩ : Fin 64))
      (fun b => by match b with | ⟨0, _⟩ => rfl | ⟨1, _⟩ => rfl)
  · next h' =>
    exact concatenate_pair_apply_right 1 x₁ x₂ h (ix2 n i) rfl rfl (ix2 n (⟨i.val - 64, by have := i.isLt; omega⟩ : Fin 64))
      (fun b hb => by
        match b with
        | ⟨0, _⟩ => rfl
        | ⟨1, _⟩ => exact absurd rfl hb)
      (by show i.val - 64 + 64 = i.val; omega)

/-- An entry of a per-node array picked through an index column: the entry at the clamped signed word. -/
theorem pick_flat_at (x : S100000.Idx → α) (idx : IVec S1700000x1 32) (e : Fin 1700000) :
    Host.gather gather_S100000_S1700000x1_S1700000_n_0_n_n_0_1_1 x idx (ix1 e)
      = x (ix1 (clampRow 100000 (by decide) (idx (ix2 e (0 : Fin 1))))) :=
  gather_flat_apply (by decide) gather_S100000_S1700000x1_S1700000_n_0_n_n_0_1_1_wf x idx e

/-- A row of a per-node table picked through an index column: the row at the clamped signed word. -/
theorem pick_rows_at (x : S100000x64.Idx → α) (idx : IVec S1700000x1 32) (e : Fin 1700000) (j : Fin 64) :
    Host.gather gather_S100000x64_S1700000x1_S1700000x64_1_0_n_n_0_1_164 x idx (ix2 e j)
      = x (ix2 (clampRow 100000 (by decide) (idx (ix2 e (0 : Fin 1)))) j) :=
  gather_rows_apply (by decide) gather_S100000x64_S1700000x1_S1700000x64_1_0_n_n_0_1_164_wf x idx e j

/-- Per-edge numbers accumulated at the node their index word names. -/
theorem accumulate_flat_at (x : FVec Ideal S100000 .f32) (idx : IVec S1700000x1 32) (upd : FVec Ideal S1700000 .f32)
    (v : Fin 100000) :
    Host.scatterAdd scatter_S100000_S1700000x1_S1700000_n_0_0_1 x idx upd (ix1 v)
      = (x (ix1 v) : EReal) + ∑ e ∈ Finset.univ.filter
          (fun e : Fin 1700000 => (idx (ix2 e (0 : Fin 1))).toInt = (v.val : ℤ)), (upd (ix1 e) : EReal) :=
  host_scatterAdd_flat_apply scatter_S100000_S1700000x1_S1700000_n_0_0_1_wf _ rfl x idx upd v

/-- Per-edge rows accumulated at the node their index word names. -/
theorem accumulate_rows_at (x : FVec Ideal S100000x64 .f32) (idx : IVec S1700000x1 32)
    (upd : FVec Ideal S1700000x64 .f32) (v : Fin 100000) (j : Fin 64) :
    Host.scatterAdd scatter_S100000x64_S1700000x1_S1700000x64_1_0_0_1 x idx upd (ix2 v j)
      = (x (ix2 v j) : EReal) + ∑ e ∈ Finset.univ.filter
          (fun e : Fin 1700000 => (idx (ix2 e (0 : Fin 1))).toInt = (v.val : ℤ)), (upd (ix2 e j) : EReal) :=
  host_scatterAdd_rows_apply scatter_S100000x64_S1700000x1_S1700000x64_1_0_0_1_wf _ rfl x idx upd v j

end Tools

/-! ## The encoder's activation -/

/-- The encoder's activation at `(n, j)`. -/
theorem phi_at (n : Fin 100000) (j : Fin 64) :
    val_main_v4 (F := Ideal) X Wp bp (ix2 n j) = phi X Wp bp n j := by
  have e1 : ∀ k : Fin 128, lidx_main_v0 (ix2 n j) k = ix2 n k := fun k =>
    funext fun a => by match a with | ⟨0, _⟩ => rfl | ⟨1, _⟩ => rfl
  have e2 : ∀ k : Fin 128, ridx_main_v0 (ix2 n j) k = ix2 k j := fun k =>
    funext fun a => by match a with | ⟨0, _⟩ => rfl | ⟨1, _⟩ => rfl
  have e3 : idx_main_v1 (idx_main_v2 (ix2 n j)) = ix1 j :=
    funext fun a => by match a with | ⟨0, _⟩ => rfl
  rw [val_main_v4_apply, val_main_v3_apply, val_main_v0_apply, val_main_v2_apply, val_main_v1_apply,
    val_main_call0_v0_apply, val_main_call0_cst_apply]
  simp only [e1, e2, e3, Ideal.maximumf_def, Ideal.addf_def, Ideal.ofBits_def, Ideal.ofBits_zero_f32]
  rfl

/-! ## The treated activation times the graph weights -/

/-- The treated activation at `(n, k)`. -/
theorem treated_at (n : Fin 100000) (k : Fin 64) :
    val_main_v7 (F := Ideal) X t Wp bp (ix2 n k) = t (ix1 n) * phi X Wp bp n k := by
  have e1 : idx_main_v5 (idx_main_v6 (ix2 n k)) = ix1 n :=
    funext fun a => by match a with | ⟨0, _⟩ => rfl
  rw [val_main_v7_apply, val_main_v6_apply, val_main_v5_apply, e1, phi_at]
  rfl

/-- The treated activation times the graph weights at `(n, j)`. -/
theorem hrow_at (n : Fin 100000) (j : Fin 64) :
    val_main_v8 (F := Ideal) X t Wp bp Wg (ix2 n j) = hrow X t Wp bp Wg n j := by
  have e1 : ∀ k : Fin 64, lidx_main_v8 (ix2 n j) k = ix2 n k := fun k =>
    funext fun a => by match a with | ⟨0, _⟩ => rfl | ⟨1, _⟩ => rfl
  have e2 : ∀ k : Fin 64, ridx_main_v8 (ix2 n j) k = ix2 k j := fun k =>
    funext fun a => by match a with | ⟨0, _⟩ => rfl | ⟨1, _⟩ => rfl
  rw [val_main_v8_apply]
  simp only [e1, e2, treated_at]
  rfl

/-! ## The extended edge list -/

/-- The source words: row 0 of the given edges, then one loop per node. -/
theorem src_word_at (e : Fin 1700000) : val_main_v12 (F := Ideal) E (ix1 e) = edgeWord E 0 e := by
  unfold val_main_v12 edgeWord
  rw [join_flat_at]
  by_cases h : e.val < 1600000
  · have e1 : idx_main_v10 (idx_main_v11 (ix1 (⟨e.val, h⟩ : Fin 1600000)))
        = ix2 (0 : Fin 2) (⟨e.val, h⟩ : Fin 1600000) :=
      funext fun a => by
        match a with
        | ⟨0, _⟩ => rfl
        | ⟨1, _⟩ => exact Fin.ext (Nat.mod_eq_of_lt h)
    rw [dif_pos h, dif_pos h, val_main_v11_apply, val_main_v10_apply, e1]
  · rw [dif_neg h, dif_neg h]
    rfl

/-- The target words: row 1 of the given edges, then one loop per node. -/
theorem dst_word_at (e : Fin 1700000) : val_main_v15 (F := Ideal) E (ix1 e) = edgeWord E 1 e := by
  unfold val_main_v15 edgeWord
  rw [join_flat_at]
  by_cases h : e.val < 1600000
  · have e1 : idx_main_v13 (idx_main_v14 (ix1 (⟨e.val, h⟩ : Fin 1600000)))
        = ix2 (1 : Fin 2) (⟨e.val, h⟩ : Fin 1600000) :=
      funext fun a => by
        match a with
        | ⟨0, _⟩ => rfl
        | ⟨1, _⟩ => exact Fin.ext (Nat.mod_eq_of_lt h)
    rw [dif_pos h, dif_pos h, val_main_v14_apply, val_main_v13_apply, e1]
  · rw [dif_neg h, dif_neg h]
    rfl

/-- The source word with a negative value wrapped (as the picks of the inverse square roots see it). -/
theorem src_wrapped_at (e : Fin 1700000) : val_main_v28 (F := Ideal) E (ix1 e) = wrapIdx (edgeWord E 0 e) := by
  rw [val_main_v28_apply, val_main_v25_apply, val_main_v27_apply, val_main_v24_apply, val_main_v26_apply,
    val_main_c_apply, val_main_c_3_apply, src_word_at]
  rfl

/-- The target word with a negative value wrapped. -/
theorem dst_wrapped_at (e : Fin 1700000) : val_main_v35 (F := Ideal) E (ix1 e) = wrapIdx (edgeWord E 1 e) := by
  rw [val_main_v35_apply, val_main_v32_apply, val_main_v34_apply, val_main_v31_apply, val_main_v33_apply,
    val_main_c_4_apply, val_main_c_5_apply, dst_word_at]
  rfl

/-- The source word wrapped once more (as the pick of the rows sees it). -/
theorem src_wrapped_rows_at (e : Fin 1700000) : val_main_v43 (F := Ideal) E (ix1 e) = wrapIdx (edgeWord E 0 e) := by
  rw [val_main_v43_apply, val_main_v40_apply, val_main_v42_apply, val_main_v39_apply, val_main_v41_apply,
    val_main_c_6_apply, val_main_c_7_apply, src_word_at]
  rfl

/-! ## Arrival counts and their inverse square roots -/

/-- The number of arrivals at `v`. -/
theorem deg_at (v : Fin 100000) : val_main_v19 (F := Ideal) E (ix1 v) = deg E v := by
  have e0 : ∀ e : Fin 1700000, val_main_v18 (F := Ideal) E (ix2 e (0 : Fin 1)) = edgeWord E 1 e := fun e => by
    have e1 : idx_main_v18 (ix2 e (0 : Fin 1)) = ix1 e := funext fun a => by match a with | ⟨0, _⟩ => rfl
    rw [val_main_v18_apply, e1, dst_word_at]
  have e2 : ∀ e : Fin 1700000, val_main_v16 (F := Ideal) (ix1 e) = Ideal.ofBits .f32 0x3F800000#32 := fun e => by
    rw [val_main_v16_apply, val_main_cst_apply]
    rfl
  have e3 : val_main_v17 (F := Ideal) (ix1 v) = 0 := by
    rw [val_main_v17_apply, val_main_cst_0_apply]
    exact Ideal.ofBits_zero_f32
  unfold val_main_v19
  rw [accumulate_flat_at]
  simp only [e0, e2, e3, zero_add]
  rfl

/-- The inverse square root of the arrival count at `v`, zero where nothing arrives. -/
theorem dinv_at (v : Fin 100000) : val_main_v23 (F := Ideal) E (ix1 v) = dinv E v := by
  have e1 : val_main_v20 (F := Ideal) (ix1 v) = 0 := by
    rw [val_main_v20_apply, val_main_cst_1_apply]
    exact Ideal.ofBits_zero_f32
  have e2 : val_main_call1_v1 (F := Ideal) (ix1 v) = 0 := by
    rw [val_main_call1_v1_apply, val_main_call1_v0_apply, val_main_cst_2_apply]
    exact Ideal.ofBits_zero_f32
  rw [val_main_v23_apply, val_main_v21_apply, val_main_v22_apply, deg_at, e1, e2]
  unfold dinv dinvOf
  simp only [Ideal.cmpf_def, Ideal.hostUnary_rsqrt_def]

/-- The source's inverse square root, per edge. -/
theorem src_dinv_at (e : Fin 1700000) :
    val_main_v30 (F := Ideal) E (ix1 e) = dinv E (pickRow (edgeWord E 0 e)) := by
  have e1 : idx_main_v29 (ix2 e (0 : Fin 1)) = ix1 e := funext fun a => by match a with | ⟨0, _⟩ => rfl
  unfold val_main_v30
  rw [pick_flat_at, val_main_v29_apply, e1, src_wrapped_at, dinv_at]
  rfl

/-- The target's inverse square root, per edge. -/
theorem dst_dinv_at (e : Fin 1700000) :
    val_main_v37 (F := Ideal) E (ix1 e) = dinv E (pickRow (edgeWord E 1 e)) := by
  have e1 : idx_main_v36 (ix2 e (0 : Fin 1)) = ix1 e := funext fun a => by match a with | ⟨0, _⟩ => rfl
  unfold val_main_v37
  rw [pick_flat_at, val_main_v36_apply, e1, dst_wrapped_at, dinv_at]
  rfl

/-- The edge's weight. -/
theorem weight_at (e : Fin 1700000) :
    val_main_v38 (F := Ideal) E (ix1 e)
      = dinv E (pickRow (edgeWord E 0 e)) * dinv E (pickRow (edgeWord E 1 e)) := by
  rw [val_main_v38_apply, src_dinv_at, dst_dinv_at]
  rfl

/-! ## The normalised convolution -/

/-- The source's row, per edge. -/
theorem src_row_at (e : Fin 1700000) (j : Fin 64) :
    val_main_v45 (F := Ideal) X t E Wp bp Wg (ix2 e j) = hrow X t Wp bp Wg (pickRow (edgeWord E 0 e)) j := by
  have e1 : idx_main_v44 (ix2 e (0 : Fin 1)) = ix1 e := funext fun a => by match a with | ⟨0, _⟩ => rfl
  unfold val_main_v45
  rw [pick_rows_at, val_main_v44_apply, e1, src_wrapped_rows_at, hrow_at]
  rfl

/-- The weighted row an edge carries. -/
theorem message_at (e : Fin 1700000) (j : Fin 64) :
    val_main_v48 (F := Ideal) X t E Wp bp Wg (ix2 e j)
      = hrow X t Wp bp Wg (pickRow (edgeWord E 0 e)) j
        * (dinv E (pickRow (edgeWord E 0 e)) * dinv E (pickRow (edgeWord E 1 e))) := by
  have e1 : idx_main_v46 (idx_main_v47 (ix2 e j)) = ix1 e := funext fun a => by match a with | ⟨0, _⟩ => rfl
  rw [val_main_v48_apply, src_row_at, val_main_v47_apply, val_main_v46_apply, e1, weight_at]
  rfl

/-- The convolution with its bias at `(v, j)`. -/
theorem rep_at (v : Fin 100000) (j : Fin 64) :
    val_main_v54 (F := Ideal) X t E Wp bp Wg bg (ix2 v j) = rep X t E Wp bp Wg bg v j := by
  have e0 : ∀ e : Fin 1700000, val_main_v50 (F := Ideal) E (ix2 e (0 : Fin 1)) = edgeWord E 1 e := fun e => by
    have e1 : idx_main_v50 (ix2 e (0 : Fin 1)) = ix1 e := funext fun a => by match a with | ⟨0, _⟩ => rfl
    rw [val_main_v50_apply, e1, dst_word_at]
  have e3 : val_main_v49 (F := Ideal) (ix2 v j) = 0 := by
    rw [val_main_v49_apply, val_main_cst_8_apply]
    exact Ideal.ofBits_zero_f32
  have e4 : idx_main_v52 (idx_main_v53 (ix2 v j)) = ix1 j := funext fun a => by match a with | ⟨0, _⟩ => rfl
  rw [val_main_v54_apply, val_main_v53_apply, val_main_v52_apply, e4]
  unfold val_main_v51
  rw [accumulate_rows_at]
  simp only [e0, e3, message_at, zero_add]
  rfl

/-! ## The joined row, the hidden layers and the heads -/

/-- The joined row `[phi | rep]` at `(n, i)`. -/
theorem rowPost_at (n : Fin 100000) (i : Fin 128) :
    val_main_v55 (F := Ideal) X t E Wp bp Wg bg (ix2 n i) = rowPost X t E Wp bp Wg bg n i := by
  unfold val_main_v55 rowPost joinCols
  rw [join_cols_at]
  by_cases h : i.val < 64
  · rw [dif_pos h, dif_pos h, phi_at]
  · rw [dif_neg h, dif_neg h, rep_at]

variable (W : FVec Ideal S2x128x128 .f32) (b : FVec Ideal S2x128 .f32)
  (Wo : FVec Ideal S128x1 .f32) (bo : FVec Ideal S1 .f32)

/-- The hidden layer of the head whose stacked weights are the eighth and ninth arguments. -/
theorem hidden0_at (n : Fin 100000) (k : Fin 128) :
    val_main_v82 (F := Ideal) X t E Wp bp Wg bg W b (ix2 n k) = hidden X t E Wp bp Wg bg W b n k := by
  have e1 : ∀ i : Fin 128, lidx_main_v76 (ix2 n k) i = ix2 n i := fun i =>
    funext fun a => by match a with | ⟨0, _⟩ => rfl | ⟨1, _⟩ => rfl
  have e2 : ∀ i : Fin 128, idx_main_v74 (idx_main_v75 (ridx_main_v76 (ix2 n k) i)) = ix3 (1 : Fin 2) i k := fun i =>
    funext fun a => by
      match a with
      | ⟨0, _⟩ => rfl
      | ⟨1, _⟩ =>
        exact Fin.ext (by
          show (i.val * 128 + k.val) / 128 % 128 = i.val
          have := i.isLt; have := k.isLt; omega)
      | ⟨2, _⟩ =>
        exact Fin.ext (by
          show (i.val * 128 + k.val) % 128 = k.val
          have := i.isLt; have := k.isLt; omega)
  have e3 : idx_main_v77 (idx_main_v78 (idx_main_v79 (idx_main_v80 (ix2 n k)))) = ix2 (1 : Fin 2) k :=
    funext fun a => by
      match a with
      | ⟨0, _⟩ => rfl
      | ⟨1, _⟩ => exact Fin.ext (Nat.mod_eq_of_lt k.isLt)
  have e4 : val_main_call4_v0 (F := Ideal) (ix2 n k) = 0 := by
    rw [val_main_call4_v0_apply, val_main_call4_cst_apply]
    exact Ideal.ofBits_zero_f32
  rw [val_main_v82_apply, val_main_v81_apply, val_main_v76_apply, val_main_v80_apply, val_main_v79_apply,
    val_main_v78_apply, val_main_v77_apply, e3, e4]
  simp only [val_main_v75_apply, val_main_v74_apply, e1, e2, rowPost_at]
  rfl

/-- The hidden layer of the head whose stacked weights are the tenth and eleventh arguments. -/
theorem hidden1_at (n : Fin 100000) (k : Fin 128) :
    val_main_v91 (F := Ideal) X t E Wp bp Wg bg W b (ix2 n k) = hidden X t E Wp bp Wg bg W b n k := by
  have e1 : ∀ i : Fin 128, lidx_main_v85 (ix2 n k) i = ix2 n i := fun i =>
    funext fun a => by match a with | ⟨0, _⟩ => rfl | ⟨1, _⟩ => rfl
  have e2 : ∀ i : Fin 128, idx_main_v83 (idx_main_v84 (ridx_main_v85 (ix2 n k) i)) = ix3 (1 : Fin 2) i k := fun i =>
    funext fun a => by
      match a with
      | ⟨0, _⟩ => rfl
      | ⟨1, _⟩ =>
        exact Fin.ext (by
          show (i.val * 128 + k.val) / 128 % 128 = i.val
          have := i.isLt; have := k.isLt; omega)
      | ⟨2, _⟩ =>
        exact Fin.ext (by
          show (i.val * 128 + k.val) % 128 = k.val
          have := i.isLt; have := k.isLt; omega)
  have e3 : idx_main_v86 (idx_main_v87 (idx_main_v88 (idx_main_v89 (ix2 n k)))) = ix2 (1 : Fin 2) k :=
    funext fun a => by
      match a with
      | ⟨0, _⟩ => rfl
      | ⟨1, _⟩ => exact Fin.ext (Nat.mod_eq_of_lt k.isLt)
  have e4 : val_main_call5_v0 (F := Ideal) (ix2 n k) = 0 := by
    rw [val_main_call5_v0_apply, val_main_call5_cst_apply]
    exact Ideal.ofBits_zero_f32
  rw [val_main_v91_apply, val_main_v90_apply, val_main_v85_apply, val_main_v89_apply, val_main_v88_apply,
    val_main_v87_apply, val_main_v86_apply, e3, e4]
  simp only [val_main_v84_apply, val_main_v83_apply, e1, e2, rowPost_at]
  rfl

/-- The output of the head read through the eighth, ninth, twelfth and thirteenth arguments. -/
theorem head0_at (n : Fin 100000) :
    val_main_v96 (F := Ideal) X t E Wp bp Wg bg W b Wo bo (ix1 n) = head X t E Wp bp Wg bg W b Wo bo n := by
  have e0 : idx_main_v96 (ix1 n) = ix2 n (0 : Fin 1) := funext fun a => by
    match a with
    | ⟨0, _⟩ => exact Fin.ext (Nat.div_one n.val)
    | ⟨1, _⟩ => rfl
  have e1 : ∀ k : Fin 128, lidx_main_v92 (ix2 n (0 : Fin 1)) k = ix2 n k := fun k =>
    funext fun a => by match a with | ⟨0, _⟩ => rfl | ⟨1, _⟩ => rfl
  have e2 : ∀ k : Fin 128, ridx_main_v92 (ix2 n (0 : Fin 1)) k = ix2 k (0 : Fin 1) := fun k =>
    funext fun a => by match a with | ⟨0, _⟩ => rfl | ⟨1, _⟩ => rfl
  have e3 : idx_main_v93 (idx_main_v94 (ix2 n (0 : Fin 1))) = ix1 (0 : Fin 1) :=
    funext fun a => by match a with | ⟨0, _⟩ => rfl
  rw [val_main_v96_apply, e0, val_main_v95_apply, val_main_v92_apply, val_main_v94_apply, val_main_v93_apply, e3]
  simp only [e1, e2, hidden0_at]
  rfl

/-- The output of the head read through the tenth, eleventh, fourteenth and fifteenth arguments. -/
theorem head1_at (n : Fin 100000) :
    val_main_v101 (F := Ideal) X t E Wp bp Wg bg W b Wo bo (ix1 n) = head X t E Wp bp Wg bg W b Wo bo n := by
  have e0 : idx_main_v101 (ix1 n) = ix2 n (0 : Fin 1) := funext fun a => by
    match a with
    | ⟨0, _⟩ => exact Fin.ext (Nat.div_one n.val)
    | ⟨1, _⟩ => rfl
  have e1 : ∀ k : Fin 128, lidx_main_v97 (ix2 n (0 : Fin 1)) k = ix2 n k := fun k =>
    funext fun a => by match a with | ⟨0, _⟩ => rfl | ⟨1, _⟩ => rfl
  have e2 : ∀ k : Fin 128, ridx_main_v97 (ix2 n (0 : Fin 1)) k = ix2 k (0 : Fin 1) := fun k =>
    funext fun a => by match a with | ⟨0, _⟩ => rfl | ⟨1, _⟩ => rfl
  have e3 : idx_main_v98 (idx_main_v99 (ix2 n (0 : Fin 1))) = ix1 (0 : Fin 1) :=
    funext fun a => by match a with | ⟨0, _⟩ => rfl
  rw [val_main_v101_apply, e0, val_main_v100_apply, val_main_v97_apply, val_main_v99_apply, val_main_v98_apply, e3]
  simp only [e1, e2, hidden1_at]
  rfl

/-! ## The three results of the run -/

section Results
open Idealize.ShloMosaic.TcCoe Idealize.SL.Sem Idealize.ShloMosaic.StableHlo

variable (m : (ℓ : Loc nD τ sig) → Buf (Elt Ideal) ℓ) (c : Dev nD)

/-- The first result: the head through the tenth, eleventh, fourteenth and fifteenth arguments. -/
theorem res_y1 :
    Cert.ReferenceIdeal.ValueP.res_main_v101 (F := Ideal) m c
      = fun i => head (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg9))
          (m ((c.tc : Thread nD τ).loc main_arg10)) (m ((c.tc : Thread nD τ).loc main_arg13))
          (m ((c.tc : Thread nD τ).loc main_arg14)) (i 0) := by
  rw [val_main_v101_eq]
  funext i
  obtain ⟨n, rfl⟩ : ∃ n : Fin 100000, i = ix1 n := ⟨i 0, eq_ix1 i⟩
  exact head1_at _ _ _ _ _ _ _ _ _ _ _ n

/-- The second result: the head through the eighth, ninth, twelfth and thirteenth arguments. -/
theorem res_y0 :
    Cert.ReferenceIdeal.ValueP.res_main_v96 (F := Ideal) m c
      = fun i => head (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg11))
          (m ((c.tc : Thread nD τ).loc main_arg12)) (i 0) := by
  rw [val_main_v96_eq]
  funext i
  obtain ⟨n, rfl⟩ : ∃ n : Fin 100000, i = ix1 n := ⟨i 0, eq_ix1 i⟩
  exact head0_at _ _ _ _ _ _ _ _ _ _ _ n

/-- The third result: the encoder's activation. -/
theorem res_phi :
    maximumf (F := Ideal) (addf (Host.dotGeneral (φ₁ := .f32) (φ₂ := .f32) dot_S100000x128_S128x64_S100000x64_1_0_0_1_n_n none
        (m ((c.tc : Thread nD τ).loc main_arg0)) (m ((c.tc : Thread nD τ).loc main_arg3)))
        (broadcastInDim S100000x64 ![0, 1] bcast_S1x64_S100000x64_0_1
          (broadcastInDim S1x64 ![1] bcast_S64_S1x64_1 (m ((c.tc : Thread nD τ).loc main_arg4)))))
        (broadcastInDim S100000x64 ![] bcast_S_S100000x64 (constant (F := Ideal) S_ .f32 0x00000000#32))
      = fun i => phi (m ((c.tc : Thread nD τ).loc main_arg0)) (m ((c.tc : Thread nD τ).loc main_arg3))
          (m ((c.tc : Thread nD τ).loc main_arg4)) (i 0) (i 1) := by
  rw [val_main_v4_eq]
  funext i
  obtain ⟨n, j, rfl⟩ : ∃ (n : Fin 100000) (j : Fin 64), i = ix2 n j := ⟨i 0, i 1, eq_ix2 i⟩
  exact phi_at _ _ _ n j

end Results

/-! ## The run, with its results as the network's functions of the arguments -/

section Run
open Idealize.ShloMosaic.TcCoe Idealize.SL.Sem Idealize.ShloMosaic.StableHlo

/-- Every weakly fair execution of the reference ends with its three results equal, entry by entry, to the two heads
    and the encoder's activation of the argument arrays, and with the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v101)
        = (fun i => head (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg9))
            (m ((c.tc : Thread nD τ).loc main_arg10)) (m ((c.tc : Thread nD τ).loc main_arg13))
            (m ((c.tc : Thread nD τ).loc main_arg14)) (i 0))
      ∧ r.2.mem ((c.tc : Thread nD τ).loc main_v96)
        = (fun i => head (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg11))
            (m ((c.tc : Thread nD τ).loc main_arg12)) (i 0))
      ∧ r.2.mem ((c.tc : Thread nD τ).loc main_v4)
        = (fun i => phi (m ((c.tc : Thread nD τ).loc main_arg0)) (m ((c.tc : Thread nD τ).loc main_arg3))
            (m ((c.tc : Thread nD τ).loc main_arg4)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c =>
      ⟨(h c).1.trans (res_y1 m c), (h c).2.1.trans (res_y0 m c), (h c).2.2.1.trans (res_phi m c), (h c).2.2.2⟩)
    (Cert.ReferenceIdeal.ValueP.run (F := Ideal) m ρ)

end Run

end Cert.ReferenceIdeal.RefAt

end
-- ==== Proof.lean ====
/-
  The kernel is a two-layer graph network over 100000 nodes and 1700000 edges (the given edges and one loop per node):
  an encoder `phi = relu (X·Wp + bp)`, a normalised graph convolution of the treated activation, and two heads reading
  the joined row `[phi | convolution]` through one hidden layer and one output column each. The kernel runs the encoder
  and the heads as two grids of 25 row blocks with the edge gather and the accumulation at the targets between them, and
  applies the degree normalisation in two halves: the source's weight to the row table before the edges are summed, the
  target's after. The reference weights each edge by the product of the two. Over the extended reals the two agree when
  every input is a real number — the target's weight distributes over the finite sum — and that is the one place the
  finiteness precondition is used. The kernel's fused layers (two hidden weights side by side, the two output columns on
  a block diagonal padded with zeros) agree with the reference's separate ones with no assumption: a product with zero
  is zero, and a sum may be split into blocks.

  The three frames are the generated ones (the reference's from its run); the idealization rewrote nothing; the
  equivalence joins the kernel's run, read off its frame's fold block by block, with the reference's run, both at the
  specification's functions of the arguments.
-/
import proofs.«153021_j58909771432452_2_alg».proof.Defs
import proofs.«153021_j58909771432452_2_alg».proof.Proof.Gen.Kernel
import proofs.«153021_j58909771432452_2_alg».proof.Proof.Gen.Kernel.Skeleton
import proofs.«153021_j58909771432452_2_alg».proof.Proof.Gen.Kernel.Launch
import proofs.«153021_j58909771432452_2_alg».proof.Proof.Gen.Kernel.Points
import proofs.«153021_j58909771432452_2_alg».proof.Proof.Gen.Kernel.Frame
import proofs.«153021_j58909771432452_2_alg».proof.Proof.Gen.KernelIdeal
import proofs.«153021_j58909771432452_2_alg».proof.Proof.Gen.KernelIdeal.Skeleton
import proofs.«153021_j58909771432452_2_alg».proof.Proof.Gen.KernelIdeal.Launch
import proofs.«153021_j58909771432452_2_alg».proof.Proof.Gen.KernelIdeal.Points
import proofs.«153021_j58909771432452_2_alg».proof.Proof.Gen.KernelIdeal.Frame
import proofs.«153021_j58909771432452_2_alg».proof.Proof.Gen.ReferenceIdeal
import proofs.«153021_j58909771432452_2_alg».proof.Proof.Gen.Pre_finite_inputs
import proofs.«153021_j58909771432452_2_alg».proof.Proof.KernelRun
import proofs.«153021_j58909771432452_2_alg».proof.Proof.KernelValue
import proofs.«153021_j58909771432452_2_alg».proof.Proof.RefAt
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the three results dropped. -/
theorem frame_ri : Cert.frame_ReferenceIdeal := fun m ρ _ =>
  (θ_run Cert.ReferenceIdeal.defs _ _).mono (fun _ h c => (h c).2.2.2) (Cert.ReferenceIdeal.ValueP.run (F := Ideal) m ρ)
theorem preserves : Cert.preserves_Kernel_KernelIdeal := trivial

/-- The idealized kernel's run with its three results at the specification's functions of the arguments. -/
theorem kernel_run (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v54)
          = (fun i => Cert.Gcn.head (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (i 0))
        ∧ r.2.mem ((c.tc : Thread Cert.KernelIdeal.nD Cert.KernelIdeal.τ).loc Cert.KernelIdeal.main_v52)
          = (fun i => Cert.Gcn.head (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (i 0))
        ∧ r.2.mem ((c.tc : Thread Cert.KernelIdeal.nD Cert.KernelIdeal.τ).loc Cert.KernelIdeal.main_v18_0)
          = (fun i => Cert.Gcn.phi (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (i 0) (i 1))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
        ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)) := by
  refine (θ_run Cert.KernelIdeal.defs _ _).mono (fun r h c => ?_) (Cert.KernelIdeal.RunEnd.run (F := Ideal) m ρ)
  obtain ⟨h0, h1, h3, h4, h5, -⟩ := Cert.FiniteArgs.args_real _ _ _ _ _ _ _ _ _ _ _ _ _ _ _ (hpre c)
  exact ⟨(h c).1.trans (Cert.KernelIdeal.Fold.value_y1 m ρ c h0 h1 h3 h4 h5),
    (h c).2.1.trans (Cert.KernelIdeal.Fold.value_y0 m ρ c h0 h1 h3 h4 h5),
    (h c).2.2.1.trans (Cert.KernelIdeal.Fold.value_act m ρ c), (h c).2.2.2⟩

/-- Both idealized programs end with the specification's two heads and activation of the shared arguments. -/
theorem algebraic : Cert.algebraic_KernelIdeal_ReferenceIdeal := by
  intro m ρ m' ρ' hpre hagree
  refine ⟨_, _, _, kernel_run m ρ hpre, ?_⟩
  refine (θ_run Cert.ReferenceIdeal.defs _ _).mono (fun r h c => ?_) (Cert.ReferenceIdeal.RefAt.run_spec m' ρ')
  obtain ⟨e0, e1, e2, e3, e4, e5, e6, e7, e8, e9, e10, e11, e12, e13, e14⟩ := hagree c
  refine ⟨(h c).1.trans ?_, (h c).2.1.trans ?_, (h c).2.2.1.trans ?_, (h c).2.2.2⟩
  · rw [e0, e1, e2, e3, e4, e5, e6, e9, e10, e13, e14]
    rfl
  · rw [e0, e1, e2, e3, e4, e5, e6, e7, e8, e11, e12]
    rfl
  · rw [e0, e3, e4]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
